-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x50 : Shape := ⟨2, ![100000, 50]⟩
abbrev S2x1600000 : Shape := ⟨2, ![2, 1600000]⟩
abbrev S32x50 : Shape := ⟨2, ![32, 50]⟩
abbrev S32 : Shape := ⟨1, ![32]⟩
abbrev S16x32 : Shape := ⟨2, ![16, 32]⟩
abbrev S16 : Shape := ⟨1, ![16]⟩
abbrev S_ : Shape := ⟨0, ![]⟩
abbrev S1x1600000 : Shape := ⟨2, ![1, 1600000]⟩
abbrev S1600000 : Shape := ⟨1, ![1600000]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S32x50 : S_.BroadcastsInDim S32x50 (![] : Fin 0 → Fin S32x50.rank)
  reducesTo_S32x50_S_d0_1 : S32x50.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 4294867296#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S16x32 .f32) (main_arg6 : FVec F S16 .f32) (main_arg7 : FVec F S16x32 .f32) (main_v13 : IVec S_ 1) (main_v16 : IVec S32x50 1) : IVec S_ 1 :=
  let main_c_5 : IVec S_ 1 := constantI S_ 1 1#1
  let main_v17 : IVec S_ 1 := (fun x v => Host.reduce IntOp.andi x v reducesTo_S32x50_S_d0_1 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x32 .f32 := Host.absf main_arg7
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg1 main_v33

def fn {F : FTy → Type} [FloatOps F] (main_arg0 : FVec F S100000x50 .f32) (main_arg1 : IVec S2x1600000 32) (main_arg2 : FVec F S32x50 .f32) (main_arg3 : FVec F S32 .f32) (main_arg4 : FVec F S32x50 .f32) (main_arg5 : FVec F S16x32 .f32) (main_arg6 : FVec F S16 .f32) (main_arg7 : FVec F S16x32 .f32) : IVec S_ 1 :=
  let main_v0 : FVec F S100000x50 .f32 := Host.absf main_arg0
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S32x50 .f32 := Host.absf main_arg2
  let main_cst_0 : FVec F S_ .f32 := constant S_ .f32 0x7F800000#32
  let main_v5 : FVec F S32x50 .f32 := broadcastInDim S32x50 ![] bcast_S_S32x50 main_cst_0
  let main_v6 : IVec S32x50 1 := cmpf .olt main_v4 main_v5
  let main_c_1 : IVec S_ 1 := constantI S_ 1 1#1
  let main_v7 : IVec S_ 1 := (fun x v => Host.reduce IntOp.andi x v reducesTo_S32x50_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x50 .f32 := Host.absf main_arg4
  let main_cst_4 : FVec F S_ .f32 := constant S_ .f32 0x7F800000#32
  let main_v15 : FVec F S32x50 .f32 := broadcastInDim S32x50 ![] bcast_S_S32x50 main_cst_4
  let main_v16 : IVec S32x50 1 := cmpf .olt main_v14 main_v15
  fn_part1 (F := F) main_arg1 main_arg5 main_arg6 main_arg7 main_v13 main_v16
-- ==== Kernel.lean ====
abbrev S100000x50 : Shape := ⟨2, ![100000, 50]⟩
abbrev S2x1600000 : Shape := ⟨2, ![2, 1600000]⟩
abbrev S32x50 : Shape := ⟨2, ![32, 50]⟩
abbrev S32 : Shape := ⟨1, ![32]⟩
abbrev S16x32 : Shape := ⟨2, ![16, 32]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S5000x50 : Shape := ⟨2, ![5000, 50]⟩
abbrev S5000x32 : Shape := ⟨2, ![5000, 32]⟩
abbrev S50x32 : Shape := ⟨2, ![50, 32]⟩
abbrev S1 : Shape := ⟨1, ![1]⟩
abbrev S1x1 : Shape := ⟨2, ![1, 1]⟩
abbrev S1600000x32 : Shape := ⟨2, ![1600000, 32]⟩
abbrev S1x32 : Shape := ⟨2, ![1, 32]⟩
abbrev S5000x1 : Shape := ⟨2, ![5000, 1]⟩
abbrev S5000 : Shape := ⟨1, ![5000]⟩
abbrev S100000x16 : Shape := ⟨2, ![100000, 16]⟩
abbrev S5000x16 : Shape := ⟨2, ![5000, 16]⟩
abbrev S32x16 : Shape := ⟨2, ![32, 16]⟩
abbrev S1600000x16 : Shape := ⟨2, ![1600000, 16]⟩
abbrev S1x16 : Shape := ⟨2, ![1, 16]⟩

abbrev nBuf : Space → Nat
  | .hbm => 85
  | .vmem => 30
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S32x50, .f32⟩
  | .hbm, ⟨3, _⟩ => ⟨S32, .f32⟩
  | .hbm, ⟨4, _⟩ => ⟨S32x50, .f32⟩
  | .hbm, ⟨5, _⟩ => ⟨S16x32, .f32⟩
  | .hbm, ⟨6, _⟩ => ⟨S16, .f32⟩
  | .hbm, ⟨7, _⟩ => ⟨S16x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x32, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1, .i32⟩
  | .hbm, ⟨35, _⟩ => ⟨S_, .i32⟩
  | .hbm, ⟨36, _⟩ => ⟨S1600000x1, .i32⟩
  | .hbm, ⟨37, _⟩ => ⟨S1600000x1, .i1⟩
  | .hbm, ⟨38, _⟩ => ⟨S1x1, .i32⟩
  | .hbm, ⟨39, _⟩ => ⟨S1600000x1, .i32⟩
  | .hbm, ⟨40, _⟩ => ⟨S1600000x1, .i1⟩
  | .hbm, ⟨41, _⟩ => ⟨S1600000x1, .i1⟩
  | .hbm, ⟨42, _⟩ => ⟨S_, .i1⟩
  | .hbm, ⟨43, _⟩ => ⟨S1600000, .i1⟩
  | .hbm, ⟨44, _⟩ => ⟨S1600000x32, .f32⟩
  | .hbm, ⟨45, _⟩ => ⟨S1600000x32, .i1⟩
  | .hbm, ⟨46, _⟩ => ⟨S_, .f32⟩
  | .hbm, ⟨47, _⟩ => ⟨S1600000x32, .f32⟩
  | .hbm, ⟨48, _⟩ => ⟨S1600000x32, .f32⟩
  | .hbm, ⟨49, _⟩ => ⟨S_, .f32⟩
  | .hbm, ⟨50, _⟩ => ⟨S100000x32, .f32⟩
  | .hbm, ⟨51, _⟩ => ⟨S1600000x1, .i32⟩
  | .hbm, ⟨52, _⟩ => ⟨S100000x32, .f32⟩
  | .hbm, ⟨53, _⟩ => ⟨S1x32, .f32⟩
  | .hbm, ⟨54, _⟩ => ⟨S100000x32, .f32⟩
  | .hbm, ⟨55, _⟩ => ⟨S100000x16, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1, .i32⟩
  | .hbm, ⟨65, _⟩ => ⟨S_, .i32⟩
  | .hbm, ⟨66, _⟩ => ⟨S1600000x1, .i32⟩
  | .hbm, ⟨67, _⟩ => ⟨S1600000x1, .i1⟩
  | .hbm, ⟨68, _⟩ => ⟨S1x1, .i32⟩
  | .hbm, ⟨69, _⟩ => ⟨S1600000x1, .i32⟩
  | .hbm, ⟨70, _⟩ => ⟨S1600000x1, .i1⟩
  | .hbm, ⟨71, _⟩ => ⟨S1600000x1, .i1⟩
  | .hbm, ⟨72, _⟩ => ⟨S_, .i1⟩
  | .hbm, ⟨73, _⟩ => ⟨S1600000, .i1⟩
  | .hbm, ⟨74, _⟩ => ⟨S1600000x16, .f32⟩
  | .hbm, ⟨75, _⟩ => ⟨S1600000x16, .i1⟩
  | .hbm, ⟨76, _⟩ => ⟨S_, .f32⟩
  | .hbm, ⟨77, _⟩ => ⟨S1600000x16, .f32⟩
  | .hbm, ⟨78, _⟩ => ⟨S1600000x16, .f32⟩
  | .hbm, ⟨79, _⟩ => ⟨S_, .f32⟩
  | .hbm, ⟨80, _⟩ => ⟨S100000x16, .f32⟩
  | .hbm, ⟨81, _⟩ => ⟨S1600000x1, .i32⟩
  | .hbm, ⟨82, _⟩ => ⟨S100000x16, .f32⟩
  | .hbm, ⟨83, _⟩ => ⟨S1x16, .f32⟩
  | .hbm, ⟨84, _⟩ => ⟨S100000x16, .f32⟩
  | .local _ .vmem, ⟨0, _⟩ => ⟨S5000x50, .f32⟩
  | .local _ .vmem, ⟨1, _⟩ => ⟨S5000x50, .f32⟩
  | .local _ .vmem, ⟨2, _⟩ => ⟨S32x50, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x1, .f32⟩
  | .local _ .vmem, ⟨8, _⟩ => ⟨S5000x1, .f32⟩
  | .local _ .vmem, ⟨9, _⟩ => ⟨S5000x50, .f32⟩
  | .local _ .vmem, ⟨10, _⟩ => ⟨S5000x50, .f32⟩
  | .local _ .vmem, ⟨11, _⟩ => ⟨S32x50, .f32⟩
  | .local _ .vmem, ⟨12, _⟩ => ⟨S1x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S16x32, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x1, .f32⟩
  | .local _ .vmem, ⟨23, _⟩ => ⟨S5000x1, .f32⟩
  | .local _ .vmem, ⟨24, _⟩ => ⟨S5000x32, .f32⟩
  | .local _ .vmem, ⟨25, _⟩ => ⟨S5000x32, .f32⟩
  | .local _ .vmem, ⟨26, _⟩ => ⟨S16x32, .f32⟩
  | .local _ .vmem, ⟨27, _⟩ => ⟨S1x16, .f32⟩
  | .local _ .vmem, ⟨28, _⟩ => ⟨S5000x16, .f32⟩
  | .local _ .vmem, ⟨29, _⟩ => ⟨S5000x16, .f32⟩
  | _, _ => ⟨S100000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v14 : Ref sig .tc := ⟨.hbm, 48, rfl⟩
abbrev main_cst_3 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v21 : Ref sig .tc := ⟨.hbm, 78, rfl⟩
abbrev main_cst_4 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x50_S5000x50_0_0 : ∀ a, (![0, 0] : Fin 2 → Nat) a + S5000x50.size a ≤ S5000x50.size a
  h_S5000x50 : 0 < S5000x50.numel
  bitsLt_bf16_f32 : FTy.bits .bf16 < FTy.bits .f32
  inb_S32x50_S32x50_0_0 : ∀ a, (![0, 0] : Fin 2 → Nat) a + S32x50.size a ≤ S32x50.size a
  h_S32x50 : 0 < S32x50.numel
  transposes_S32x50_p1_0_S50x32 : S32x50.Transposes [1, 0] S50x32
  inb_S5000x32_S5000x32_0_0 : ∀ a, (![0, 0] : Fin 2 → Nat) a + S5000x32.size a ≤ S5000x32.size a
  h_S5000x32 : 0 < S5000x32.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x32 : S5000x1.Broadcasts S5000x32
  broadcasts_S1x32_S5000x32 : S1x32.Broadcasts S5000x32
  reduces_S5000x32_S5000 : S5000x32.Reduces [1] S5000
  shapeCasts_S5000_S5000x1 : S5000.ShapeCasts S5000x1
  inb_S16x32_S16x32_0_0 : ∀ a, (![0, 0] : Fin 2 → Nat) a + S16x32.size a ≤ S16x32.size a
  h_S16x32 : 0 < S16x32.numel
  transposes_S16x32_p1_0_S32x16 : S16x32.Transposes [1, 0] S32x16
  inb_S5000x16_S5000x16_0_0 : ∀ a, (![0, 0] : Fin 2 → Nat) a + S5000x16.size a ≤ S5000x16.size a
  h_S5000x16 : 0 < S5000x16.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S5000x1_S5000x16 : S5000x1.Broadcasts S5000x16
  broadcasts_S1x16_S5000x16 : S1x16.Broadcasts S5000x16
  reduces_S5000x16_S5000 : S5000x16.Reduces [1] S5000
  scatter_S100000_S1600000x1_S1600000_n_0_0_1_wf : ScatterDims.WF S100000 S1600000x1 S1600000 [] [0] [0] 1
  dot_S5000x50_S50x32_S5000x32_1_0_0_1_n_n_wf : DotDims.WF S5000x50 S50x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x50.size a ≤ S100000x50.size a
  hwx0_0 : ∀ i : grid0.Coords, EltTy.bits .f32 = 32 ∨ (Rect.block (s := S100000x50) S5000x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x50.size a ≤ S32x50.size a
  hwx0_1 : ∀ i : grid0.Coords, EltTy.bits .f32 = 32 ∨ (Rect.block (s := S32x50) S32x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x50.size a ≤ S100000x50.size a
  hwx1_2 : ∀ i : grid1.Coords, EltTy.bits .f32 = 32 ∨ (Rect.block (s := S100000x50) S5000x50.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x50.size a ≤ S32x50.size a
  hwx1_3 : ∀ i : grid1.Coords, EltTy.bits .f32 = 32 ∨ (Rect.block (s := S32x50) S32x50.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x32.size a ≤ S16x32.size a
  hwx3_3 : ∀ i : grid3.Coords, EltTy.bits .f32 = 32 ∨ (Rect.block (s := S16x32) S16x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x16.size a ≤ S100000x16.size a
  hwx3_5 : ∀ i : grid3.Coords, EltTy.bits .f32 = 32 ∨ (Rect.block (s := S100000x16) S5000x16.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x50_S50x32_S5000x32_1_0_0_1_n_n : DotDims S5000x50 S50x32 S5000x32 where
  lhsContracting := [1]
  rhsContracting := [0]
  lhsNonContracting := [0]
  rhsNonContracting := [1]
  lhsBatch := []
  rhsBatch := []
  wf := dot_S5000x50_S50x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S5000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x50.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32x50.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v24) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S5000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S16x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v26) S5000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x50 : Shape := ⟨2, ![100000, 50]⟩
abbrev S2x1600000 : Shape := ⟨2, ![2, 1600000]⟩
abbrev S32x50 : Shape := ⟨2, ![32, 50]⟩
abbrev S32 : Shape := ⟨1, ![32]⟩
abbrev S16x32 : Shape := ⟨2, ![16, 32]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x50 : Shape := ⟨2, ![1600000, 50]⟩
abbrev S100000 : Shape := ⟨1, ![100000]⟩
abbrev S100000x1 : Shape := ⟨2, ![100000, 1]⟩
abbrev S50x32 : Shape := ⟨2, ![50, 32]⟩
abbrev S100000x32 : Shape := ⟨2, ![100000, 32]⟩
abbrev S1x32 : Shape := ⟨2, ![1, 32]⟩
abbrev S1600000x32 : Shape := ⟨2, ![1600000, 32]⟩
abbrev S32x16 : Shape := ⟨2, ![32, 16]⟩
abbrev S100000x16 : Shape := ⟨2, ![100000, 16]⟩
abbrev S1x16 : Shape := ⟨2, ![1, 16]⟩

abbrev nBuf : Space → Nat
  | .hbm => 144
  | .vmem => 0
  | .smem => 0
  | _ => 0

abbrev hbmTy0_0 (i : Nat) : BufTy := match i % 128 with
  | 0 => ⟨S100000x50, .f32⟩
  | 1 => ⟨S2x1600000, .i32⟩
  | 2 => ⟨S32x50, .f32⟩
  | 3 => ⟨S32, .f32⟩
  | 4 => ⟨S32x50, .f32⟩
  | 5 => ⟨S16x32, .f32⟩
  | 6 => ⟨S16, .f32⟩
  | 7 => ⟨S16x32, .f32⟩
  | 8 => ⟨S1x1600000, .i32⟩
  | 9 => ⟨S1600000, .i32⟩
  | 10 => ⟨S1x1600000, .i32⟩
  | 11 => ⟨S1600000, .i32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1, .i32⟩
  | 21 => ⟨S_, .i32⟩
  | 22 => ⟨S1600000x1, .i32⟩
  | 23 => ⟨S1600000x1, .i1⟩
  | 24 => ⟨S1x1, .i32⟩
  | 25 => ⟨S1600000x1, .i32⟩
  | 26 => ⟨S1600000x1, .i1⟩
  | 27 => ⟨S1600000x1, .i1⟩
  | 28 => ⟨S_, .i1⟩
  | 29 => ⟨S1600000, .i1⟩
  | 30 => ⟨S1600000x50, .f32⟩
  | 31 => ⟨S1600000x50, .i1⟩
  | 32 => ⟨S_, .f32⟩
  | 33 => ⟨S1600000x50, .f32⟩
  | 34 => ⟨S1600000x50, .f32⟩
  | 35 => ⟨S_, .f32⟩
  | 36 => ⟨S100000x50, .f32⟩
  | 37 => ⟨S1600000x1, .i32⟩
  | 38 => ⟨S100000x50, .f32⟩
  | 39 => ⟨S_, .f32⟩
  | 40 => ⟨S1600000, .f32⟩
  | 41 => ⟨S_, .f32⟩
  | 42 => ⟨S100000, .f32⟩
  | 43 => ⟨S1600000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x50, .f32⟩
  | 50 => ⟨S100000x50, .f32⟩
  | 51 => ⟨S50x32, .f32⟩
  | 52 => ⟨S100000x32, .f32⟩
  | 53 => ⟨S1x32, .f32⟩
  | 54 => ⟨S100000x32, .f32⟩
  | 55 => ⟨S100000x32, .f32⟩
  | 56 => ⟨S50x32, .f32⟩
  | 57 => ⟨S100000x32, .f32⟩
  | 58 => ⟨S100000x32, .f32⟩
  | 59 => ⟨S100000x32, .f32⟩
  | 60 => ⟨S_, .f32⟩
  | 61 => ⟨S100000, .f32⟩
  | 62 => ⟨S100000x1, .f32⟩
  | 63 => ⟨S100000x1, .f32⟩
  | 64 => ⟨S_, .f32⟩
  | 65 => ⟨S100000x1, .f32⟩
  | 66 => ⟨S100000x1, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1, .i32⟩
  | 81 => ⟨S_, .i32⟩
  | 82 => ⟨S1600000x1, .i32⟩
  | 83 => ⟨S1600000x1, .i1⟩
  | 84 => ⟨S1x1, .i32⟩
  | 85 => ⟨S1600000x1, .i32⟩
  | 86 => ⟨S1600000x1, .i1⟩
  | 87 => ⟨S1600000x1, .i1⟩
  | 88 => ⟨S_, .i1⟩
  | 89 => ⟨S1600000, .i1⟩
  | 90 => ⟨S1600000x32, .f32⟩
  | 91 => ⟨S1600000x32, .i1⟩
  | 92 => ⟨S_, .f32⟩
  | 93 => ⟨S1600000x32, .f32⟩
  | 94 => ⟨S1600000x32, .f32⟩
  | 95 => ⟨S_, .f32⟩
  | 96 => ⟨S100000x32, .f32⟩
  | 97 => ⟨S1600000x1, .i32⟩
  | 98 => ⟨S100000x32, .f32⟩
  | 99 => ⟨S_, .f32⟩
  | 100 => ⟨S1600000, .f32⟩
  | 101 => ⟨S_, .f32⟩
  | 102 => ⟨S100000, .f32⟩
  | 103 => ⟨S1600000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x32, .f32⟩
  | 110 => ⟨S100000x32, .f32⟩
  | 111 => ⟨S32x16, .f32⟩
  | 112 => ⟨S100000x16, .f32⟩
  | 113 => ⟨S1x16, .f32⟩
  | 114 => ⟨S100000x16, .f32⟩
  | 115 => ⟨S100000x16, .f32⟩
  | 116 => ⟨S32x16, .f32⟩
  | 117 => ⟨S100000x16, .f32⟩
  | 118 => ⟨S100000x16, .f32⟩
  | 119 => ⟨S100000x16, .f32⟩
  | 120 => ⟨S_, .f32⟩
  | 121 => ⟨S100000, .f32⟩
  | 122 => ⟨S100000x1, .f32⟩
  | 123 => ⟨S100000x1, .f32⟩
  | 124 => ⟨S_, .f32⟩
  | 125 => ⟨S100000x1, .f32⟩
  | 126 => ⟨S100000x1, .f32⟩
  | 127 => ⟨S100000x16, .f32⟩
  | _ => ⟨S100000x50, .f32⟩

abbrev hbmTy0_1 (i : Nat) : BufTy := match i % 128 with
  | 0 => ⟨S100000x16, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x16, .f32⟩
  | 8 => ⟨S100000x16, .f32⟩
  | 9 => ⟨S100000x16, .f32⟩
  | 10 => ⟨S_, .f32⟩
  | 11 => ⟨S100000, .f32⟩
  | 12 => ⟨S100000x1, .f32⟩
  | 13 => ⟨S100000x1, .f32⟩
  | 14 => ⟨S100000x16, .f32⟩
  | 15 => ⟨S100000x16, .f32⟩
  | _ => ⟨S100000x50, .f32⟩

abbrev hbmTy (i : Nat) : BufTy := match i / 128 with
  | 0 => hbmTy0_0 i
  | 1 => hbmTy0_1 i
  | _ => ⟨S100000x50, .f32⟩

abbrev bufTy : (tb : Table) → Fin (tcTables nBuf tb) → BufTy
  | .hbm, ⟨i, _⟩ => hbmTy i
  | _, _ => ⟨S100000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_call1_v2 : Ref sig .tc := ⟨.hbm, 62, rfl⟩
abbrev main_v25 : Ref sig .tc := ⟨.hbm, 63, rfl⟩
abbrev main_cst_3 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call2_cst : Ref sig .tc := ⟨.hbm, 69, rfl⟩
abbrev main_call2_v0 : Ref sig .tc := ⟨.hbm, 70, rfl⟩
abbrev main_v30 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v31 : Ref sig .tc := ⟨.hbm, 94, rfl⟩
abbrev main_cst_4 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_cst_5 : Ref sig .tc := ⟨.hbm, 99, rfl⟩
abbrev main_v35 : Ref sig .tc := ⟨.hbm, 100, rfl⟩
abbrev main_cst_6 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_cst_7 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_call4_v0 : Ref sig .tc := ⟨.hbm, 119, rfl⟩
abbrev main_call4_cst : Ref sig .tc := ⟨.hbm, 120, rfl⟩
abbrev main_call4_v1 : Ref sig .tc := ⟨.hbm, 121, rfl⟩
abbrev main_call4_v2 : Ref sig .tc := ⟨.hbm, 122, rfl⟩
abbrev main_v52 : Ref sig .tc := ⟨.hbm, 123, rfl⟩
abbrev main_cst_8 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_call5_cst : Ref sig .tc := ⟨.hbm, 129, rfl⟩
abbrev main_call5_v0 : Ref sig .tc := ⟨.hbm, 130, rfl⟩
abbrev main_call5_cst_0 : Ref sig .tc := ⟨.hbm, 131, rfl⟩
abbrev main_call5_v1 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_v5 : Ref sig .tc := ⟨.hbm, 136, rfl⟩
abbrev main_call5_v6 : Ref sig .tc := ⟨.hbm, 137, rfl⟩
abbrev main_call5_cst_1 : Ref sig .tc := ⟨.hbm, 138, rfl⟩
abbrev main_call5_v7 : Ref sig .tc := ⟨.hbm, 139, rfl⟩
abbrev main_call5_v8 : Ref sig .tc := ⟨.hbm, 140, rfl⟩
abbrev main_call5_v9 : Ref sig .tc := ⟨.hbm, 141, rfl⟩
abbrev main_call5_v10 : Ref sig .tc := ⟨.hbm, 142, rfl⟩
abbrev main_v57 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x50_0 : S1600000.BroadcastsInDim S1600000x50 (![0] : Fin 1 → Fin S1600000x50.rank)
  bcast_S_S1600000x50 : S_.BroadcastsInDim S1600000x50 (![] : Fin 0 → Fin S1600000x50.rank)
  bcast_S_S100000x50 : S_.BroadcastsInDim S100000x50 (![] : Fin 0 → Fin S100000x50.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x50_0_1 : S100000x1.BroadcastsInDim S100000x50 (![0, 1] : Fin 2 → Fin S100000x50.rank)
  transposes_S32x50_S50x32_1_0 : S32x50.Transposes [1, 0] S50x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  bcast_S100000x1_S100000x16_0_1 : S100000x1.BroadcastsInDim S100000x16 (![0, 1] : Fin 2 → Fin S100000x16.rank)
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  scatter_S100000_S1600000x1_S1600000_n_0_0_1_wf : ScatterDims.WF S100000 S1600000x1 S1600000 [] [0] [0] 1
  dot_S100000x50_S50x32_S100000x32_1_0_0_1_n_n_wf : DotDims.WF S100000x50 S50x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []

variable [Facts₀]

def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x50_S50x32_S100000x32_1_0_0_1_n_n : DotDims S100000x50 S50x32 S100000x32 where
  lhsContracting := [1]
  rhsContracting := [0]
  lhsNonContracting := [0]
  rhsNonContracting := [1]
  lhsBatch := []
  rhsBatch := []
  wf := dot_S100000x50_S50x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KerRun.lean ====
/-
  The kernel program's run with its result named.

  The program is nine segments: stretches of host operations and four TensorCore regions. Every weakly fair execution
  runs them in order, and at the end every unscoped buffer holds the contents the segments' fold leaves: the launch
  memory, each stretch of host operations applied in turn, each region's arrays replaced by what its grid points wrote
  back. So the result buffer ends at that fold's value for it, and the eight arguments, which no segment writes, end as
  launched.
-/
import proofs.«145111_j36661840838929_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the value the
    segments' fold gives it (`W9`: the contents after the last region), and the arguments end as launched. -/
theorem run : θ_run defs (onTc (τ := τ) (main (F := F))) ⟨m, fun _ => 0, ρ⟩ (fun r => ∀ c : Dev nD,
      r.2.mem ((c.tc : Thread nD τ).loc main_v26) = W9 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v26 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.KerTowerA.lean ====
/-
  The kernel program's buffers across its first four boundaries.

  The program's run is a fold over nine segments from the launch memory. A buffer that a stretch of host operations
  does not write, and that is not one of a region's arrays, passes through unchanged; an input window's array passes
  through its region unchanged as well. Here: the first stretch, the first projection region, and the two stretches
  that gather and scatter its output.
-/
import proofs.«145111_j36661840838929_2_alg».proof.Proof.Gen.KernelIdeal.Frame
import Idealize.ShloMosaic.Lib.StableHlo.Run
import Idealize.ShloMosaic.PureOps.Ideal

set_option maxRecDepth 16384

noncomputable section

namespace Cert.KernelIdeal.Tower

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

/-- A stretch of host operations leaves a buffer it does not write as it found it. -/
local macro "host_nw" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## One step at a time -/

theorem W1_main_arg0 : W1 m ρ c (Proc.devRef .tc main_arg0) = W0 m ρ c (Proc.devRef .tc main_arg0) := by host_nw hostOps0
theorem W1_main_arg2 : W1 m ρ c (Proc.devRef .tc main_arg2) = W0 m ρ c (Proc.devRef .tc main_arg2) := by host_nw hostOps0
theorem W1_main_arg3 : W1 m ρ c (Proc.devRef .tc main_arg3) = W0 m ρ c (Proc.devRef .tc main_arg3) := by host_nw hostOps0
theorem W1_main_arg4 : W1 m ρ c (Proc.devRef .tc main_arg4) = W0 m ρ c (Proc.devRef .tc main_arg4) := by host_nw hostOps0
theorem W1_main_arg5 : W1 m ρ c (Proc.devRef .tc main_arg5) = W0 m ρ c (Proc.devRef .tc main_arg5) := by host_nw hostOps0
theorem W1_main_arg6 : W1 m ρ c (Proc.devRef .tc main_arg6) = W0 m ρ c (Proc.devRef .tc main_arg6) := by host_nw hostOps0
theorem W1_main_arg7 : W1 m ρ c (Proc.devRef .tc main_arg7) = W0 m ρ c (Proc.devRef .tc main_arg7) := by host_nw hostOps0
theorem W2_main_arg0 : W2 m ρ c (Proc.devRef .tc main_arg0) = W1 m ρ c (Proc.devRef .tc main_arg0) := (W2_arr m ρ c 0).trans (((dat0 (V1 m ρ) c).arrAt_in 0 rfl _).trans (A_eq0 (V1 m ρ) c 0))
theorem W2_main_v1 : W2 m ρ c (Proc.devRef .tc main_v1) = W1 m ρ c (Proc.devRef .tc main_v1) := W2_of_ne m ρ c main_v1 (by decide)
theorem W2_main_v3 : W2 m ρ c (Proc.devRef .tc main_v3) = W1 m ρ c (Proc.devRef .tc main_v3) := W2_of_ne m ρ c main_v3 (by decide)
theorem W2_main_v12 : W2 m ρ c (Proc.devRef .tc main_v12) = W1 m ρ c (Proc.devRef .tc main_v12) := W2_of_ne m ρ c main_v12 (by decide)
theorem W2_main_arg3 : W2 m ρ c (Proc.devRef .tc main_arg3) = W1 m ρ c (Proc.devRef .tc main_arg3) := W2_of_ne m ρ c main_arg3 (by decide)
theorem W2_main_arg4 : W2 m ρ c (Proc.devRef .tc main_arg4) = W1 m ρ c (Proc.devRef .tc main_arg4) := W2_of_ne m ρ c main_arg4 (by decide)
theorem W2_main_arg5 : W2 m ρ c (Proc.devRef .tc main_arg5) = W1 m ρ c (Proc.devRef .tc main_arg5) := W2_of_ne m ρ c main_arg5 (by decide)
theorem W2_main_arg6 : W2 m ρ c (Proc.devRef .tc main_arg6) = W1 m ρ c (Proc.devRef .tc main_arg6) := W2_of_ne m ρ c main_arg6 (by decide)
theorem W2_main_arg7 : W2 m ρ c (Proc.devRef .tc main_arg7) = W1 m ρ c (Proc.devRef .tc main_arg7) := W2_of_ne m ρ c main_arg7 (by decide)
theorem W3_main_v3 : W3 m ρ c (Proc.devRef .tc main_v3) = W2 m ρ c (Proc.devRef .tc main_v3) := by host_nw hostOps1
theorem W3_main_v12 : W3 m ρ c (Proc.devRef .tc main_v12) = W2 m ρ c (Proc.devRef .tc main_v12) := by host_nw hostOps1
theorem W3_main_arg0 : W3 m ρ c (Proc.devRef .tc main_arg0) = W2 m ρ c (Proc.devRef .tc main_arg0) := by host_nw hostOps1
theorem W3_main_arg3 : W3 m ρ c (Proc.devRef .tc main_arg3) = W2 m ρ c (Proc.devRef .tc main_arg3) := by host_nw hostOps1
theorem W3_main_arg4 : W3 m ρ c (Proc.devRef .tc main_arg4) = W2 m ρ c (Proc.devRef .tc main_arg4) := by host_nw hostOps1
theorem W3_main_arg5 : W3 m ρ c (Proc.devRef .tc main_arg5) = W2 m ρ c (Proc.devRef .tc main_arg5) := by host_nw hostOps1
theorem W3_main_arg6 : W3 m ρ c (Proc.devRef .tc main_arg6) = W2 m ρ c (Proc.devRef .tc main_arg6) := by host_nw hostOps1
theorem W3_main_arg7 : W3 m ρ c (Proc.devRef .tc main_arg7) = W2 m ρ c (Proc.devRef .tc main_arg7) := by host_nw hostOps1
theorem W3_main_v1 : W3 m ρ c (Proc.devRef .tc main_v1) = W2 m ρ c (Proc.devRef .tc main_v1) := by host_nw hostOps1
theorem W4_main_v12 : W4 m ρ c (Proc.devRef .tc main_v12) = W3 m ρ c (Proc.devRef .tc main_v12) := by host_nw hostOps1_1
theorem W4_main_arg0 : W4 m ρ c (Proc.devRef .tc main_arg0) = W3 m ρ c (Proc.devRef .tc main_arg0) := by host_nw hostOps1_1
theorem W4_main_arg4 : W4 m ρ c (Proc.devRef .tc main_arg4) = W3 m ρ c (Proc.devRef .tc main_arg4) := by host_nw hostOps1_1
theorem W4_main_arg5 : W4 m ρ c (Proc.devRef .tc main_arg5) = W3 m ρ c (Proc.devRef .tc main_arg5) := by host_nw hostOps1_1
theorem W4_main_arg6 : W4 m ρ c (Proc.devRef .tc main_arg6) = W3 m ρ c (Proc.devRef .tc main_arg6) := by host_nw hostOps1_1
theorem W4_main_arg7 : W4 m ρ c (Proc.devRef .tc main_arg7) = W3 m ρ c (Proc.devRef .tc main_arg7) := by host_nw hostOps1_1
theorem W4_main_v1 : W4 m ρ c (Proc.devRef .tc main_v1) = W3 m ρ c (Proc.devRef .tc main_v1) := by host_nw hostOps1_1
theorem W4_main_v3 : W4 m ρ c (Proc.devRef .tc main_v3) = W3 m ρ c (Proc.devRef .tc main_v3) := by host_nw hostOps1_1

end Cert.KernelIdeal.Tower

end
-- ==== Proof.LibRowOps.lean ====
/-
  GATHER AND SCATTER OF ROWS, READ AT AN INDEX. StableHLO's `gather` and `scatter` with ONE index column — the
  lowering of `x[idx]`, `x.at[idx].add(v)` for a 2-d array `x` and of `c.at[idx].add(v)` for a 1-d array `c`, at an
  integer vector `idx` presented as an `[E, 1]` array — stated generically in the extents: a gathered element is the
  operand's at the row index read signed and CLAMPED (`rowGather_apply`); an update lands at the row index read signed
  when it is inside the operand and is DROPPED otherwise (`rowScatter_resultIdx?`, `vecScatter_resultIdx?`), so the
  accumulating scatter at an element is the operand's element plus the sum of the updates whose row index is that
  element's row (`rowScatterAdd_apply`, `vecScatterAdd_apply`). Last, the INTEGER scatter of ones into zeros with
  wrapping 32-bit addition: the left fold over the updates adds one per update landing at the element
  (`scatter_ones_fold`), so with fewer than `2 ^ 31` updates the element, read signed, is the number of updates whose
  index is that element (`vecScatter_count`).
-/
import Idealize.ShloMosaic.Lib.ValueIdx
import Idealize.ShloMosaic.PureOps.Contract

noncomputable section

open scoped BigOperators
open Idealize.ShloMosaic Idealize.ShloMosaic.ValueIdx

namespace Cert.Lib

/-! ## A start index read as a row -/

/-- The word `b` read as a signed integer, as a row of an `n`-row array when it is inside `[0, n)`; `none` when it
    is outside (a scatter drops such an update). -/
def row? (n : Nat) {w : Nat} (b : BitVec w) : Option (Fin n) :=
  if h : 0 ≤ b.toInt ∧ b.toInt < n then some ⟨b.toInt.toNat, by omega⟩ else none

/-- The word `b` read as a signed integer and clamped into `[0, n - 1]` (a gather clamps every start index). -/
def clampRow (n : Nat) (hn : 0 < n) {w : Nat} (b : BitVec w) : Fin n := ⟨min b.toInt.toNat (n - 1), by omega⟩

/-- `row?` is `some i` exactly when the word, read signed, is the natural number `i`. -/
theorem row?_eq_some_iff {n w : Nat} (b : BitVec w) (i : Fin n) : row? n b = some i ↔ b.toInt = (i.val : Int) := by
  unfold row?
  constructor
  · intro h
    split at h
    · rename_i hb
      have := congrArg Fin.val (Option.some.inj h)
      simp only at this
      omega
    · exact absurd h (by simp)
  · intro h
    have hb : 0 ≤ b.toInt ∧ b.toInt < n := by have := i.isLt; omega
    rw [dif_pos hb]
    congr 1
    exact Fin.ext (by simp only; omega)

/-- Inside the range the clamped row is the row. -/
theorem clampRow_of_row? {n w : Nat} (hn : 0 < n) (b : BitVec w) (i : Fin n) (h : row? n b = some i) :
    clampRow n hn b = i := by
  rw [row?_eq_some_iff] at h
  refine Fin.ext ?_
  show min b.toInt.toNat (n - 1) = i.val
  have := i.isLt
  omega

/-! ## Gather of rows: `x[idx]` of a 2-d array at a column of row indices -/

section Gather
variable {α : Type}

/-- The dimension numbers of `x[idx, :]`: an operand `[N, D]`, start indices `[E, 1]` (one row index per result
    row), a result `[E, D]`; the row axis is collapsed, the column axis is the one offset axis, slices are `1 × D`. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the operand's row `idx[e, 0]` — read signed and clamped into `[0, N - 1]` — at
    column `k`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N E D wf) x idx (ix2 e k) = x (ix2 (clampRow N hN (idx (ix2 e 0))) k) := by
  unfold Host.gather
  congr 1
  funext a
  refine Fin.ext ?_
  match a with
  | ⟨0, _⟩ =>
    show (rowGather N E D wf).start (ix2 e k) idx 0 + (rowGather N E D wf).batchCoord (ix2 e k) 0
      + (rowGather N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e k) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e k) idx 1 + (rowGather N E D wf).batchCoord (ix2 e k) 1
      + (rowGather N E D wf).offCoord (ix2 e k) 1 = k.val
    rw [GatherDims.batchCoord_eq_zero _ _ _ List.not_mem_nil]
    have hs : (rowGather N E D wf).start (ix2 e k) idx 1 = 0 := by
      unfold GatherDims.start
      rw [dif_neg (show (1 : Fin 2) ∉ (rowGather N E D wf).startIndexMap from (by decide : (1 : Fin 2) ∉ ([0] : List (Fin 2))))]
    have ho : (rowGather N E D wf).offCoord (ix2 e k) 1 = k.val := by
      unfold GatherDims.offCoord
      rw [dif_pos (show (1 : Fin 2) ∈ (rowGather N E D wf).sKept from
        (GatherDims.mem_sKept _ _).2 ⟨(by decide : (1 : Fin 2) ∉ ([0] : List (Fin 2))), List.not_mem_nil⟩)]
      rfl
    rw [hs, ho]; omega

end Gather

/-! ## Scatter of rows: `x.at[idx].add(upd)` of a 2-d array at a column of row indices -/

section Scatter

/-- The dimension numbers of `x.at[idx, :].add(upd)`: an operand `[N, D]`, scatter indices `[E, 1]` (one row index
    per update row), updates `[E, D]`; the operand's row axis is inserted, the updates' column axis is the one window
    axis. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem rowScatter_start_zero (idx : IVec ⟨2, ![E, 1]⟩ w) (e : Fin E) (k : Fin D) :
    (rowScatter N E D wf).start (ix2 e k) idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e k) ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter indices do not name that axis. -/
theorem rowScatter_start_one (idx : IVec ⟨2, ![E, 1]⟩ w) (j : (⟨2, ![E, D]⟩ : Shape).Idx) :
    (rowScatter N E D wf).start j idx 1 = 0 := by
  unfold ScatterDims.start
  rw [dif_neg (show (1 : Fin 2) ∉ (rowScatter N E D wf).scatterDimsToOperandDims from (by decide : (1 : Fin 2) ∉ ([0] : List (Fin 2))))]

/-- The row axis is inserted: no window coordinate there. -/
theorem rowScatter_window_zero (j : (⟨2, ![E, D]⟩ : Shape).Idx) : (rowScatter N E D wf).window j 0 = 0 := by
  unfold ScatterDims.window
  rw [dif_neg (show (0 : Fin 2) ∉ (rowScatter N E D wf).sKept from
    (by decide : (0 : Fin 2) ∉ (List.finRange 2).filter (· ∉ ([0] : List (Fin 2)))))]

/-- On the column axis the window coordinate is the update's column. -/
theorem rowScatter_window_one (e : Fin E) (k : Fin D) : (rowScatter N E D wf).window (ix2 e k) 1 = k.val := by
  unfold ScatterDims.window
  rw [dif_pos (show (1 : Fin 2) ∈ (rowScatter N E D wf).sKept from
    (by decide : (1 : Fin 2) ∈ (List.finRange 2).filter (· ∉ ([0] : List (Fin 2)))))]
  rfl

/-- WHERE UPDATE `(e, k)` LANDS: at row `idx[e, 0]` (read signed) and column `k` when that row is inside the operand,
    nowhere when it is not. -/
theorem rowScatter_resultIdx? (idx : IVec ⟨2, ![E, 1]⟩ w) (e : Fin E) (k : Fin D) :
    (rowScatter N E D wf).resultIdx? (ix2 e k) idx = (row? N (idx (ix2 e 0))).map (fun i => ix2 i k) := by
  have h0 := rowScatter_start_zero wf idx e k
  have h1 := rowScatter_start_one wf idx (ix2 e k)
  have w0 := rowScatter_window_zero wf (ix2 e k)
  have w1 := rowScatter_window_one wf e k
  unfold ScatterDims.resultIdx? row?
  by_cases h : 0 ≤ (idx (ix2 e 0)).toInt ∧ (idx (ix2 e 0)).toInt < (N : Int)
  · have hall : ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro a
      match a with
      | ⟨0, _⟩ =>
        show 0 ≤ (rowScatter N E D wf).start (ix2 e k) idx 0 + ((rowScatter N E D wf).window (ix2 e k) 0 : Nat) ∧
          (rowScatter N E D wf).start (ix2 e k) idx 0 + ((rowScatter N E D wf).window (ix2 e k) 0 : Nat) < (N : Int)
        rw [h0, w0]; simpa using h
      | ⟨1, _⟩ =>
        show 0 ≤ (rowScatter N E D wf).start (ix2 e k) idx 1 + ((rowScatter N E D wf).window (ix2 e k) 1 : Nat) ∧
          (rowScatter N E D wf).start (ix2 e k) idx 1 + ((rowScatter N E D wf).window (ix2 e k) 1 : Nat) < (D : Int)
        rw [h1, w1]; have := k.isLt; omega
    rw [dif_pos hall, dif_pos h]
    simp only [Option.map_some]
    congr 1
    funext a
    refine Fin.ext ?_
    match a with
    | ⟨0, _⟩ =>
      show ((rowScatter N E D wf).start (ix2 e k) idx 0 + ((rowScatter N E D wf).window (ix2 e k) 0 : Nat)).toNat
        = (idx (ix2 e 0)).toInt.toNat
      rw [h0, w0]; simp
    | ⟨1, _⟩ =>
      show ((rowScatter N E D wf).start (ix2 e k) idx 1 + ((rowScatter N E D wf).window (ix2 e k) 1 : Nat)).toNat = k.val
      rw [h1, w1]; simp
  · have hall : ¬ ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro hall
      apply h
      have := hall 0
      rw [h0, w0] at this
      simpa using this
    rw [dif_neg hall, dif_neg h]
    rfl

/-- Two rank-2 indices built from coordinates are equal exactly when the coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Update `(e, k')` lands at `(i, k)` exactly when its row index is `i` and its column is `k`. -/
theorem rowScatter_resultIdx?_eq_some_iff (idx : IVec ⟨2, ![E, 1]⟩ w) (e : Fin E) (k' : Fin D) (i : Fin N) (k : Fin D) :
    (rowScatter N E D wf).resultIdx? (ix2 e k') idx = some (ix2 i k) ↔ row? N (idx (ix2 e 0)) = some i ∧ k' = k := by
  rw [rowScatter_resultIdx?]
  cases hr : row? N (idx (ix2 e 0)) with
  | none => simp
  | some i' => simp [ix2_inj]

end Scatter

/-! ## The accumulating float scatter of rows, read at an element -/

section ScatterAdd
variable {N E D w : Nat} {φ : FTy}

/-- THE ROW SCATTER-ADD READ AT `(i, k)`: the operand's element plus the sum, over the update rows `e` whose row index
    `idx[e, 0]` is `i`, of the update's element `(e, k)`. -/
theorem rowScatterAdd_apply (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (i : Fin N) (k : Fin D) :
    Host.scatterAdd (rowScatter N E D wf) x idx upd (ix2 i k)
      = x (ix2 i k) + ∑ e ∈ Finset.univ.filter (fun e : Fin E => row? N (idx (ix2 e 0)) = some i), upd (ix2 e k) := by
  show x (ix2 i k) + ∑ j ∈ Finset.univ.filter (fun j => (rowScatter N E D wf).resultIdx? j idx = some (ix2 i k)), upd j = _
  congr 1
  rw [Finset.sum_filter, sum_idx2, Finset.sum_filter]
  refine Finset.sum_congr rfl fun e _ => ?_
  simp only [rowScatter_resultIdx?_eq_some_iff]
  by_cases hr : row? N (idx (ix2 e 0)) = some i
  · simp [hr]
  · simp [hr]

end ScatterAdd

/-! ## Scatter into a vector: `x.at[idx].add(upd)` of a 1-d array at a column of indices -/

section VecScatter

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices built from a coordinate are equal exactly when the coordinates are. -/
theorem ix1_inj {n : Nat} (a a' : Fin n) : ix1 a = ix1 a' ↔ a = a' :=
  ⟨fun h => congrFun h 0, fun h => h ▸ rfl⟩

/-- The dimension numbers of `x.at[idx].add(upd)`: an operand `[N]`, scatter indices `[E, 1]` (one index per update),
    updates `[E]`; the operand's one axis is inserted, the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at the scatter index `idx[e, 0]`, read signed. -/
theorem vecScatter_start (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: no window coordinate. -/
theorem vecScatter_window (j : (⟨1, ![E]⟩ : Shape).Idx) : (vecScatter N E wf).window j 0 = 0 := by
  unfold ScatterDims.window
  rw [dif_neg (show (0 : Fin 1) ∉ (vecScatter N E wf).sKept from
    (by decide : (0 : Fin 1) ∉ (List.finRange 1).filter (· ∉ ([0] : List (Fin 1)))))]

/-- WHERE UPDATE `e` LANDS: at `idx[e, 0]` (read signed) when that is inside the operand, nowhere when it is not. -/
theorem vecScatter_resultIdx? (idx : IVec ⟨2, ![E, 1]⟩ w) (e : Fin E) :
    (vecScatter N E wf).resultIdx? (ix1 e) idx = (row? N (idx (ix2 e 0))).map ix1 := by
  have h0 := vecScatter_start wf idx e
  have w0 := vecScatter_window wf (ix1 e)
  unfold ScatterDims.resultIdx? row?
  by_cases h : 0 ≤ (idx (ix2 e 0)).toInt ∧ (idx (ix2 e 0)).toInt < (N : Int)
  · have hall : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro a
      match a with
      | ⟨0, _⟩ =>
        show 0 ≤ (vecScatter N E wf).start (ix1 e) idx 0 + ((vecScatter N E wf).window (ix1 e) 0 : Nat) ∧
          (vecScatter N E wf).start (ix1 e) idx 0 + ((vecScatter N E wf).window (ix1 e) 0 : Nat) < (N : Int)
        rw [h0, w0]; simpa using h
    rw [dif_pos hall, dif_pos h]
    simp only [Option.map_some]
    congr 1
    funext a
    refine Fin.ext ?_
    match a with
    | ⟨0, _⟩ =>
      show ((vecScatter N E wf).start (ix1 e) idx 0 + ((vecScatter N E wf).window (ix1 e) 0 : Nat)).toNat
        = (idx (ix2 e 0)).toInt.toNat
      rw [h0, w0]; simp
  · have hall : ¬ ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro hall
      apply h
      have := hall 0
      rw [h0, w0] at this
      simpa using this
    rw [dif_neg hall, dif_neg h]
    rfl

/-- Update `e` lands at `i` exactly when its index is `i`. -/
theorem vecScatter_resultIdx?_eq_some_iff (idx : IVec ⟨2, ![E, 1]⟩ w) (e : Fin E) (i : Fin N) :
    (vecScatter N E wf).resultIdx? (ix1 e) idx = some (ix1 i) ↔ row? N (idx (ix2 e 0)) = some i := by
  rw [vecScatter_resultIdx?]
  cases hr : row? N (idx (ix2 e 0)) with
  | none => simp
  | some i' => simp [ix1_inj]

/-- THE VECTOR SCATTER-ADD READ AT `i`: the operand's element plus the sum of the updates `e` whose index `idx[e, 0]`
    is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (F := Ideal) (vecScatter N E wf) x idx upd (ix1 i)
      = x (ix1 i) + ∑ e ∈ Finset.univ.filter (fun e : Fin E => row? N (idx (ix2 e 0)) = some i), upd (ix1 e) := by
  show x (ix1 i) + ∑ j ∈ Finset.univ.filter (fun j => (vecScatter N E wf).resultIdx? j idx = some (ix1 i)), upd j = _
  congr 1
  rw [Finset.sum_filter, sum_idx1, Finset.sum_filter]
  refine Finset.sum_congr rfl fun e _ => ?_
  simp only [vecScatter_resultIdx?_eq_some_iff]

end VecScatter

/-! ## The integer scatter of ones: a count -/

section Count

/-- How many positions of `0, …, n - 1` satisfy `p`, counted along the list of them, is the size of the set of them. -/
theorem countP_finRange {n : Nat} (p : Fin n → Prop) [DecidablePred p] :
    (List.finRange n).countP (fun k => decide (p k)) = (Finset.univ.filter p).card := by
  rw [List.countP_eq_length_filter, ← List.toFinset_card_of_nodup ((List.nodup_finRange n).filter _),
    List.toFinset_filter, List.toFinset_finRange]
  congr 1
  ext k
  simp

/-- THE FOLD OF AN INTEGER SCATTER OF ONES over any list of update positions: at operand element `i` it has added, to
    what was there, the number of listed updates that land at `i` (modulo `2 ^ 32`). An update landing elsewhere, or
    nowhere, leaves element `i` as it was. -/
theorem scatter_ones_fold {s si u : Shape} {w : Nat} (d : ScatterDims s si u) (idx : IVec si w)
    (upd : u.Idx → BitVec 32) (hupd : ∀ j, upd j = 1#32) (i : s.Idx) (l : List (Fin u.numel)) (acc : s.Idx → BitVec 32) :
    (l.foldl (fun r n =>
        match d.resultIdx? (u.rowMajor.symm n) idx with
        | some i0 => fun i' => if i' = i0 then IntOp.addi (r i0) (upd (u.rowMajor.symm n)) else r i'
        | none => r) acc) i
      = acc i + BitVec.ofNat 32 (l.countP fun n => decide (d.resultIdx? (u.rowMajor.symm n) idx = some i)) := by
  induction l generalizing acc with
  | nil => simp
  | cons n l ih =>
    rw [List.foldl_cons, ih, List.countP_cons]
    cases hr : d.resultIdx? (u.rowMajor.symm n) idx with
    | none => simp
    | some i0 =>
      by_cases hi : i = i0
      · subst hi
        simp only [if_true, decide_true, IntOp.addi, hupd]
        rw [BitVec.ofNat_add, BitVec.add_assoc]
        congr 1
        rw [BitVec.add_comm]
      · have hne : ¬ (some i0 = some i) := fun h => hi (Option.some.inj h).symm
        simp [hi, hne]

end Count

section VecCount
variable {N E : Nat}

/-- THE INTEGER COUNT: scattering a `1` for every update into a vector of zeros with 32-bit wrapping addition leaves at
    element `i`, read signed, the number of updates `e` whose index `idx[e, 0]` is `i` — there are fewer than `2 ^ 31`
    updates, so the sum never wraps. -/
theorem vecScatter_count (hE : E < 2 ^ 31) (wf : ScatterDims.WF ⟨1, ![N]⟩ ⟨2, ![E, 1]⟩ ⟨1, ![E]⟩ [] [0] [0] 1)
    (idx : IVec ⟨2, ![E, 1]⟩ 32) (i : Fin N) :
    (Host.scatter (vecScatter N E wf) IntOp.addi (fun _ => (0#32 : BitVec 32)) idx (fun _ => (1#32 : BitVec 32)) (ix1 i)).toInt
      = ((Finset.univ.filter (fun e : Fin E => row? N (idx (ix2 e 0)) = some i)).card : Int) := by
  refine (congrArg BitVec.toInt (scatter_ones_fold (vecScatter N E wf) idx (fun _ => 1#32) (fun _ => rfl) (ix1 i)
    (List.finRange (⟨1, ![E]⟩ : Shape).numel) (fun _ => 0#32))).trans ?_
  rw [countP_finRange (fun n => (vecScatter N E wf).resultIdx? ((⟨1, ![E]⟩ : Shape).rowMajor.symm n) idx = some (ix1 i))]
  have hcard : (Finset.univ.filter (fun n : Fin (⟨1, ![E]⟩ : Shape).numel =>
        (vecScatter N E wf).resultIdx? ((⟨1, ![E]⟩ : Shape).rowMajor.symm n) idx = some (ix1 i))).card
      = (Finset.univ.filter (fun e : Fin E => row? N (idx (ix2 e 0)) = some i)).card := by
    refine Finset.card_equiv ((⟨1, ![E]⟩ : Shape).rowMajor.symm.trans idxEquiv1) fun n => ?_
    simp only [Finset.mem_filter, Finset.mem_univ, true_and, Equiv.trans_apply]
    generalize (⟨1, ![E]⟩ : Shape).rowMajor.symm n = j
    obtain ⟨e, rfl⟩ : ∃ e : Fin E, j = ix1 e := ⟨j 0, eq_ix1 j⟩
    rw [vecScatter_resultIdx?_eq_some_iff]
    rfl
  rw [hcard]
  have hle : (Finset.univ.filter (fun e : Fin E => row? N (idx (ix2 e 0)) = some i)).card ≤ E := by
    simpa using Finset.card_le_univ (Finset.univ.filter (fun e : Fin E => row? N (idx (ix2 e 0)) = some i))
  generalize (Finset.univ.filter (fun e : Fin E => row? N (idx (ix2 e 0)) = some i)).card = c at hle ⊢
  rw [BitVec.zero_add, BitVec.toInt_eq_toNat_cond, BitVec.toNat_ofNat]
  have hc : c % 2 ^ 32 = c := Nat.mod_eq_of_lt (by omega)
  rw [hc, if_pos (by omega)]

end VecCount

end Cert.Lib

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.Spec.lean ====
/-
  The mathematics of a two-layer mean-aggregating graph network, free of any program text.

  A graph on `N` nodes is given by `E` edges: edge `e` reads node `r e` and its destination is the word `s e`, read as a
  signed integer; `into s p` is the set of edges whose destination is node `p` (a word outside `[0, N)` lands nowhere).
  One layer takes node features `h : N × K`, weights `wl, wr : D × K` and a bias `b : D` and forms, at node `p` and output
  channel `q`, the mean over incoming edges of the neighbour features, through `wl`, plus the bias, plus the node's own
  features through `wr`. It can be arranged in two ways:

  * `preK`: project every node first, `y n d = ∑ k, h n k · wl d k`, sum `y (r e) q` over the incoming edges, and multiply
    by `1 / max (deg p) 1`;
  * `preR`: sum `h (r e) k` over the incoming edges, divide by `max (deg p) 1`, and project the quotient.

  On the extended reals the two differ at infinities (a product does not distribute over a sum there), and agree when the
  features and `wl` are real: `preK_eq_preR`. The degree is a count, so `max (deg p) 1` is a real number at least one.
  After the layer each row is divided by `max ‖row‖₂ eps`; a row of reals stays a row of reals, because `eps` is a positive
  real. The first layer ends in `max · 0`, the second in the row's log-softmax.
-/
import Idealize.ShloMosaic.PureOps.Ideal
import proofs.«145111_j36661840838929_2_alg».proof.Proof.LibRowOps
import proofs.«145111_j36661840838929_2_alg».proof.Proof.LibERealSum

noncomputable section

namespace Cert.Spec

open Idealize.ShloMosaic Cert.Lib
open scoped BigOperators

variable {N E K D : ℕ}

/-- The lower bound under a row's norm: the value of its float word. -/
def eps : EReal := Ideal.ofBits .f32 0x2B8CBCCC#32

/-! ## The graph sums -/

section Graph
variable (r : Fin E → Fin N) (s : Fin E → BitVec 32)

/-- The edges whose destination word, read signed, is node `p`. -/
def into (p : Fin N) : Finset (Fin E) := Finset.univ.filter (fun e : Fin E => row? N (s e) = some p)

/-- The in-degree of node `p`, as the sum of a one per incoming edge. -/
def deg (p : Fin N) : EReal := ∑ _e ∈ into s p, (1 : EReal)

/-- One over the in-degree, a node without incoming edges counting as degree one. -/
def invDeg (p : Fin N) : EReal := Ideal.div 1 (max (deg s p) 1)

/-- The sum over the incoming edges of node `p` of channel `k` of the node each edge reads. -/
def agg (h : Fin N → Fin K → EReal) (p : Fin N) (k : Fin K) : EReal := ∑ e ∈ into s p, h (r e) k

/-- The layer before normalization, projecting BEFORE the edges are summed. -/
def preK (h : Fin N → Fin K → EReal) (wl : Fin D → Fin K → EReal) (b : Fin D → EReal) (wr : Fin D → Fin K → EReal)
    (p : Fin N) (q : Fin D) : EReal :=
  (agg r s (fun n d => ∑ k, h n k * wl d k) p q * invDeg s p + b q) + ∑ k, h p k * wr q k

/-- The layer before normalization, projecting the MEAN of the summed edges. -/
def preR (h : Fin N → Fin K → EReal) (wl : Fin D → Fin K → EReal) (b : Fin D → EReal) (wr : Fin D → Fin K → EReal)
    (p : Fin N) (q : Fin D) : EReal :=
  ((∑ k, Ideal.div (agg r s h p k) (max (deg s p) 1) * wl q k) + b q) + ∑ k, h p k * wr q k

end Graph

/-! ## The row functions -/

/-- A row's Euclidean norm, bounded below by `eps`. -/
def rowNorm (v : Fin D → EReal) : EReal := max (Ideal.sqrt (∑ j, v j * v j)) eps

/-- Every row divided by its bounded norm. -/
def normalize (u : Fin N → Fin D → EReal) (p : Fin N) (q : Fin D) : EReal := Ideal.div (u p q) (rowNorm (u p))

/-- The positive part, entry by entry. -/
def relu (u : Fin N → Fin D → EReal) (p : Fin N) (q : Fin D) : EReal := max (u p q) 0

/-- A row's largest entry (`⊥` for an empty row). -/
def rowMax (v : Fin D → EReal) : EReal := (Finset.univ : Finset (Fin D)).fold max ⊥ v

/-- A row minus its largest entry, minus the logarithm of the sum of the exponentials of that difference. -/
def logSoftmax (u : Fin N → Fin D → EReal) (p : Fin N) (q : Fin D) : EReal :=
  (u p q - rowMax (u p)) - Ideal.log (∑ j, Ideal.exp (u p j - rowMax (u p)))

/-! ## The two networks -/

section Nets
variable {K₁ D₁ D₂ : ℕ} (r : Fin E → Fin N) (s : Fin E → BitVec 32)
  (x : Fin N → Fin K₁ → EReal) (w1l : Fin D₁ → Fin K₁ → EReal) (b1 : Fin D₁ → EReal) (w1r : Fin D₁ → Fin K₁ → EReal)
  (w2l : Fin D₂ → Fin D₁ → EReal) (b2 : Fin D₂ → EReal) (w2r : Fin D₂ → Fin D₁ → EReal)

/-- Two layers, each projecting before the edges are summed. -/
def kerOut : Fin N → Fin D₂ → EReal :=
  logSoftmax (normalize (preK r s (relu (normalize (preK r s x w1l b1 w1r))) w2l b2 w2r))

/-- Two layers, each projecting the mean. -/
def refOut : Fin N → Fin D₂ → EReal :=
  logSoftmax (normalize (preR r s (relu (normalize (preR r s x w1l b1 w1r))) w2l b2 w2r))

end Nets

/-! ## Reals -/

/-- An extended real that is a real number. -/
def IsReal (a : EReal) : Prop := ∃ t : ℝ, a = (t : EReal)

theorem isReal_coe (t : ℝ) : IsReal (t : EReal) := ⟨t, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb
  exact ⟨Max.max x y, (EReal.coe_strictMono.monotone.map_max).symm⟩

theorem isReal_sum {ι : Type*} (S : Finset ι) (f : ι → EReal) (hf : ∀ i, IsReal (f i)) : IsReal (∑ i ∈ S, f i) := by
  choose g hg using hf
  exact ⟨∑ i ∈ S, g i, by rw [Finset.sum_congr rfl (fun i _ => hg i), sum_coe]⟩

/-- The quotient of a real by a nonzero real. -/
theorem isReal_div {a : EReal} {c : ℝ} (ha : IsReal a) (hc : c ≠ 0) : IsReal (Ideal.div a (c : EReal)) := by
  obtain ⟨x, rfl⟩ := ha
  exact ⟨x * (1 / c), by rw [Ideal.div_coe hc, ← EReal.coe_mul]⟩

/-- The bound `eps` is a positive real. -/
theorem eps_pos : ∃ t : ℝ, 0 < t ∧ eps = (t : EReal) := by
  refine ⟨9223372 / 2 ^ 63, by positivity, ?_⟩
  unfold eps
  simp [Ideal.ofBits, Ideal.ieee, -EReal.coe_mul]
  norm_num

end Cert.Spec

end
-- ==== Proof.LibTake.lean ====
/-
  Rows taken by index, with the out-of-range fill, when every index is in range.

  `jnp.take(x, v, axis=0)` over an array of 100000 rows is printed as: the index wrapped (`v + 100000` where `v < 0`),
  made a column; the test `0 ≤ index ≤ 99999`, and-reduced over the column's unit axis; the rows gathered at the
  column (a gather clamps); and a select that keeps the gathered row where the test holds and a fill row elsewhere.
  When every `v e`, read signed, lies in `[-100000, 100000)` the wrapped index lies in `[0, 99999]`, the test holds at
  every row, and the result at `(e, q)` is `x` at the wrapped row and column `q`: the fill is never read.
-/
import Idealize.ShloMosaic.Lib.ReduceAll
import Idealize.ShloMosaic.Lib.Pipeline.Value
import Idealize.ShloMosaic.Lib.ValueIdx
import Idealize.ShloMosaic.Lib.Affine
import proofs.«145111_j36661840838929_2_alg».proof.Proof.LibRowOps

noncomputable section

namespace Cert.Lib

open Idealize.ShloMosaic Idealize.ShloMosaic.ValueIdx

/-- A left fold by `and` that starts at 1 and meets only 1s ends at 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_ones f l _ ?_ (fun n hn => hl n (List.mem_cons.2 (Or.inr hn)))
    show IntOp.andi init (f a) = 1#1
    rw [h, hl a (List.mem_cons.2 (Or.inl rfl))]
    decide

/-- An and-reduction of an array of 1s, started from 1, is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : ∀ i, init i = 1#1) (hx : ∀ i, x i = 1#1) :
    Host.reduce IntOp.andi x init h hu j = 1#1 := by
  rw [Host.reduce_eq_foldl]
  exact foldl_andi_ones x _ _ (hinit _) (fun n _ => hx n)

/-- The wrapped index: `b + 100000` where `b` is negative, `b` itself elsewhere. -/
def wrapRow (b : BitVec 32) : BitVec 32 := Scalar.select (IntOp.cmpi .slt b 0#32) (IntOp.addi b 100000#32) b

/-- A word in `[-100000, 100000)` wraps into `[0, 99999]`: both tests of the range come out 1. -/
theorem wrapRow_inRange (b : BitVec 32) (h1 : -100000 ≤ b.toInt) (h2 : b.toInt < 100000) :
    IntOp.cmpi .sge (wrapRow b) 0#32 = 1#1 ∧ IntOp.cmpi .sle (wrapRow b) 99999#32 = 1#1 := by
  have h0 : (0#32 : BitVec 32).toInt = 0 := by decide
  have h9 : (99999#32 : BitVec 32).toInt = 99999 := by decide
  have key : 0 ≤ (wrapRow b).toInt ∧ (wrapRow b).toInt ≤ 99999 := by
    unfold wrapRow Scalar.select
    by_cases hneg : b.toInt < 0
    · have hlt : IntOp.cmpi .slt b 0#32 = 1#1 := IntOp.cmpi_slt.2 (by rw [h0]; exact hneg)
      have hlt' : IntOp.cmpi .slt b 0#32 = (1 : BitVec 1) := hlt
      rw [if_pos hlt']
      have hs : (IntOp.addi b 100000#32).toInt = b.toInt + 100000 := by
        show (b + 100000#32).toInt = _
        rw [BitVec.toInt_add]
        have : (100000#32 : BitVec 32).toInt = 100000 := by decide
        rw [this, Int.bmod_def]
        norm_num
        omega
      rw [hs]
      omega
    · have hlt : ¬ IntOp.cmpi .slt b 0#32 = 1#1 := fun hh => hneg (by have := IntOp.cmpi_slt.1 hh; rwa [h0] at this)
      have hlt' : ¬ IntOp.cmpi .slt b 0#32 = (1 : BitVec 1) := hlt
      rw [if_neg hlt']
      omega
  exact ⟨IntOp.cmpi_sge.2 (by rw [h0]; exact key.1), IntOp.cmpi_sle.2 (by rw [h9]; exact key.2)⟩

section Take
variable {E D : ℕ} {α : Type}

/-- The index column: the wrapped indices, one per row. -/
theorem wrapped_column_apply (v z n : IVec ⟨1, ![E]⟩ 32) (hz : ∀ j, z j = 0#32) (hn : ∀ j, n j = 100000#32)
    (hb1 : (⟨1, ![E]⟩ : Shape).BroadcastsInDim ⟨2, ![E, 1]⟩ (![0] : Fin 1 → Fin 2)) (e : Fin E) (u : Fin 1) :
    broadcastInDim ⟨2, ![E, 1]⟩ ![0] hb1 (select (cmpi .slt v z) (addi v n) v) (ix2 e u) = wrapRow (v (ix1 e)) := by
  refine (broadcastInDim_apply _ hb1 _ (ix2 e u) (ix1 e) fun ax => ?_).trans ?_
  · match ax with
    | ⟨0, _⟩ =>
      show e.val = if E = 1 then 0 else e.val
      split
      · have := e.isLt; omega
      · rfl
  · show Scalar.select (IntOp.cmpi .slt (v (ix1 e)) (z (ix1 e))) (IntOp.addi (v (ix1 e)) (n (ix1 e))) (v (ix1 e)) = _
    rw [hz, hn]
    rfl

/-- THE ROWS TAKEN, READ AT `(e, q)`: with every index in `[-100000, 100000)`, the operand at the wrapped row. -/
theorem take_apply (x : (⟨2, ![100000, D]⟩ : Shape).Idx → α) (fill : (⟨2, ![E, D]⟩ : Shape).Idx → α)
    (v z n : IVec ⟨1, ![E]⟩ 32) (hz : ∀ j, z j = 0#32) (hn : ∀ j, n j = 100000#32)
    (hb1 : (⟨1, ![E]⟩ : Shape).BroadcastsInDim ⟨2, ![E, 1]⟩ (![0] : Fin 1 → Fin 2))
    (z2 m2 : IVec ⟨2, ![E, 1]⟩ 32) (hz2 : ∀ j, z2 j = 0#32) (hm2 : ∀ j, m2 j = 99999#32)
    (one : IVec ⟨0, ![]⟩ 1) (hone : ∀ j, one j = 1#1)
    (hr : (⟨2, ![E, 1]⟩ : Shape).ReducesTo [1] ⟨1, ![E]⟩) (hu : 0 < (⟨0, ![]⟩ : Shape).numel)
    (hb5 : (⟨1, ![E]⟩ : Shape).BroadcastsInDim ⟨2, ![E, D]⟩ (![0] : Fin 1 → Fin 2))
    (wf : GatherDims.WF ⟨2, ![100000, D]⟩ ⟨2, ![E, 1]⟩ ⟨2, ![E, D]⟩ [1] [0] [] [0] [] 1 ![1, D])
    (hv : ∀ e : Fin E, -100000 ≤ (v (ix1 e)).toInt ∧ (v (ix1 e)).toInt < 100000) (e : Fin E) (q : Fin D) :
    select (broadcastInDim ⟨2, ![E, D]⟩ ![0] hb5
        (Host.reduce IntOp.andi
          (andi (cmpi .sge (broadcastInDim ⟨2, ![E, 1]⟩ ![0] hb1 (select (cmpi .slt v z) (addi v n) v)) z2)
            (cmpi .sle (broadcastInDim ⟨2, ![E, 1]⟩ ![0] hb1 (select (cmpi .slt v z) (addi v n) v)) m2)) one hr hu))
      (Host.gather (rowGather 100000 E D wf) x (broadcastInDim ⟨2, ![E, 1]⟩ ![0] hb1 (select (cmpi .slt v z) (addi v n) v)))
      fill (ix2 e q)
      = x (ix2 (clampRow 100000 (by norm_num) (wrapRow (v (ix1 e)))) q) := by
  have hmask : broadcastInDim ⟨2, ![E, D]⟩ ![0] hb5
      (Host.reduce IntOp.andi
        (andi (cmpi .sge (broadcastInDim ⟨2, ![E, 1]⟩ ![0] hb1 (select (cmpi .slt v z) (addi v n) v)) z2)
          (cmpi .sle (broadcastInDim ⟨2, ![E, 1]⟩ ![0] hb1 (select (cmpi .slt v z) (addi v n) v)) m2)) one hr hu) (ix2 e q)
      = 1#1 := by
    refine (broadcastInDim_apply _ hb5 _ (ix2 e q) (ix1 e) fun ax => ?_).trans ?_
    · match ax with
      | ⟨0, _⟩ =>
        show e.val = if E = 1 then 0 else e.val
        split
        · have := e.isLt; omega
        · rfl
    · refine reduce_andi_of_all _ _ hr hu (ix1 e) hone fun i => ?_
      obtain ⟨e', u, rfl⟩ : ∃ (e' : Fin E) (u : Fin 1), i = ix2 e' u := ⟨i 0, i 1, eq_ix2 i⟩
      show IntOp.andi
          (IntOp.cmpi .sge (broadcastInDim ⟨2, ![E, 1]⟩ ![0] hb1 (select (cmpi .slt v z) (addi v n) v) (ix2 e' u)) (z2 (ix2 e' u)))
          (IntOp.cmpi .sle (broadcastInDim ⟨2, ![E, 1]⟩ ![0] hb1 (select (cmpi .slt v z) (addi v n) v) (ix2 e' u)) (m2 (ix2 e' u)))
        = 1#1
      rw [wrapped_column_apply v z n hz hn hb1 e' u, hz2, hm2]
      obtain ⟨ha, hb⟩ := wrapRow_inRange (v (ix1 e')) (hv e').1 (hv e').2
      rw [ha, hb]
      decide
  rw [select_apply, hmask]
  show Host.gather (rowGather 100000 E D wf) x _ (ix2 e q) = _
  rw [rowGather_apply (by norm_num : 0 < 100000) wf x _ e q, wrapped_column_apply v z n hz hn hb1 e (0 : Fin 1)]

end Take

end Cert.Lib

end
-- ==== Proof.Graph.lean ====
/-
  The graph an edge array describes.

  The edge array has two rows of 1600000 words: row 0 the node each edge reads, row 1 its destination. Edge `e` reads
  node `rOf a e`: its row-0 word wrapped (a negative id counts from the end) and clamped into the 100000 rows, as a
  gather does; its destination is the row-1 word `sOf a e`, read signed where it is used. A row of the array, sliced
  out and flattened to a vector, reads at `e` that row's word.
-/
import Idealize.ShloMosaic.Lib.ValueLayout
import proofs.«145111_j36661840838929_2_alg».proof.Proof.LibTake

noncomputable section

namespace Cert.Graph

open Idealize.ShloMosaic Idealize.ShloMosaic.ValueIdx Cert.Lib

/-- The node edge `e` reads. -/
def rOf (a : IVec ⟨2, ![2, 1600000]⟩ 32) (e : Fin 1600000) : Fin 100000 :=
  clampRow 100000 (by norm_num) (wrapRow (a (ix2 (0 : Fin 2) e)))

/-- Edge `e`'s destination word. -/
def sOf (a : IVec ⟨2, ![2, 1600000]⟩ 32) (e : Fin 1600000) : BitVec 32 := a (ix2 (1 : Fin 2) e)

variable {E : ℕ} {α : Type}

/-- Row 0 of a two-row array, as a vector. -/
theorem edgeRow0_apply (a : (⟨2, ![2, E]⟩ : Shape).Idx → α) (hs : (⟨2, ![2, E]⟩ : Shape).Slices ![0, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![0, 0] a hs) hc (ix1 e) = a (ix2 (0 : Fin 2) e) :=
  (shapeCast_1a_a_apply _ hc e).trans (extractStridedSlice_apply _ a hs _ _ fun ax =>
    match ax with
    | ⟨0, _⟩ => rfl
    | ⟨1, _⟩ => (Nat.zero_add _).symm)

/-- Row 1 of a two-row array, as a vector. -/
theorem edgeRow1_apply (a : (⟨2, ![2, E]⟩ : Shape).Idx → α) (hs : (⟨2, ![2, E]⟩ : Shape).Slices ![1, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![1, 0] a hs) hc (ix1 e) = a (ix2 (1 : Fin 2) e) :=
  (shapeCast_1a_a_apply _ hc e).trans (extractStridedSlice_apply _ a hs _ _ fun ax =>
    match ax with
    | ⟨0, _⟩ => rfl
    | ⟨1, _⟩ => (Nat.zero_add _).symm)

/-- A vector made a column reads, at `(e, u)`, the vector at `e`. -/
theorem column_apply (v : (⟨1, ![E]⟩ : Shape).Idx → α)
    (hb : (⟨1, ![E]⟩ : Shape).BroadcastsInDim ⟨2, ![E, 1]⟩ (![0] : Fin 1 → Fin 2)) (e : Fin E) (u : Fin 1) :
    broadcastInDim ⟨2, ![E, 1]⟩ ![0] hb v (ix2 e u) = v (ix1 e) :=
  broadcastInDim_apply _ hb v (ix2 e u) (ix1 e) fun ax =>
    match ax with
    | ⟨0, _⟩ => by
      show e.val = if E = 1 then 0 else e.val
      split
      · have := e.isLt; omega
      · rfl

end Cert.Graph

end
-- ==== Proof.LibColumnCast.lean ====
/-
  A vector made a column, read at an entry.

  Reshaping a vector of a entries to an [a, 1] matrix keeps the row-major order, so the matrix's entry (i, 0) is the
  vector's entry i. Generic in the extent and the element type.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibRealEntries.lean ====
/-
  Arrays of real numbers, and the host operations that keep them so.

  On the extended reals an array all of whose entries are real numbers stays one under: re-indexing (a broadcast, a
  gather, a slice), entrywise sums and products, a constant that denotes a real, an accumulating scatter (each entry
  plus a finite sum of updates), a plain matrix product read as a sum, joining two vectors end to end, and the guarded
  reciprocal square root  select (d > 0) (rsqrt d) 0  (rsqrt of a positive real is real; elsewhere the guard picks 0).
-/
import Idealize.ShloMosaic.PureOps.Ideal
import Idealize.ShloMosaic.PureOps.Ideal.Laws
import Idealize.ShloMosaic.Lib.Pipeline.Value
import Idealize.ShloMosaic.Lib.ValueIdx
import proofs.«145111_j36661840838929_2_alg».proof.Proof.LibERealSum

noncomputable section

namespace Cert.Lib

open Idealize.ShloMosaic Idealize.ShloMosaic.ValueIdx

/-- Every entry is a real number. -/
def AllReal {ι : Type} (v : ι → EReal) : Prop := ∀ i, ∃ r : ℝ, v i = (r : EReal)

/-- An array read through any index map. -/
theorem AllReal.reindex {ι κ : Type} {v : ι → EReal} (h : AllReal v) (f : κ → ι) : AllReal (fun j => v (f j)) :=
  fun j => h (f j)

variable {s si t u : Shape} {φ : FTy}

/-- A host gather reads entries of its operand. -/
theorem allReal_gather {w : Nat} (d : GatherDims s si t) (x : s.Idx → EReal) (idx : IVec si w) (h : AllReal x) :
    AllReal (Host.gather d x idx) := fun j => h _

/-- A broadcast reads entries of its operand. -/
theorem allReal_broadcastInDim (dims : Fin s.rank → Fin t.rank) (hb : s.BroadcastsInDim t dims) (x : s.Idx → EReal)
    (h : AllReal x) : AllReal (broadcastInDim t dims hb x) := fun j => h _

/-- An entrywise product. -/
theorem allReal_mulf (a b : FVec Ideal s φ) (ha : AllReal a) (hb : AllReal b) : AllReal (mulf a b) := fun i => by
  obtain ⟨ra, ha⟩ := ha i
  obtain ⟨rb, hb⟩ := hb i
  exact ⟨ra * rb, by show a i * b i = _; rw [ha, hb, EReal.coe_mul]⟩

/-- An entrywise sum. -/
theorem allReal_addf (a b : FVec Ideal s φ) (ha : AllReal a) (hb : AllReal b) : AllReal (addf a b) := fun i => by
  obtain ⟨ra, ha⟩ := ha i
  obtain ⟨rb, hb⟩ := hb i
  exact ⟨ra + rb, by show a i + b i = _; rw [ha, hb, EReal.coe_add]⟩

/-- The zero splat. -/
theorem allReal_zero : AllReal (constant (F := Ideal) s .f32 0x00000000#32) :=
  fun _ => ⟨0, by show Ideal.ofBits .f32 0x00000000#32 = _; rw [Ideal.ofBits_zero_f32]; rfl⟩

/-- A real plus a finite sum of reals is a real. -/
theorem exists_real_add_sum {ι : Type} (S : Finset ι) (a : EReal) (upd : ι → EReal) (ha : ∃ r : ℝ, a = (r : EReal))
    (hu : AllReal upd) : ∃ r : ℝ, a + ∑ j ∈ S, upd j = (r : EReal) := by
  obtain ⟨ra, ha⟩ := ha
  choose f hf using hu
  exact ⟨ra + ∑ j ∈ S, f j, by rw [ha, Finset.sum_congr rfl (fun j _ => hf j), sum_coe, EReal.coe_add]⟩

/-- An accumulating scatter: each entry of the operand plus the finite sum of the updates that land on it. -/
theorem allReal_scatterAdd {w : Nat} (d : ScatterDims s si u) (x : FVec Ideal s φ) (idx : IVec si w) (upd : FVec Ideal u φ)
    (hx : AllReal x) (hu : AllReal upd) : AllReal (Host.scatterAdd d x idx upd) := fun i => by
  show ∃ r : ℝ, Ideal.hostScatterAdd d x idx upd i = (r : EReal)
  unfold Ideal.hostScatterAdd
  exact exists_real_add_sum _ _ _ (hx i) hu

/-- A finite sum of products of reals. -/
theorem exists_real_sum_mul {ι : Type} [Fintype ι] (a b : ι → EReal) (ha : AllReal a) (hb : AllReal b) :
    ∃ r : ℝ, ∑ k, a k * b k = (r : EReal) := by
  choose f hf using ha
  choose g hg using hb
  exact ⟨∑ k, f k * g k, by
    rw [Finset.sum_congr rfl (fun k _ => by rw [hf k, hg k, ← EReal.coe_mul]), sum_coe]⟩

/-- The guarded reciprocal square root of a real: rsqrt where the argument is positive, 0 elsewhere. -/
theorem exists_real_guarded_rsqrt (r : ℝ) :
    ∃ q : ℝ, Scalar.select (Ideal.cmp .ogt (r : EReal) (Ideal.ofBits .f32 0x00000000#32)) (Ideal.rsqrt (r : EReal))
      (Ideal.ofBits .f32 0x00000000#32) = (q : EReal) := by
  rw [Ideal.ofBits_zero_f32]
  unfold Scalar.select Ideal.cmp
  by_cases h : (0 : EReal) < (r : EReal)
  · have hr : 0 < r := EReal.coe_pos.mp h
    refine ⟨(Real.sqrt r)⁻¹, ?_⟩
    simp only [h, decide_true, BitVec.ofBool_true, if_true]
    rw [Ideal.rsqrt_coe, if_neg (not_lt.mpr hr.le), if_neg hr.ne']
  · refine ⟨0, ?_⟩
    simp only [h, decide_false, BitVec.ofBool_false]
    rfl

end Cert.Lib

end
-- ==== Proof.LibRealMore.lean ====
/-
  More operations that keep an array real.

  Beside sums, products, gathers, broadcasts and accumulating scatters (the companion file), an array all of whose
  entries are real numbers stays so under an entrywise maximum, under the host's matrix product (each entry a finite
  sum of products), and under the reciprocal square root of an array that was first clamped below by 1: the maximum
  of a real and 1 is a real number at least 1, and the reciprocal square root of a positive real is a real number.
  The float words 0x3F800000 and 0x00000000 denote the reals 1 and 0.
-/
import proofs.«145111_j36661840838929_2_alg».proof.Proof.LibRealEntries

noncomputable section

namespace Cert.Lib

open Idealize.ShloMosaic Idealize.ShloMosaic.ValueIdx

variable {s sl sr so : Shape} {φ φ₁ φ₂ : FTy}

/-- The float word of 1.0 denotes the real number 1. -/
theorem ofBits_one_f32 : Ideal.ofBits .f32 0x3F800000#32 = ((1 : ℝ) : EReal) := by
  simp [Ideal.ofBits, Ideal.ieee, -EReal.coe_mul]; norm_num

/-- A scalar constant that denotes a real, repeated over any shape, is an array of reals. -/
theorem allReal_splat (t : Shape) (hb : (⟨0, ![]⟩ : Shape).BroadcastsInDim t (![] : Fin 0 → Fin t.rank)) (w : BitVec 32)
    (hw : ∃ r : ℝ, Ideal.ofBits .f32 w = (r : EReal)) :
    AllReal (broadcastInDim t ![] hb (constant (F := Ideal) ⟨0, ![]⟩ .f32 w)) := fun _ => hw

/-- The maximum of two reals is a real. -/
theorem exists_real_max {a b : EReal} (ha : ∃ r : ℝ, a = (r : EReal)) (hb : ∃ r : ℝ, b = (r : EReal)) :
    ∃ r : ℝ, max a b = (r : EReal) := by
  obtain ⟨ra, rfl⟩ := ha
  obtain ⟨rb, rfl⟩ := hb
  exact ⟨max ra rb, (EReal.coe_strictMono.monotone.map_max).symm⟩

/-- An entrywise maximum. -/
theorem allReal_maximumf (a b : FVec Ideal s φ) (ha : AllReal a) (hb : AllReal b) : AllReal (maximumf a b) :=
  fun i => exists_real_max (ha i) (hb i)

/-- The host's matrix product: each entry is a finite sum of products of entries. -/
theorem allReal_dotGeneral (d : DotDims sl sr so) (l : FVec Ideal sl φ₁) (r : FVec Ideal sr φ₂)
    (hl : AllReal l) (hr : AllReal r) : AllReal (Host.dotGeneral d none l r) := fun i => by
  show ∃ q : ℝ, FloatOps.dotGeneral d none .single l r i = (q : EReal)
  rw [Ideal.dotGeneral_apply]
  exact exists_real_sum_mul _ _ (fun k => hl _) (fun k => hr _)

/-- The reciprocal square root of max (a, 1): a real number whenever a is. -/
theorem exists_real_rsqrt_max_one {a : EReal} (ha : ∃ r : ℝ, a = (r : EReal)) :
    ∃ q : ℝ, Ideal.rsqrt (max a (Ideal.ofBits .f32 0x3F800000#32)) = (q : EReal) := by
  obtain ⟨r, rfl⟩ := ha
  rw [ofBits_one_f32, ← EReal.coe_strictMono.monotone.map_max, Ideal.rsqrt_coe]
  have h1 : (1 : ℝ) ≤ max r 1 := le_max_right r 1
  have hpos : (0 : ℝ) < max r 1 := lt_of_lt_of_le one_pos h1
  rw [if_neg (not_lt.mpr hpos.le), if_neg hpos.ne']
  exact ⟨_, rfl⟩

/-- The host's reciprocal square root of an array of reals clamped below by the splat of 1. -/
theorem allReal_rsqrt_max_one (hb : (⟨0, ![]⟩ : Shape).BroadcastsInDim s (![] : Fin 0 → Fin s.rank))
    (a : FVec Ideal s .f32) (ha : AllReal a) :
    AllReal (Host.rsqrt (maximumf a (broadcastInDim s ![] hb (constant (F := Ideal) ⟨0, ![]⟩ .f32 0x3F800000#32)))) :=
  fun i => exists_real_rsqrt_max_one (ha i)

end Cert.Lib

end
-- ==== Proof.KerHostA.lean ====
/-
  The kernel program's first stretch of host operations, read at an index.

  From the buffer contents `Wv` the stretch is entered with: the node each edge reads and each edge's destination are rows
  0 and 1 of the edge array, flattened; the degree of a node is the accumulating scatter of a one per edge into zeros at the
  edges' destinations, so one over `max (degree, 1)`, made a column, reads at node `p` the specification's `invDeg`.
-/
import proofs.«145111_j36661840838929_2_alg».proof.Proof.Gen.KernelIdeal.Frame
import Idealize.ShloMosaic.Lib.StableHlo.Run
import Idealize.ShloMosaic.PureOps.Ideal
import Idealize.ShloMosaic.PureOps.Ideal.Laws
import Idealize.ShloMosaic.Lib.IdealHost
import proofs.«145111_j36661840838929_2_alg».proof.Proof.Spec
import proofs.«145111_j36661840838929_2_alg».proof.Proof.Graph
import proofs.«145111_j36661840838929_2_alg».proof.Proof.LibColumnCast
import proofs.«145111_j36661840838929_2_alg».proof.Proof.LibRealMore

set_option maxRecDepth 16384

noncomputable section

namespace Cert.KernelIdeal.HostValue

open Cert.KernelIdeal Cert.KernelIdeal.Gen
open Idealize.ShloMosaic Idealize.ShloMosaic.TcCoe Idealize.ShloMosaic.Tactic Idealize.ShloMosaic.ValueIdx Idealize.SL.Sem
open Cert.Lib Cert.Graph

/-- One over the degree, generically: the column cast of `a / max (z scattered-add f at col, a')` reads, at node `p`, the
    specification's one over the degree of `p`, when at `p` the arrays `a`, `a'` are one and `z` is zero, the update `f` is
    one at every edge, and the index column holds the destination words `s`. -/
theorem invDeg_term_apply {N E : ℕ}
    (wf : ScatterDims.WF ⟨1, ![N]⟩ ⟨2, ![E, 1]⟩ ⟨1, ![E]⟩ [] [0] [0] 1)
    (hc : (⟨1, ![N]⟩ : Shape).ShapeCasts ⟨2, ![N, 1]⟩)
    (a z a' : FVec Ideal ⟨1, ![N]⟩ .f32) (col : IVec ⟨2, ![E, 1]⟩ 32) (f : FVec Ideal ⟨1, ![E]⟩ .f32)
    (s : Fin E → BitVec 32) (p : Fin N) (u : Fin 1)
    (ha : a (ix1 p) = 1) (hz : z (ix1 p) = 0) (ha' : a' (ix1 p) = 1)
    (hcol : ∀ e, col (ix2 e 0) = s e) (hf : ∀ e, f (ix1 e) = 1) :
    shapeCast ⟨2, ![N, 1]⟩
        (Host.divf (F := Ideal) a (maximumf (Host.scatterAdd (F := Ideal) (vecScatter N E wf) z col f) a')) hc (ix2 p u)
      = Cert.Spec.invDeg s p := by
  rw [shapeCast_a_a1_apply]
  show Ideal.div (a (ix1 p)) (max (Host.scatterAdd (F := Ideal) (vecScatter N E wf) z col f (ix1 p)) (a' (ix1 p))) = _
  rw [vecScatterAdd_apply, ha, hz, ha', zero_add]
  unfold Cert.Spec.invDeg Cert.Spec.deg Cert.Spec.into
  refine congrArg (fun t => Ideal.div 1 (max t 1)) ?_
  exact Finset.sum_congr (Finset.filter_congr fun e _ => by rw [hcol e]) (fun e _ => hf e)

variable (Wv : Valuation τ sig (Elt Ideal))

/-- The node each edge reads: row 0 of the edge array. -/
theorem src_apply (e : Fin 1600000) :
    (StableHlo.after (hostOps0 (F := Ideal)) Wv (Proc.devRef .tc main_v1) : S1600000.Idx → BitVec 32) (ix1 e)
      = (Wv (Proc.devRef .tc main_arg1) : S2x1600000.Idx → BitVec 32) (ix2 (0 : Fin 2) e) := by
  have h : (StableHlo.after (hostOps0 (F := Ideal)) Wv (Proc.devRef .tc main_v1) : S1600000.Idx → BitVec 32)
      = shapeCast S1600000 ((extractStridedSlice S1x1600000 ![0, 0] · slices_S2x1600000_S1x1600000_0_0)
          (Wv (Proc.devRef .tc main_arg1))) shapeCasts_S1x1600000_S1600000 := by
    after_results; rfl
  rw [h]
  exact edgeRow0_apply _ _ _ e

/-- Each edge's destination: row 1 of the edge array. -/
theorem dst_apply (e : Fin 1600000) :
    (StableHlo.after (hostOps0 (F := Ideal)) Wv (Proc.devRef .tc main_v3) : S1600000.Idx → BitVec 32) (ix1 e)
      = (Wv (Proc.devRef .tc main_arg1) : S2x1600000.Idx → BitVec 32) (ix2 (1 : Fin 2) e) := by
  have h : (StableHlo.after (hostOps0 (F := Ideal)) Wv (Proc.devRef .tc main_v3) : S1600000.Idx → BitVec 32)
      = shapeCast S1600000 ((extractStridedSlice S1x1600000 ![1, 0] · slices_S2x1600000_S1x1600000_1_0)
          (Wv (Proc.devRef .tc main_arg1))) shapeCasts_S1x1600000_S1600000 := by
    after_results; rfl
  rw [h]
  exact edgeRow1_apply _ _ _ e

/-- One over the degree, as a column: at node `p` the specification's `invDeg` of the destination words. -/
theorem invDeg_apply (p : Fin 100000) (u : Fin 1) :
    (StableHlo.after (hostOps0 (F := Ideal)) Wv (Proc.devRef .tc main_v12) : S100000x1.Idx → EReal) (ix2 p u)
      = Cert.Spec.invDeg (fun e : Fin 1600000 => (Wv (Proc.devRef .tc main_arg1) : S2x1600000.Idx → BitVec 32) (ix2 (1 : Fin 2) e)) p := by
  have h : (StableHlo.after (hostOps0 (F := Ideal)) Wv (Proc.devRef .tc main_v12) : S100000x1.Idx → EReal)
      = shapeCast S100000x1 (Host.divf (F := Ideal) (broadcastInDim S100000 ![] bcast_S_S100000 (constant (F := Ideal) S_ .f32 0x3F800000#32))
          (maximumf (Host.scatterAdd (F := Ideal) scatter_S100000_S1600000x1_S1600000_n_0_0_1
              (broadcastInDim S100000 ![] bcast_S_S100000 (constant (F := Ideal) S_ .f32 0x00000000#32))
              (broadcastInDim S1600000x1 ![0] bcast_S1600000_S1600000x1_0
                (shapeCast S1600000 ((extractStridedSlice S1x1600000 ![1, 0] · slices_S2x1600000_S1x1600000_1_0)
                  (Wv (Proc.devRef .tc main_arg1))) shapeCasts_S1x1600000_S1600000))
              (broadcastInDim S1600000 ![] bcast_S_S1600000 (constant (F := Ideal) S_ .f32 0x3F800000#32)))
            (broadcastInDim S100000 ![] bcast_S_S100000 (constant (F := Ideal) S_ .f32 0x3F800000#32))))
          shapeCasts_S100000_S100000x1 := by
    after_results; rfl
  have hrec : scatter_S100000_S1600000x1_S1600000_n_0_0_1
      = vecScatter 100000 1600000 scatter_S100000_S1600000x1_S1600000_n_0_0_1_wf := rfl
  have h1 : Ideal.ofBits .f32 0x3F800000#32 = 1 := by rw [ofBits_one_f32, EReal.coe_one]
  have hone : ∀ e : Fin 1600000, (broadcastInDim S1600000 ![] bcast_S_S1600000 (constant (F := Ideal) S_ .f32 0x3F800000#32)) (ix1 e) = 1 := fun e =>
    (broadcastInDim_scalar_apply bcast_S_S1600000 _ (ix1 e)).trans h1
  have hone' : (broadcastInDim S100000 ![] bcast_S_S100000 (constant (F := Ideal) S_ .f32 0x3F800000#32)) (ix1 p) = 1 :=
    (broadcastInDim_scalar_apply bcast_S_S100000 _ (ix1 p)).trans h1
  have hzero : (broadcastInDim S100000 ![] bcast_S_S100000 (constant (F := Ideal) S_ .f32 0x00000000#32)) (ix1 p) = 0 :=
    (broadcastInDim_scalar_apply bcast_S_S100000 _ (ix1 p)).trans Ideal.ofBits_zero_f32
  have hcol : ∀ e : Fin 1600000,
      (broadcastInDim S1600000x1 ![0] bcast_S1600000_S1600000x1_0
        (shapeCast S1600000 ((extractStridedSlice S1x1600000 ![1, 0] · slices_S2x1600000_S1x1600000_1_0)
          (Wv (Proc.devRef .tc main_arg1))) shapeCasts_S1x1600000_S1600000)) (ix2 e 0)
        = (Wv (Proc.devRef .tc main_arg1) : S2x1600000.Idx → BitVec 32) (ix2 (1 : Fin 2) e) := fun e =>
    (column_apply _ _ e 0).trans (edgeRow1_apply _ _ _ e)
  rw [h, hrec]
  have key := invDeg_term_apply (N := 100000) (E := 1600000) scatter_S100000_S1600000x1_S1600000_n_0_0_1_wf
    shapeCasts_S100000_S100000x1
    (broadcastInDim S100000 ![] bcast_S_S100000 (constant (F := Ideal) S_ .f32 0x3F800000#32))
    (broadcastInDim S100000 ![] bcast_S_S100000 (constant (F := Ideal) S_ .f32 0x00000000#32))
    (broadcastInDim S100000 ![] bcast_S_S100000 (constant (F := Ideal) S_ .f32 0x3F800000#32))
    (broadcastInDim S1600000x1 ![0] bcast_S1600000_S1600000x1_0
        (shapeCast S1600000 ((extractStridedSlice S1x1600000 ![1, 0] · slices_S2x1600000_S1x1600000_1_0)
          (Wv (Proc.devRef .tc main_arg1))) shapeCasts_S1x1600000_S1600000))
    (broadcastInDim S1600000 ![] bcast_S_S1600000 (constant (F := Ideal) S_ .f32 0x3F800000#32))
    (fun e : Fin 1600000 => (Wv (Proc.devRef .tc main_arg1) : S2x1600000.Idx → BitVec 32) (ix2 (1 : Fin 2) e)) p u hone' hzero hone' hcol hone
  exact key

end Cert.KernelIdeal.HostValue

end
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.LibAfterAppend.lean ====
/-
  The buffer contents after two stretches of host operations run one after the other are the contents after the
  second stretch, taken from the contents after the first.
-/
import Idealize.ShloMosaic.Lib.StableHlo.Run

namespace Cert.Lib

open Idealize.ShloMosaic Idealize.ShloMosaic.StableHlo

variable {τ : Topo} {sig : RefSig} {Val : EltTy → Type}

/-- The fold of a concatenation of operation lists is the fold of the second list from the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.KerProject.lean ====
/-
  The two projection stages of the layer pair, read off the tiled run: each is a row-tiled matrix product
  out = X · Wᵀ of a [100000, K] array X with a small [B, K] weight matrix W.

  The array X is cut into twenty tiles of 5000 rows; at tile t the body multiplies rows 5000 t … 5000 t + 4999 of X
  with the transpose of the whole of W into a zero accumulator and stores the [5000, B] result as tile t of the output.
  The operands are narrowed to bf16 first, which changes nothing on exact values, so the stored tile at (p, q) is
  ∑ k, X (5000 t + p, k) · W (q, k). Row r of the output lies in tile r / 5000 and in no other, and the twenty tiles
  cover the output, so after the last tile the output array is X · Wᵀ at every index:
  out (p, q) = ∑ k, X (p, k) · W (q, k).

  Everything is stated for ANY contents V of the buffers at the stage's entry: X and W are whatever the stage finds in
  its two input arrays.
-/
import proofs.«145111_j36661840838929_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«145111_j36661840838929_2_alg».proof.Proof.LibMatmul2

noncomputable section

namespace Cert.KernelIdeal.RegValue

open Cert.KernelIdeal Cert.KernelIdeal.Gen Idealize.ShloMosaic Idealize.ShloMosaic.TcCoe Idealize.SL.Sem
open Idealize.ShloMosaic.ValueIdx
open Idealize.ShloMosaic.Pipeline (Dat)

/-- x · wᵀ of an [A,K] tile and a [B,K] weight matrix, both first narrowed to bf16 (the identity on exact values), into
    the zero accumulator: at (p, q) the sum over k of x (p, k) · w (q, k). -/
theorem tile_apply {A K B : ℕ}
    (wf : DotDims.WF ⟨2, ![A, K]⟩ ⟨2, ![K, B]⟩ ⟨2, ![A, B]⟩ [1] [0] [0] [1] [] [])
    (ht : (⟨2, ![B, K]⟩ : Shape).Transposes [1, 0] ⟨2, ![K, B]⟩)
    (hb : FTy.bits .bf16 < FTy.bits .f32)
    (x : FVec Ideal ⟨2, ![A, K]⟩ .f32) (w : FVec Ideal ⟨2, ![B, K]⟩ .f32) (p : Fin A) (q : Fin B) :
    matmul (Cert.Lib.plain2 wf) none (truncf .bf16 x hb) (transpose ⟨2, ![K, B]⟩ [1, 0] (truncf .bf16 w hb) ht)
        (constant ⟨2, ![A, B]⟩ .f32 0x00000000#32) (ix2 p q)
      = ∑ k : Fin K, x (ix2 p k) * w (ix2 q k) := by
  refine (Cert.Lib.matmul2_zero_apply wf _ _ p q).trans ?_
  refine Finset.sum_congr rfl fun k _ => ?_
  rw [transpose_ix2_apply]
  rfl

/-- The first projection's stored tile at (p, q). -/
theorem pay0_apply (x0 : FVec Ideal S5000x50 .f32) (x1 : FVec Ideal S32x50 .f32) (p : Fin 5000) (q : Fin 32) :
    k0_pay1 (F := Ideal) x0 x1 (ix2 p q) = ∑ k : Fin 50, x0 (ix2 p k) * x1 (ix2 q k) := by
  unfold k0_pay1
  exact tile_apply (A := 5000) (K := 50) (B := 32) _ _ _ x0 x1 p q

/-- The second projection's stored tile at (p, q) (its leading shape cast is to the same shape). -/
theorem pay2_apply (x0 : FVec Ideal S5000x32 .f32) (x1 : FVec Ideal S16x32 .f32) (p : Fin 5000) (q : Fin 16) :
    k2_pay1 (F := Ideal) x0 x1 (ix2 p q) = ∑ k : Fin 32, x0 (ix2 p k) * x1 (ix2 q k) := by
  unfold k2_pay1
  rw [shapeCast_self]
  exact tile_apply (A := 5000) (K := 32) (B := 16) _ _ _ x0 x1 p q

/-- Row p of X against row q of W: the [A,B] array X · Wᵀ. -/
def proj {A K B : ℕ} (X : (⟨2, ![A, K]⟩ : Shape).Idx → EReal) (W : (⟨2, ![B, K]⟩ : Shape).Idx → EReal) :
    (⟨2, ![A, B]⟩ : Shape).Idx → EReal :=
  fun i => ∑ k : Fin K, X (ix2 (i 0) k) * W (ix2 (i 1) k)

theorem proj_ix2 {A K B : ℕ} (X : (⟨2, ![A, K]⟩ : Shape).Idx → EReal) (W : (⟨2, ![B, K]⟩ : Shape).Idx → EReal)
    (p : Fin A) (q : Fin B) : proj X W (ix2 p q) = ∑ k : Fin K, X (ix2 p k) * W (ix2 q k) := rfl

/-- The contents of an [a,b] array of f32 values as a function into the extended reals (the identity: it fixes the type
    at which an entry is read). -/
abbrev entries {a b : ℕ} (f : (⟨2, ![a, b]⟩ : Shape).Idx → EReal) : (⟨2, ![a, b]⟩ : Shape).Idx → EReal := f

theorem hz : (![0, 0] : Fin 2 → Nat) = fun _ => 0 := funext fun a => by fin_cases a <;> rfl

variable (V : (c : Dev nD) → (b : Ref sig .tc) → Buf (Elt Ideal) ((c : Thread nD τ).loc b))

/-! ## The first projection (region 0): a [5000,50] row tile against the whole [32,50] weights -/

/-- The block index maps over the grid: row tile t of the input and of the output, the weights whole. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the input tile at point t is row 5000 t + p of the input array. -/
theorem blk0_0 (c : Dev nD) (t : Fin cfg0.N) (p : Fin 5000) (k : Fin 50) (P : Fin 100000)
    (hP : P.val = t.val * 5000 + p.val) :
    (iblk0 (F := Ideal) V c 0 t : FVec Ideal S5000x50 .f32) (ix2 p k)
      = (V c (Pipeline.arrRef spec0 0) : S100000x50.Idx → EReal) (ix2 P k) := by
  obtain ⟨e0, e1, -⟩ := idx0 t
  unfold iblk0
  rw [View.read_apply]
  refine congrArg (V c (Pipeline.arrRef spec0 0) : S100000x50.Idx → EReal) ?_
  funext a
  apply Fin.ext
  match a with
  | ⟨0, _⟩ => show win0_0.index t (0 : Fin 2) * 5000 + 1 * p.val = P.val; rw [e0, hP]; omega
  | ⟨1, _⟩ => show win0_0.index t (1 : Fin 2) * 50 + 1 * k.val = k.val; rw [e1]; omega

/-- The weights' tile at every point is the weights' array. -/
theorem blk0_1 (c : Dev nD) (t : Fin cfg0.N) (q : Fin 32) (k : Fin 50) :
    (iblk0 (F := Ideal) V c 1 t : FVec Ideal S32x50 .f32) (ix2 q k)
      = (V c (Pipeline.arrRef spec0 1) : S32x50.Idx → EReal) (ix2 q k) := by
  obtain ⟨-, -, e2, e3, -⟩ := idx0 t
  unfold iblk0
  rw [View.read_apply]
  refine congrArg (V c (Pipeline.arrRef spec0 1) : S32x50.Idx → EReal) ?_
  funext a
  apply Fin.ext
  match a with
  | ⟨0, _⟩ => show win0_1.index t (0 : Fin 2) * 32 + 1 * q.val = q.val; rw [e2]; omega
  | ⟨1, _⟩ => show win0_1.index t (1 : Fin 2) * 50 + 1 * k.val = k.val; rw [e3]; omega

/-- One tile of the product: when the tile's rows are rows T·5000 + p of X and its weights are W, the stored tile at
    (p, q) is X · Wᵀ at (T·5000 + p, q). -/
theorem tile0 (X : S100000x50.Idx → EReal) (W : S32x50.Idx → EReal) (T : ℕ)
    (x0 : FVec Ideal S5000x50 .f32) (x1 : FVec Ideal S32x50 .f32)
    (h0 : ∀ (p : Fin 5000) (k : Fin 50) (P : Fin 100000), P.val = T * 5000 + p.val → x0 (ix2 p k) = X (ix2 P k))
    (h1 : ∀ (q : Fin 32) (k : Fin 50), x1 (ix2 q k) = W (ix2 q k))
    (p : Fin 5000) (q : Fin 32) (P : Fin 100000) (hP : P.val = T * 5000 + p.val) :
    k0_pay1 (F := Ideal) x0 x1 (ix2 p q) = proj X W (ix2 P q) := by
  rw [pay0_apply, proj_ix2]
  refine Finset.sum_congr rfl fun k _ => ?_
  rw [h0 p k P hP, h1 q k]

/-- What point t writes back is tile t of X · Wᵀ of the two arrays the region found. -/
theorem flushed0 (c : Dev nD) (t : Fin cfg0.N) :
    (dat0 (F := Ideal) V c).flushed 2 t
      = ((cfg0.win 2).blk t).view.read (Elt Ideal)
          (proj (A := 100000) (K := 50) (B := 32) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x50) hz, View.ld_unit_zero (S := S32x50) hz]
  obtain ⟨-, -, -, -, e4, e5⟩ := idx0 t
  have hN : t.val < 20 := lt_of_lt_of_eq t.isLt N_0
  funext j
  have hj0 : (j 0).val < 5000 := (j 0).isLt
  have hj1 : (j 1).val < 32 := (j 1).isLt
  have ej : j = ix2 (⟨(j 0).val, hj0⟩ : Fin 5000) (⟨(j 1).val, hj1⟩ : Fin 32) :=
    funext fun a => match a with | ⟨0, _⟩ => rfl | ⟨1, _⟩ => rfl
  have ee : ((cfg0.win 2).blk t).view.emb j
      = ix2 (⟨t.val * 5000 + (j 0).val, by omega⟩ : Fin 100000) (⟨(j 1).val, hj1⟩ : Fin 32) := by
    funext a
    apply Fin.ext
    match a with
    | ⟨0, _⟩ => show win0_2.index t (0 : Fin 2) * 5000 + 1 * (j 0).val = t.val * 5000 + (j 0).val; rw [e4]; omega
    | ⟨1, _⟩ => show win0_2.index t (1 : Fin 2) * 32 + 1 * (j 1).val = (j 1).val; rw [e5]; omega
  show k0_pay1 (F := Ideal) (iblk0 V c 0 t) (iblk0 V c 1 t) j
      = proj (A := 100000) (K := 50) (B := 32) (V c (Pipeline.arrRef spec0 0)) (V c (Pipeline.arrRef spec0 1))
          (((cfg0.win 2).blk t).view.emb j)
  rw [ee]
  refine (congrArg (k0_pay1 (F := Ideal) (iblk0 V c 0 t) (iblk0 V c 1 t)) ej).trans ?_
  exact tile0 _ _ t.val (iblk0 V c 0 t) (iblk0 V c 1 t) (fun p k P hP => blk0_0 V c t p k P hP)
    (fun q k => blk0_1 V c t q k) _ _ _ rfl

/-- An index of the output array lies in point t's tile iff each coordinate lies in the tile's range on its axis. -/
theorem mem_blk0 (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v13).slice (win0_2.rect t)).set ↔ _
  rw [View.set_slice_whole, Rect.mem_set_unit]
  exact Iff.rfl

/-- Row r of the output lies in the tile of point r / 5000: the twenty tiles cover the array. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have ht : (i 0).val / 5000 < cfg0.N := by rw [show cfg0.N = 20 from N_0]; omega
  refine ⟨⟨(i 0).val / 5000, ht⟩, flush0_2 _, ?_⟩
  obtain ⟨-, -, -, -, e4, e5⟩ := idx0 ⟨(i 0).val / 5000, ht⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 32 ≤ (i 1).val
      ∧ (i 1).val < win0_2.index ⟨(i 0).val / 5000, ht⟩ (1 : Fin 2) * 32 + 32
    rw [e5]; omega

/-- The first projection's output array after all twenty points is X · Wᵀ of the arrays the region found. -/
theorem final0 (c : Dev nD) :
    (dat0 (F := Ideal) V c).arrAt 2 cfg0.N
      = proj (A := 100000) (K := 50) (B := 32) (V c (Pipeline.arrRef spec0 0)) (V c (Pipeline.arrRef spec0 1)) :=
  (dat0 (F := Ideal) V c).arrAt_eq_of_cover 2 _ (fun t _ => flushed0 V c t) cover0

/-- The first projection at an index: row p of the input against row q of the weights. -/
theorem project0 (c : Dev nD) (p : Fin 100000) (q : Fin 32) :
    (Gen.dat0 (F := Ideal) V c).arrAt 2 cfg0.N (ix2 p q)
      = ∑ k : Fin 50, entries (a := 100000) (b := 50) (V c (Pipeline.arrRef spec0 0)) (ix2 p k)
          * entries (a := 32) (b := 50) (V c (Pipeline.arrRef spec0 1)) (ix2 q k) :=
  (congrFun (final0 V c) (ix2 p q)).trans (proj_ix2 _ _ p q)

/-- The same with the two arrays the region found named: whatever functions X and W they are. -/
theorem project0_of (c : Dev nD) (X : S100000x50.Idx → EReal) (W : S32x50.Idx → EReal)
    (hX : V c (Pipeline.arrRef spec0 0) = X) (hW : V c (Pipeline.arrRef spec0 1) = W)
    (p : Fin 100000) (q : Fin 32) :
    (Gen.dat0 (F := Ideal) V c).arrAt 2 cfg0.N (ix2 p q) = ∑ k : Fin 50, X (ix2 p k) * W (ix2 q k) := by
  subst hX hW
  exact project0 V c p q

/-! ## The second projection (region 2): a [5000,32] row tile against the whole [16,32] weights -/

/-- The block index maps over the grid: row tile t of the input and of the output, the weights whole. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the input tile at point t is row 5000 t + p of the input array. -/
theorem blk2_0 (c : Dev nD) (t : Fin cfg2.N) (p : Fin 5000) (k : Fin 32) (P : Fin 100000)
    (hP : P.val = t.val * 5000 + p.val) :
    (iblk2 (F := Ideal) V c 0 t : FVec Ideal S5000x32 .f32) (ix2 p k)
      = (V c (Pipeline.arrRef spec2 0) : S100000x32.Idx → EReal) (ix2 P k) := by
  obtain ⟨e0, e1, -⟩ := idx2 t
  unfold iblk2
  rw [View.read_apply]
  refine congrArg (V c (Pipeline.arrRef spec2 0) : S100000x32.Idx → EReal) ?_
  funext a
  apply Fin.ext
  match a with
  | ⟨0, _⟩ => show win2_0.index t (0 : Fin 2) * 5000 + 1 * p.val = P.val; rw [e0, hP]; omega
  | ⟨1, _⟩ => show win2_0.index t (1 : Fin 2) * 32 + 1 * k.val = k.val; rw [e1]; omega

/-- The weights' tile at every point is the weights' array. -/
theorem blk2_1 (c : Dev nD) (t : Fin cfg2.N) (q : Fin 16) (k : Fin 32) :
    (iblk2 (F := Ideal) V c 1 t : FVec Ideal S16x32 .f32) (ix2 q k)
      = (V c (Pipeline.arrRef spec2 1) : S16x32.Idx → EReal) (ix2 q k) := by
  obtain ⟨-, -, e2, e3, -⟩ := idx2 t
  unfold iblk2
  rw [View.read_apply]
  refine congrArg (V c (Pipeline.arrRef spec2 1) : S16x32.Idx → EReal) ?_
  funext a
  apply Fin.ext
  match a with
  | ⟨0, _⟩ => show win2_1.index t (0 : Fin 2) * 16 + 1 * q.val = q.val; rw [e2]; omega
  | ⟨1, _⟩ => show win2_1.index t (1 : Fin 2) * 32 + 1 * k.val = k.val; rw [e3]; omega

/-- One tile of the product: when the tile's rows are rows T·5000 + p of X and its weights are W, the stored tile at
    (p, q) is X · Wᵀ at (T·5000 + p, q). -/
theorem tile2 (X : S100000x32.Idx → EReal) (W : S16x32.Idx → EReal) (T : ℕ)
    (x0 : FVec Ideal S5000x32 .f32) (x1 : FVec Ideal S16x32 .f32)
    (h0 : ∀ (p : Fin 5000) (k : Fin 32) (P : Fin 100000), P.val = T * 5000 + p.val → x0 (ix2 p k) = X (ix2 P k))
    (h1 : ∀ (q : Fin 16) (k : Fin 32), x1 (ix2 q k) = W (ix2 q k))
    (p : Fin 5000) (q : Fin 16) (P : Fin 100000) (hP : P.val = T * 5000 + p.val) :
    k2_pay1 (F := Ideal) x0 x1 (ix2 p q) = proj X W (ix2 P q) := by
  rw [pay2_apply, proj_ix2]
  refine Finset.sum_congr rfl fun k _ => ?_
  rw [h0 p k P hP, h1 q k]

/-- What point t writes back is tile t of X · Wᵀ of the two arrays the region found. -/
theorem flushed2 (c : Dev nD) (t : Fin cfg2.N) :
    (dat2 (F := Ideal) V c).flushed 2 t
      = ((cfg2.win 2).blk t).view.read (Elt Ideal)
          (proj (A := 100000) (K := 32) (B := 16) (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x32) hz, View.ld_unit_zero (S := S16x32) hz]
  obtain ⟨-, -, -, -, e4, e5⟩ := idx2 t
  have hN : t.val < 20 := lt_of_lt_of_eq t.isLt N_2
  funext j
  have hj0 : (j 0).val < 5000 := (j 0).isLt
  have hj1 : (j 1).val < 16 := (j 1).isLt
  have ej : j = ix2 (⟨(j 0).val, hj0⟩ : Fin 5000) (⟨(j 1).val, hj1⟩ : Fin 16) :=
    funext fun a => match a with | ⟨0, _⟩ => rfl | ⟨1, _⟩ => rfl
  have ee : ((cfg2.win 2).blk t).view.emb j
      = ix2 (⟨t.val * 5000 + (j 0).val, by omega⟩ : Fin 100000) (⟨(j 1).val, hj1⟩ : Fin 16) := by
    funext a
    apply Fin.ext
    match a with
    | ⟨0, _⟩ => show win2_2.index t (0 : Fin 2) * 5000 + 1 * (j 0).val = t.val * 5000 + (j 0).val; rw [e4]; omega
    | ⟨1, _⟩ => show win2_2.index t (1 : Fin 2) * 16 + 1 * (j 1).val = (j 1).val; rw [e5]; omega
  show k2_pay1 (F := Ideal) (iblk2 V c 0 t) (iblk2 V c 1 t) j
      = proj (A := 100000) (K := 32) (B := 16) (V c (Pipeline.arrRef spec2 0)) (V c (Pipeline.arrRef spec2 1))
          (((cfg2.win 2).blk t).view.emb j)
  rw [ee]
  refine (congrArg (k2_pay1 (F := Ideal) (iblk2 V c 0 t) (iblk2 V c 1 t)) ej).trans ?_
  exact tile2 _ _ t.val (iblk2 V c 0 t) (iblk2 V c 1 t) (fun p k P hP => blk2_0 V c t p k P hP)
    (fun q k => blk2_1 V c t q k) _ _ _ rfl

/-- An index of the output array lies in point t's tile iff each coordinate lies in the tile's range on its axis. -/
theorem mem_blk2 (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v20).slice (win2_2.rect t)).set ↔ _
  rw [View.set_slice_whole, Rect.mem_set_unit]
  exact Iff.rfl

/-- Row r of the output lies in the tile of point r / 5000: the twenty tiles cover the array. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have ht : (i 0).val / 5000 < cfg2.N := by rw [show cfg2.N = 20 from N_2]; omega
  refine ⟨⟨(i 0).val / 5000, ht⟩, flush2_2 _, ?_⟩
  obtain ⟨-, -, -, -, e4, e5⟩ := idx2 ⟨(i 0).val / 5000, ht⟩
  rw [mem_blk2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 16 ≤ (i 1).val
      ∧ (i 1).val < win2_2.index ⟨(i 0).val / 5000, ht⟩ (1 : Fin 2) * 16 + 16
    rw [e5]; omega

/-- The second projection's output array after all twenty points is X · Wᵀ of the arrays the region found. -/
theorem final2 (c : Dev nD) :
    (dat2 (F := Ideal) V c).arrAt 2 cfg2.N
      = proj (A := 100000) (K := 32) (B := 16) (V c (Pipeline.arrRef spec2 0)) (V c (Pipeline.arrRef spec2 1)) :=
  (dat2 (F := Ideal) V c).arrAt_eq_of_cover 2 _ (fun t _ => flushed2 V c t) cover2

/-- The second projection at an index: row p of the input against row q of the weights. -/
theorem project2 (c : Dev nD) (p : Fin 100000) (q : Fin 16) :
    (Gen.dat2 (F := Ideal) V c).arrAt 2 cfg2.N (ix2 p q)
      = ∑ k : Fin 32, entries (a := 100000) (b := 32) (V c (Pipeline.arrRef spec2 0)) (ix2 p k)
          * entries (a := 16) (b := 32) (V c (Pipeline.arrRef spec2 1)) (ix2 q k) :=
  (congrFun (final2 V c) (ix2 p q)).trans (proj_ix2 _ _ p q)

/-- The same with the two arrays the region found named: whatever functions X and W they are. -/
theorem project2_of (c : Dev nD) (X : S100000x32.Idx → EReal) (W : S16x32.Idx → EReal)
    (hX : V c (Pipeline.arrRef spec2 0) = X) (hW : V c (Pipeline.arrRef spec2 1) = W)
    (p : Fin 100000) (q : Fin 16) :
    (Gen.dat2 (F := Ideal) V c).arrAt 2 cfg2.N (ix2 p q) = ∑ k : Fin 32, X (ix2 p k) * W (ix2 q k) := by
  subst hX hW
  exact project2 V c p q

end Cert.KernelIdeal.RegValue

end
-- ==== Proof.KerHostC.lean ====
/-
  The kernel program's two take-and-scatter stretches of host operations, read at an index.

  Between a projection and its combining stage each layer does, on the host: take the projected array's rows at the
  edges' source ids (the id wrapped — a negative id counts from the end — made a column, tested against [0, 99999],
  gathered, and the gathered row kept where the test holds); sum the taken rows into the rows named by the edges'
  destination ids (an accumulating row scatter into zeros: an id outside the array drops its row); and view the bias vector
  as a one-row array. From ANY buffer contents `Wv` a stretch is entered with:
  * when every source id, read signed, lies in [-100000, 100000), the taken array at (e, q) is the projected array at the
    wrapped and clamped row of edge e, column q — the test holds everywhere and the fill is never read;
  * the scattered array at (p, q) is 0 plus the sum of the taken entries (e, q) over the edges e whose destination id is p;
  * the one-row bias at (u, q) is the bias at q.
  The second layer is the first with 16 columns for 32.
-/
import proofs.«145111_j36661840838929_2_alg».proof.Proof.Gen.KernelIdeal.Launch
import Idealize.ShloMosaic.Lib.StableHlo.Run
import Idealize.ShloMosaic.Lib.ValueLayout
import Idealize.ShloMosaic.PureOps.Ideal
import Idealize.ShloMosaic.PureOps.Ideal.Laws
import proofs.«145111_j36661840838929_2_alg».proof.Proof.Graph
import proofs.«145111_j36661840838929_2_alg».proof.Proof.LibTake
import proofs.«145111_j36661840838929_2_alg».proof.Proof.LibRowOps
import proofs.«145111_j36661840838929_2_alg».proof.Proof.LibTypedRefs
import proofs.«145111_j36661840838929_2_alg».proof.Proof.LibAfterAppend
import proofs.«145111_j36661840838929_2_alg».proof.Proof.KerProject

set_option maxRecDepth 16384

noncomputable section

namespace Cert.KernelIdeal.HostValue

open Cert.KernelIdeal Cert.KernelIdeal.Gen
open Idealize.ShloMosaic Idealize.ShloMosaic.TcCoe Idealize.ShloMosaic.Tactic Idealize.ShloMosaic.ValueIdx Idealize.SL.Sem
open Cert.Lib Cert.Graph
open Cert.KernelIdeal.RegValue (entries)

variable (Wv : Valuation τ sig (Elt Ideal))

/-! ## A typed reference at a literal buffer moves contents by the identity -/

/-- Contents read at the array type of `main_v1` are the contents: the two types are the same. -/
theorem ofBuf_main_v1 (h1 h2 h3) (v : (Proc.devRef (τ := τ) .tc main_v1).ty.Contents (Elt Ideal)) :
    (StableHlo.TRef.of (sig := sig) (T := ⟨S1600000, .i32⟩) main_v1 h1 h2 h3).ofBuf v = v := rfl

/-- Contents read at the array type of `main_v13` are the contents: the two types are the same. -/
theorem ofBuf_main_v13 (h1 h2 h3) (v : (Proc.devRef (τ := τ) .tc main_v13).ty.Contents (Elt Ideal)) :
    (StableHlo.TRef.of (sig := sig) (T := ⟨S100000x32, .f32⟩) main_v13 h1 h2 h3).ofBuf v = v := rfl

/-- Contents stored at the array type of `main_v14` are the contents: the two types are the same. -/
theorem toBuf_main_v14 (h1 h2 h3) (v : (⟨S1600000x32, .f32⟩ : BufTy).Contents (Elt Ideal)) :
    (StableHlo.TRef.of (sig := sig) (T := ⟨S1600000x32, .f32⟩) main_v14 h1 h2 h3).toBuf v = v := rfl

/-- Contents read at the array type of `main_v20` are the contents: the two types are the same. -/
theorem ofBuf_main_v20 (h1 h2 h3) (v : (Proc.devRef (τ := τ) .tc main_v20).ty.Contents (Elt Ideal)) :
    (StableHlo.TRef.of (sig := sig) (T := ⟨S100000x16, .f32⟩) main_v20 h1 h2 h3).ofBuf v = v := rfl

/-- Contents stored at the array type of `main_v21` are the contents: the two types are the same. -/
theorem toBuf_main_v21 (h1 h2 h3) (v : (⟨S1600000x16, .f32⟩ : BufTy).Contents (Elt Ideal)) :
    (StableHlo.TRef.of (sig := sig) (T := ⟨S1600000x16, .f32⟩) main_v21 h1 h2 h3).toBuf v = v := rfl

/-! ## The first layer -/

/-- The rows taken for the first layer: with every source word in [-100000, 100000) the inlined take reads, at (e, q),
    the projected array at the wrapped and clamped row of edge e's source word, column q; the fill is never read. -/
theorem take1_apply
    (hv : ∀ e : Fin 1600000, -100000 ≤ ((Wv (Proc.devRef .tc main_v1) : S1600000.Idx → BitVec 32) (ix1 e)).toInt ∧ ((Wv (Proc.devRef .tc main_v1) : S1600000.Idx → BitVec 32) (ix1 e)).toInt < 100000)
    (e : Fin 1600000) (q : Fin 32) :
    (StableHlo.after (hostOps1 (F := Ideal)) Wv (Proc.devRef .tc main_v14) : S1600000x32.Idx → EReal) (ix2 e q)
      = (Wv (Proc.devRef .tc main_v13) : S100000x32.Idx → EReal)
          (ix2 (clampRow 100000 (by norm_num) (wrapRow ((Wv (Proc.devRef .tc main_v1) : S1600000.Idx → BitVec 32) (ix1 e)))) q) := by
  have h : (StableHlo.after (hostOps1 (F := Ideal)) Wv (Proc.devRef .tc main_v14) : S1600000x32.Idx → EReal)
      = select (broadcastInDim S1600000x32 ![0] bcast_S1600000_S1600000x32_0
          (Host.reduce IntOp.andi
            (andi (cmpi .sge (broadcastInDim S1600000x1 ![0] bcast_S1600000_S1600000x1_0 (select (cmpi .slt (Wv (Proc.devRef .tc main_v1) : S1600000.Idx → BitVec 32) (broadcastInDim S1600000 ![] bcast_S_S1600000 (constantI S_ 32 0#32))) (addi (Wv (Proc.devRef .tc main_v1) : S1600000.Idx → BitVec 32) (broadcastInDim S1600000 ![] bcast_S_S1600000 (constantI S_ 32 100000#32))) (Wv (Proc.devRef .tc main_v1) : S1600000.Idx → BitVec 32))) (broadcastInDim S1600000x1 ![] bcast_S_S1600000x1 (constantI S_ 32 0#32)))
              (cmpi .sle (broadcastInDim S1600000x1 ![0] bcast_S1600000_S1600000x1_0 (select (cmpi .slt (Wv (Proc.devRef .tc main_v1) : S1600000.Idx → BitVec 32) (broadcastInDim S1600000 ![] bcast_S_S1600000 (constantI S_ 32 0#32))) (addi (Wv (Proc.devRef .tc main_v1) : S1600000.Idx → BitVec 32) (broadcastInDim S1600000 ![] bcast_S_S1600000 (constantI S_ 32 100000#32))) (Wv (Proc.devRef .tc main_v1) : S1600000.Idx → BitVec 32))) (broadcastInDim S1600000x1 ![0, 1] bcast_S1x1_S1600000x1_0_1 (broadcastInDim S1x1 ![1] bcast_S1_S1x1_1 (constantI S1 32 99999#32)))))
            (constantI S_ 1 1#1) reducesTo_S1600000x1_S1600000_d1 h_S_))
        (Host.gather gather_S100000x32_S1600000x1_S1600000x32_1_0_n_n_0_1_132 (Wv (Proc.devRef .tc main_v13)) (broadcastInDim S1600000x1 ![0] bcast_S1600000_S1600000x1_0 (select (cmpi .slt (Wv (Proc.devRef .tc main_v1) : S1600000.Idx → BitVec 32) (broadcastInDim S1600000 ![] bcast_S_S1600000 (constantI S_ 32 0#32))) (addi (Wv (Proc.devRef .tc main_v1) : S1600000.Idx → BitVec 32) (broadcastInDim S1600000 ![] bcast_S_S1600000 (constantI S_ 32 100000#32))) (Wv (Proc.devRef .tc main_v1) : S1600000.Idx → BitVec 32))))
        (broadcastInDim S1600000x32 ![] bcast_S_S1600000x32 (constant (F := Ideal) S_ .f32 0x7FC00000#32)) := by
    after_results_simp
    simp only [Cert.Lib.ofBuf_toBuf, ofBuf_main_v1, ofBuf_main_v13, toBuf_main_v14]
  have hrec : gather_S100000x32_S1600000x1_S1600000x32_1_0_n_n_0_1_132
      = rowGather 100000 1600000 32 gather_S100000x32_S1600000x1_S1600000x32_1_0_n_n_0_1_132_wf := rfl
  rw [h, hrec]
  exact take_apply (E := 1600000) (D := 32) _ _ _ _ _ (fun _ => rfl) (fun _ => rfl) _ _ _ (fun _ => rfl) (fun _ => rfl)
    _ (fun _ => rfl) _ _ _ _ hv e q

/-- The rows summed into node p for the first layer: the accumulating row scatter into zeros, at (p, q), is the sum of the
    taken rows' entries (e, q) over the edges e whose destination word names row p. -/
theorem scatter1_apply (p : Fin 100000) (q : Fin 32) :
    (StableHlo.after (hostOps1_1 (F := Ideal)) Wv (Proc.devRef .tc main_v17) : S100000x32.Idx → EReal) (ix2 p q)
      = ∑ e ∈ Finset.univ.filter (fun e : Fin 1600000 =>
            row? 100000 ((Wv (Proc.devRef .tc main_v3) : S1600000.Idx → BitVec 32) (ix1 e)) = some p),
          entries (a := 1600000) (b := 32) (Wv (Proc.devRef .tc main_v14)) (ix2 e q) := by
  have h : (StableHlo.after (hostOps1_1 (F := Ideal)) Wv (Proc.devRef .tc main_v17) : S100000x32.Idx → EReal)
      = Host.scatterAdd (F := Ideal) scatter_S100000x32_S1600000x1_S1600000x32_1_0_0_1
          (broadcastInDim S100000x32 ![] bcast_S_S100000x32 (constant (F := Ideal) S_ .f32 0x00000000#32))
          (broadcastInDim S1600000x1 ![0] bcast_S1600000_S1600000x1_0 (Wv (Proc.devRef .tc main_v3)))
          (Wv (Proc.devRef .tc main_v14)) := by
    after_results <;> rfl
  have hrec : scatter_S100000x32_S1600000x1_S1600000x32_1_0_0_1
      = rowScatter 100000 1600000 32 scatter_S100000x32_S1600000x1_S1600000x32_1_0_0_1_wf := rfl
  have hzero : broadcastInDim S100000x32 ![] bcast_S_S100000x32 (constant (F := Ideal) S_ .f32 0x00000000#32) (ix2 p q)
      = (0 : EReal) := Ideal.ofBits_zero_f32
  show (_ : EReal) = _
  rw [h, hrec, rowScatterAdd_apply, hzero, zero_add]
  refine Finset.sum_congr (Finset.filter_congr fun e _ => ?_) fun e _ => rfl
  exact Eq.to_iff (congrArg (fun b : BitVec 32 => row? 100000 b = some p)
    (column_apply (Wv (Proc.devRef .tc main_v3)) bcast_S1600000_S1600000x1_0 e 0))

/-- The first layer's bias as a one-row array reads, at (u, q), the bias vector at q. -/
theorem bias1_apply (u : Fin 1) (q : Fin 32) :
    (StableHlo.after (hostOps1_1 (F := Ideal)) Wv (Proc.devRef .tc main_v18) : S1x32.Idx → EReal) (ix2 u q)
      = (Wv (Proc.devRef .tc main_arg3) : S32.Idx → EReal) (ix1 q) := by
  have h : (StableHlo.after (hostOps1_1 (F := Ideal)) Wv (Proc.devRef .tc main_v18) : S1x32.Idx → EReal)
      = shapeCast S1x32 (Wv (Proc.devRef .tc main_arg3)) shapeCasts_S32_S1x32 := by
    after_results <;> rfl
  rw [h]
  exact shapeCast_a_1a_apply _ _ u q

/-! ## The second layer -/

/-- The rows taken for the second layer: with every source word in [-100000, 100000) the inlined take reads, at (e, q),
    the projected array at the wrapped and clamped row of edge e's source word, column q; the fill is never read. -/
theorem take3_apply
    (hv : ∀ e : Fin 1600000, -100000 ≤ ((Wv (Proc.devRef .tc main_v1) : S1600000.Idx → BitVec 32) (ix1 e)).toInt ∧ ((Wv (Proc.devRef .tc main_v1) : S1600000.Idx → BitVec 32) (ix1 e)).toInt < 100000)
    (e : Fin 1600000) (q : Fin 16) :
    (StableHlo.after (hostOps3 (F := Ideal)) Wv (Proc.devRef .tc main_v21) : S1600000x16.Idx → EReal) (ix2 e q)
      = (Wv (Proc.devRef .tc main_v20) : S100000x16.Idx → EReal)
          (ix2 (clampRow 100000 (by norm_num) (wrapRow ((Wv (Proc.devRef .tc main_v1) : S1600000.Idx → BitVec 32) (ix1 e)))) q) := by
  have h : (StableHlo.after (hostOps3 (F := Ideal)) Wv (Proc.devRef .tc main_v21) : S1600000x16.Idx → EReal)
      = select (broadcastInDim S1600000x16 ![0] bcast_S1600000_S1600000x16_0
          (Host.reduce IntOp.andi
            (andi (cmpi .sge (broadcastInDim S1600000x1 ![0] bcast_S1600000_S1600000x1_0 (select (cmpi .slt (Wv (Proc.devRef .tc main_v1) : S1600000.Idx → BitVec 32) (broadcastInDim S1600000 ![] bcast_S_S1600000 (constantI S_ 32 0#32))) (addi (Wv (Proc.devRef .tc main_v1) : S1600000.Idx → BitVec 32) (broadcastInDim S1600000 ![] bcast_S_S1600000 (constantI S_ 32 100000#32))) (Wv (Proc.devRef .tc main_v1) : S1600000.Idx → BitVec 32))) (broadcastInDim S1600000x1 ![] bcast_S_S1600000x1 (constantI S_ 32 0#32)))
              (cmpi .sle (broadcastInDim S1600000x1 ![0] bcast_S1600000_S1600000x1_0 (select (cmpi .slt (Wv (Proc.devRef .tc main_v1) : S1600000.Idx → BitVec 32) (broadcastInDim S1600000 ![] bcast_S_S1600000 (constantI S_ 32 0#32))) (addi (Wv (Proc.devRef .tc main_v1) : S1600000.Idx → BitVec 32) (broadcastInDim S1600000 ![] bcast_S_S1600000 (constantI S_ 32 100000#32))) (Wv (Proc.devRef .tc main_v1) : S1600000.Idx → BitVec 32))) (broadcastInDim S1600000x1 ![0, 1] bcast_S1x1_S1600000x1_0_1 (broadcastInDim S1x1 ![1] bcast_S1_S1x1_1 (constantI S1 32 99999#32)))))
            (constantI S_ 1 1#1) reducesTo_S1600000x1_S1600000_d1 h_S_))
        (Host.gather gather_S100000x16_S1600000x1_S1600000x16_1_0_n_n_0_1_116 (Wv (Proc.devRef .tc main_v20)) (broadcastInDim S1600000x1 ![0] bcast_S1600000_S1600000x1_0 (select (cmpi .slt (Wv (Proc.devRef .tc main_v1) : S1600000.Idx → BitVec 32) (broadcastInDim S1600000 ![] bcast_S_S1600000 (constantI S_ 32 0#32))) (addi (Wv (Proc.devRef .tc main_v1) : S1600000.Idx → BitVec 32) (broadcastInDim S1600000 ![] bcast_S_S1600000 (constantI S_ 32 100000#32))) (Wv (Proc.devRef .tc main_v1) : S1600000.Idx → BitVec 32))))
        (broadcastInDim S1600000x16 ![] bcast_S_S1600000x16 (constant (F := Ideal) S_ .f32 0x7FC00000#32)) := by
    after_results_simp
    simp only [Cert.Lib.ofBuf_toBuf, ofBuf_main_v1, ofBuf_main_v20, toBuf_main_v21]
  have hrec : gather_S100000x16_S1600000x1_S1600000x16_1_0_n_n_0_1_116
      = rowGather 100000 1600000 16 gather_S100000x16_S1600000x1_S1600000x16_1_0_n_n_0_1_116_wf := rfl
  rw [h, hrec]
  exact take_apply (E := 1600000) (D := 16) _ _ _ _ _ (fun _ => rfl) (fun _ => rfl) _ _ _ (fun _ => rfl) (fun _ => rfl)
    _ (fun _ => rfl) _ _ _ _ hv e q

/-- The rows summed into node p for the second layer: the accumulating row scatter into zeros, at (p, q), is the sum of the
    taken rows' entries (e, q) over the edges e whose destination word names row p. -/
theorem scatter3_apply (p : Fin 100000) (q : Fin 16) :
    (StableHlo.after (hostOps3_1 (F := Ideal)) Wv (Proc.devRef .tc main_v24) : S100000x16.Idx → EReal) (ix2 p q)
      = ∑ e ∈ Finset.univ.filter (fun e : Fin 1600000 =>
            row? 100000 ((Wv (Proc.devRef .tc main_v3) : S1600000.Idx → BitVec 32) (ix1 e)) = some p),
          entries (a := 1600000) (b := 16) (Wv (Proc.devRef .tc main_v21)) (ix2 e q) := by
  have h : (StableHlo.after (hostOps3_1 (F := Ideal)) Wv (Proc.devRef .tc main_v24) : S100000x16.Idx → EReal)
      = Host.scatterAdd (F := Ideal) scatter_S100000x16_S1600000x1_S1600000x16_1_0_0_1
          (broadcastInDim S100000x16 ![] bcast_S_S100000x16 (constant (F := Ideal) S_ .f32 0x00000000#32))
          (broadcastInDim S1600000x1 ![0] bcast_S1600000_S1600000x1_0 (Wv (Proc.devRef .tc main_v3)))
          (Wv (Proc.devRef .tc main_v21)) := by
    after_results <;> rfl
  have hrec : scatter_S100000x16_S1600000x1_S1600000x16_1_0_0_1
      = rowScatter 100000 1600000 16 scatter_S100000x16_S1600000x1_S1600000x16_1_0_0_1_wf := rfl
  have hzero : broadcastInDim S100000x16 ![] bcast_S_S100000x16 (constant (F := Ideal) S_ .f32 0x00000000#32) (ix2 p q)
      = (0 : EReal) := Ideal.ofBits_zero_f32
  show (_ : EReal) = _
  rw [h, hrec, rowScatterAdd_apply, hzero, zero_add]
  refine Finset.sum_congr (Finset.filter_congr fun e _ => ?_) fun e _ => rfl
  exact Eq.to_iff (congrArg (fun b : BitVec 32 => row? 100000 b = some p)
    (column_apply (Wv (Proc.devRef .tc main_v3)) bcast_S1600000_S1600000x1_0 e 0))

/-- The second layer's bias as a one-row array reads, at (u, q), the bias vector at q. -/
theorem bias3_apply (u : Fin 1) (q : Fin 16) :
    (StableHlo.after (hostOps3_1 (F := Ideal)) Wv (Proc.devRef .tc main_v25) : S1x16.Idx → EReal) (ix2 u q)
      = (Wv (Proc.devRef .tc main_arg6) : S16.Idx → EReal) (ix1 q) := by
  have h : (StableHlo.after (hostOps3_1 (F := Ideal)) Wv (Proc.devRef .tc main_v25) : S1x16.Idx → EReal)
      = shapeCast S1x16 (Wv (Proc.devRef .tc main_arg6)) shapeCasts_S16_S1x16 := by
    after_results <;> rfl
  rw [h]
  exact shapeCast_a_1a_apply _ _ u q

end Cert.KernelIdeal.HostValue

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«145111_j36661840838929_2_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«145111_j36661840838929_2_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibSageLayer.lean ====
/-
  One mean-aggregating graph layer read at an entry, in a kernel tile's spelling and in a host program's spelling.

  The layer takes, for every node p, the neighbour sum agg(p, ·) divided by the node's clamped in-degree c(p), multiplies
  that mean row by the left weights, adds the bias, and adds the node's own feature row h(p, ·) times the right weights:
      out(p, q) = Σ_k (agg(p, k) / c(p)) · wl(q, k)  +  b(q)  +  Σ_k h(p, k) · wr(q, k).
  Both weight matrices are stored [D, K] and used transposed. A kernel tile computes the two products first and adds the
  bias last; a host program adds the bias to the first product and the second product last. On the extended reals
  addition is commutative and associative, so the two orders are one value: no finiteness is needed.
-/
import Idealize.ShloMosaic.Lib.Pipeline.Value
import Idealize.ShloMosaic.Lib.ValueLayout
import proofs.«145111_j36661840838929_2_alg».proof.Proof.LibMatmul2
import proofs.«145111_j36661840838929_2_alg».proof.Proof.LibAffineLayer
import proofs.«145111_j36661840838929_2_alg».proof.Proof.LibHostDot2
import proofs.«145111_j36661840838929_2_alg».proof.Proof.LibHostRowCol

noncomputable section

namespace Cert.Lib

open Idealize.ShloMosaic Idealize.ShloMosaic.ValueIdx

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {N K D : ℕ}

/-- Entry `(p, q)` of the layer: the mean neighbour row through the left weights, plus the bias, plus the node's own
    row through the right weights. -/
def sageAt (agg : (⟨2, ![N, K]⟩ : Shape).Idx → EReal) (c : Fin N → EReal) (h : (⟨2, ![N, K]⟩ : Shape).Idx → EReal)
    (wl : (⟨2, ![D, K]⟩ : Shape).Idx → EReal) (b : (⟨1, ![D]⟩ : Shape).Idx → EReal)
    (wr : (⟨2, ![D, K]⟩ : Shape).Idx → EReal) (p : Fin N) (q : Fin D) : EReal :=
  (∑ k : Fin K, Ideal.div (agg (ix2 p k)) (c p) * wl (ix2 q k)) + b (ix1 q) + ∑ k : Fin K, h (ix2 p k) * wr (ix2 q k)

/-- The layer as an array. -/
def sageLin (agg : (⟨2, ![N, K]⟩ : Shape).Idx → EReal) (c : Fin N → EReal) (h : (⟨2, ![N, K]⟩ : Shape).Idx → EReal)
    (wl : (⟨2, ![D, K]⟩ : Shape).Idx → EReal) (b : (⟨1, ![D]⟩ : Shape).Idx → EReal)
    (wr : (⟨2, ![D, K]⟩ : Shape).Idx → EReal) : (⟨2, ![N, D]⟩ : Shape).Idx → EReal :=
  fun i => sageAt agg c h wl b wr (i 0) (i 1)

/-- The layer followed by the rectifier `max · 0`, as an array. -/
def sageRelu (agg : (⟨2, ![N, K]⟩ : Shape).Idx → EReal) (c : Fin N → EReal) (h : (⟨2, ![N, K]⟩ : Shape).Idx → EReal)
    (wl : (⟨2, ![D, K]⟩ : Shape).Idx → EReal) (b : (⟨1, ![D]⟩ : Shape).Idx → EReal)
    (wr : (⟨2, ![D, K]⟩ : Shape).Idx → EReal) : (⟨2, ![N, D]⟩ : Shape).Idx → EReal :=
  fun i => max (sageAt agg c h wl b wr (i 0) (i 1)) (Ideal.ofBits .f32 0x00000000#32)

/-- A KERNEL TILE of the layer: the quotient by the degree column broadcast along the row, rounded to a narrower format
    (the identity on extended reals), times the transposed left weights into the zero accumulator; the feature rows times
    the transposed right weights into the zero accumulator; their sum; plus the bias made a row and repeated. At
    `(p, q)` it is the layer's entry, the degree read from the column. -/
theorem sageTile_apply (wf : DotDims.WF ⟨2, ![N, K]⟩ ⟨2, ![K, D]⟩ ⟨2, ![N, D]⟩ [1] [0] [0] [1] [] [])
    (agg : FVec Ideal ⟨2, ![N, K]⟩ .f32) (cnt : FVec Ideal ⟨2, ![N, 1]⟩ .f32) (h : FVec Ideal ⟨2, ![N, K]⟩ .bf16)
    (wl wr : FVec Ideal ⟨2, ![D, K]⟩ .bf16) (b : FVec Ideal ⟨1, ![D]⟩ .f32)
    (hNK : (⟨2, ![N, K]⟩ : Shape).ShapeCasts ⟨2, ![N, K]⟩) (hN1 : (⟨2, ![N, 1]⟩ : Shape).ShapeCasts ⟨2, ![N, 1]⟩)
    (hcol : (⟨2, ![N, 1]⟩ : Shape).Broadcasts ⟨2, ![N, K]⟩) (hDK : (⟨2, ![D, K]⟩ : Shape).ShapeCasts ⟨2, ![D, K]⟩)
    (htr : (⟨2, ![D, K]⟩ : Shape).Transposes [1, 0] ⟨2, ![K, D]⟩)
    (hc : (⟨1, ![D]⟩ : Shape).ShapeCasts ⟨2, ![1, D]⟩) (hb : (⟨2, ![1, D]⟩ : Shape).Broadcasts ⟨2, ![N, D]⟩)
    (hlt : FTy.bf16.bits < FTy.f32.bits) (p : Fin N) (q : Fin D) :
    addf (addf
        (matmul (plain2 wf) none
          (truncf .bf16 (divf (shapeCast ⟨2, ![N, K]⟩ agg hNK) (broadcastTo ⟨2, ![N, K]⟩ (shapeCast ⟨2, ![N, 1]⟩ cnt hN1) hcol)) hlt)
          (transpose ⟨2, ![K, D]⟩ [1, 0] (shapeCast ⟨2, ![D, K]⟩ wl hDK) htr) (constant ⟨2, ![N, D]⟩ .f32 0x00000000#32))
        (matmul (plain2 wf) none (shapeCast ⟨2, ![N, K]⟩ h hNK)
          (transpose ⟨2, ![K, D]⟩ [1, 0] (shapeCast ⟨2, ![D, K]⟩ wr hDK) htr) (constant ⟨2, ![N, D]⟩ .f32 0x00000000#32)))
      (broadcastTo ⟨2, ![N, D]⟩ (shapeCast ⟨2, ![1, D]⟩ b hc) hb) (ix2 p q)
    = sageAt agg (fun r => cnt (ix2 r (0 : Fin 1))) h wl b wr p q := by
  rw [addf_apply, addf_apply, matmul2_zero_apply wf _ _ p q, matmul2_zero_apply wf _ _ p q, rowBroadcast_apply b hc hb p q]
  unfold sageAt
  rw [add_right_comm]
  refine congrArg₂ (· + ·) (congrArg₂ (· + ·) ?_ rfl) ?_
  · refine Finset.sum_congr rfl fun k _ => ?_
    rw [truncf_apply, divf_apply, shapeCast_self, broadcastTo_a1_ab_apply, shapeCast_self, transpose_ix2_apply, shapeCast_self]
  · refine Finset.sum_congr rfl fun k _ => ?_
    rw [shapeCast_self, transpose_ix2_apply, shapeCast_self]

/-- A HOST PROGRAM's spelling of the layer: the neighbour sums divided by the degree vector made a column and repeated
    along the rows, through `dot_general` with the transposed left weights; plus the bias made a row and repeated down
    the rows; plus the features through `dot_general` with the transposed right weights. At `(p, q)` it is the layer's
    entry, the degree read from the vector. -/
theorem sageHost_apply (wf : DotDims.WF ⟨2, ![N, K]⟩ ⟨2, ![K, D]⟩ ⟨2, ![N, D]⟩ [1] [0] [0] [1] [] [])
    (agg h : FVec Ideal ⟨2, ![N, K]⟩ .f32) (cnt : FVec Ideal ⟨1, ![N]⟩ .f32)
    (wl wr : FVec Ideal ⟨2, ![D, K]⟩ .f32) (b : FVec Ideal ⟨1, ![D]⟩ .f32)
    (hc1 : (⟨1, ![N]⟩ : Shape).BroadcastsInDim ⟨2, ![N, 1]⟩ (![0] : Fin 1 → Fin 2))
    (hc2 : (⟨2, ![N, 1]⟩ : Shape).BroadcastsInDim ⟨2, ![N, K]⟩ (![0, 1] : Fin 2 → Fin 2))
    (htr : (⟨2, ![D, K]⟩ : Shape).Transposes [1, 0] ⟨2, ![K, D]⟩)
    (hb1 : (⟨1, ![D]⟩ : Shape).BroadcastsInDim ⟨2, ![1, D]⟩ (![1] : Fin 1 → Fin 2))
    (hb2 : (⟨2, ![1, D]⟩ : Shape).BroadcastsInDim ⟨2, ![N, D]⟩ (![0, 1] : Fin 2 → Fin 2)) (p : Fin N) (q : Fin D) :
    addf (addf
        (Host.dotGeneral (plain2 wf) none
          (Host.divf agg (broadcastInDim ⟨2, ![N, K]⟩ ![0, 1] hc2 (broadcastInDim ⟨2, ![N, 1]⟩ ![0] hc1 cnt)))
          (transpose ⟨2, ![K, D]⟩ [1, 0] wl htr))
        (broadcastInDim ⟨2, ![N, D]⟩ ![0, 1] hb2 (broadcastInDim ⟨2, ![1, D]⟩ ![1] hb1 b)))
      (Host.dotGeneral (plain2 wf) none h (transpose ⟨2, ![K, D]⟩ [1, 0] wr htr)) (ix2 p q)
    = sageAt agg (fun r => cnt (ix1 r)) h wl b wr p q := by
  rw [addf_apply, addf_apply, hostDot2_apply wf _ _ p q, hostDot2_apply wf _ _ p q, bcast_row_rows_apply b hb1 hb2 p q]
  unfold sageAt
  refine congrArg₂ (· + ·) (congrArg₂ (· + ·) ?_ rfl) ?_
  · refine Finset.sum_congr rfl fun k _ => ?_
    rw [transpose_ix2_apply]
    show Ideal.div (agg (ix2 p k)) (broadcastInDim ⟨2, ![N, K]⟩ ![0, 1] hc2 (broadcastInDim ⟨2, ![N, 1]⟩ ![0] hc1 cnt) (ix2 p k)) * _ = _
    rw [bcast_col_cols_apply cnt hc1 hc2 p k]
  · refine Finset.sum_congr rfl fun k _ => ?_
    rw [transpose_ix2_apply]

end Cert.Lib

end
-- ==== Proof.KerCombineTile.lean ====
/-
  One mean-aggregating layer's last steps on a tile of rows, read entry by entry.

  A tile of `R` rows and `D` output channels is formed from the summed neighbour messages `a`, the per-row scale
  column `c` (one over the clamped in-degree), the bias row `b`, and the rows' own features `l` against the weights
  `r` (stored `[D, K]`, used transposed):
      pre (p, q) = (a (p, q) · c (p, 0) + b (0, q)) + Σ_k l (p, k) · r (q, k).
  Then every row is divided by the larger of its Euclidean norm and a fixed positive bound; the first layer ends in
  the positive part, the second in the row's log-softmax (the row minus its largest entry, minus the logarithm of the
  sum of the exponentials of that difference). Each of these is a function of ONE row of `pre`: that is what lets a
  row tile of a tall matrix be computed without the other tiles. The lemmas here read each step at an entry
  `(p, q)` as the corresponding row function of the specification; a sum or a maximum along a row is the sum, resp.
  the fold of `max` from the bottom element, over the row's entries.
-/
import Idealize.ShloMosaic.Lib.Pipeline.Value
import Idealize.ShloMosaic.Lib.ValueIdx
import Idealize.ShloMosaic.Lib.ValueLayout
import Idealize.ShloMosaic.PureOps.Ideal.Laws
import proofs.«145111_j36661840838929_2_alg».proof.Proof.Spec
import proofs.«145111_j36661840838929_2_alg».proof.Proof.LibMatmul2
import proofs.«145111_j36661840838929_2_alg».proof.Proof.LibSageLayer
import proofs.«145111_j36661840838929_2_alg».proof.Proof.LibColumnCast

noncomputable section

namespace Cert.KernelIdeal.RegValue

open Idealize.ShloMosaic Idealize.ShloMosaic.ValueIdx
open scoped BigOperators

/-! ## One layer on a tile of rows, read at an entry

A tile holds `R` rows. Its entry `(p, q)` before normalization is the summed messages `a (p, q)` times the row's
scale `c (p, 0)`, plus the bias `b (0, q)`, plus the row `p` of `l` against row `q` of `r`. Every later step (the norm,
the positive part, the log-softmax) is a function of one row of that matrix. -/

section Tile
variable {R D K : ℕ} {φ₁ φ₂ : FTy}

/-- The layer before normalization: scaled messages plus bias plus the product with the transposed weights. -/
def combinePreTile (wf : DotDims.WF ⟨2, ![R, K]⟩ ⟨2, ![K, D]⟩ ⟨2, ![R, D]⟩ [1] [0] [0] [1] [] [])
    (hcol : (⟨2, ![R, 1]⟩ : Shape).Broadcasts ⟨2, ![R, D]⟩) (hrow : (⟨2, ![1, D]⟩ : Shape).Broadcasts ⟨2, ![R, D]⟩)
    (htr : (⟨2, ![D, K]⟩ : Shape).Transposes [1, 0] ⟨2, ![K, D]⟩)
    (a : FVec Ideal ⟨2, ![R, D]⟩ .f32) (c : FVec Ideal ⟨2, ![R, 1]⟩ .f32) (b : FVec Ideal ⟨2, ![1, D]⟩ .f32)
    (l : FVec Ideal ⟨2, ![R, K]⟩ φ₁) (r : FVec Ideal ⟨2, ![D, K]⟩ φ₂) : FVec Ideal ⟨2, ![R, D]⟩ .f32 :=
  addf (addf (mulf a (broadcastTo ⟨2, ![R, D]⟩ c hcol)) (broadcastTo ⟨2, ![R, D]⟩ b hrow))
    (matmul (Cert.Lib.plain2 wf) none l (transpose ⟨2, ![K, D]⟩ [1, 0] r htr) (constant ⟨2, ![R, D]⟩ .f32 0x00000000#32))

/-- Its entry `(p, q)`. -/
theorem combinePreTile_apply (wf : DotDims.WF ⟨2, ![R, K]⟩ ⟨2, ![K, D]⟩ ⟨2, ![R, D]⟩ [1] [0] [0] [1] [] [])
    (hcol : (⟨2, ![R, 1]⟩ : Shape).Broadcasts ⟨2, ![R, D]⟩) (hrow : (⟨2, ![1, D]⟩ : Shape).Broadcasts ⟨2, ![R, D]⟩)
    (htr : (⟨2, ![D, K]⟩ : Shape).Transposes [1, 0] ⟨2, ![K, D]⟩)
    (a : FVec Ideal ⟨2, ![R, D]⟩ .f32) (c : FVec Ideal ⟨2, ![R, 1]⟩ .f32) (b : FVec Ideal ⟨2, ![1, D]⟩ .f32)
    (l : FVec Ideal ⟨2, ![R, K]⟩ φ₁) (r : FVec Ideal ⟨2, ![D, K]⟩ φ₂) (p : Fin R) (q : Fin D) :
    combinePreTile wf hcol hrow htr a c b l r (ix2 p q)
      = (a (ix2 p q) * c (ix2 p (0 : Fin 1)) + b (ix2 (0 : Fin 1) q)) + ∑ k : Fin K, l (ix2 p k) * r (ix2 q k) := by
  unfold combinePreTile
  rw [addf_apply, addf_apply, mulf_apply, Cert.Lib.broadcastTo_a1_ab_apply, broadcastTo_1b_ab_apply,
    Cert.Lib.matmul2_zero_apply wf _ _ p q]
  refine congrArg _ (Finset.sum_congr rfl fun k _ => ?_)
  rw [transpose_ix2_apply]

/-- A sum along the rows of a matrix, read at row `p`: the sum over the row's entries. -/
theorem combine_rowSum (u : FVec Ideal ⟨2, ![R, D]⟩ .f32) (h : (⟨2, ![R, D]⟩ : Shape).Reduces [1] ⟨1, ![R]⟩)
    (hφ : FKind.Formats .f32) (hacc : (0x00000000#32 : BitVec 32) = FKind.add.neutral .f32 hφ) (p : Fin R) :
    multiReduction .add [1] ⟨1, ![R]⟩ u 0x00000000#32 h hφ hacc (ix1 p) = ∑ k : Fin D, u (ix2 p k) := by
  refine (Ideal.multiReduction_add_single u _ h hφ hacc (ix1 p)).trans ?_
  refine Finset.sum_congr rfl fun k _ => congrArg u ?_
  funext d; apply Fin.ext
  match d with
  | ⟨0, _⟩ => rfl
  | ⟨1, _⟩ => rfl

/-- The word of minus infinity denotes the bottom of the extended reals. -/
theorem combine_ofBits_negInf : Ideal.ofBits .f32 0xFF800000#32 = (⊥ : EReal) := by
  simp [Ideal.ofBits, Ideal.ieee]

/-- A maximum along the rows of a matrix, read at row `p`: the largest entry of the row. -/
theorem combine_rowMax (u : FVec Ideal ⟨2, ![R, D]⟩ .f32) (h : (⟨2, ![R, D]⟩ : Shape).Reduces [1] ⟨1, ![R]⟩)
    (hφ : FKind.Formats .f32) (hacc : (0xFF800000#32 : BitVec 32) = FKind.maximumf.neutral .f32 hφ) (p : Fin R) :
    multiReduction .maximumf [1] ⟨1, ![R]⟩ u 0xFF800000#32 h hφ hacc (ix1 p)
      = Cert.Spec.rowMax (fun q : Fin D => u (ix2 p q)) := by
  refine (Ideal.multiReduction_maximumf_single u _ h hφ hacc (ix1 p)).trans ?_
  have hf : (u ∘ h.lift (ix1 p)) = fun q : Fin D => u (ix2 p q) := by
    funext k
    refine congrArg u ?_
    funext d; apply Fin.ext
    match d with
    | ⟨0, _⟩ => rfl
    | ⟨1, _⟩ => rfl
  rw [hf, Ideal.ofBits_def, combine_ofBits_negInf]
  rfl

end Tile

section Rows
variable {R D : ℕ}

/-- Every row of a tile divided by the larger of its Euclidean norm and the bound. -/
def combineNormTile (hred : (⟨2, ![R, D]⟩ : Shape).Reduces [1] ⟨1, ![R]⟩)
    (hcast : (⟨1, ![R]⟩ : Shape).ShapeCasts ⟨2, ![R, 1]⟩) (hcol : (⟨2, ![R, 1]⟩ : Shape).Broadcasts ⟨2, ![R, D]⟩)
    (u : FVec Ideal ⟨2, ![R, D]⟩ .f32) : FVec Ideal ⟨2, ![R, D]⟩ .f32 :=
  divf u (broadcastTo ⟨2, ![R, D]⟩
    (maximumf
      (sqrt (shapeCast ⟨2, ![R, 1]⟩ (multiReduction .add [1] ⟨1, ![R]⟩ (mulf u u) 0x00000000#32 hred (.inl rfl) rfl) hcast))
      (broadcast ⟨2, ![R, 1]⟩ (Scalar.ofBits .f32 0x2B8CBCCC#32))) hcol)

/-- Its entry `(p, q)` is the normalized row `p` at `q`. -/
theorem combineNormTile_apply (hred : (⟨2, ![R, D]⟩ : Shape).Reduces [1] ⟨1, ![R]⟩)
    (hcast : (⟨1, ![R]⟩ : Shape).ShapeCasts ⟨2, ![R, 1]⟩) (hcol : (⟨2, ![R, 1]⟩ : Shape).Broadcasts ⟨2, ![R, D]⟩)
    (u : FVec Ideal ⟨2, ![R, D]⟩ .f32) (p : Fin R) (q : Fin D) :
    combineNormTile hred hcast hcol u (ix2 p q)
      = Cert.Spec.normalize (fun (p : Fin R) (q : Fin D) => u (ix2 p q)) p q := by
  unfold combineNormTile Cert.Spec.normalize Cert.Spec.rowNorm Cert.Spec.eps
  rw [divf_apply, Cert.Lib.broadcastTo_a1_ab_apply, maximumf_apply]
  show Ideal.div (u (ix2 p q)) (max (Ideal.sqrt (shapeCast ⟨2, ![R, 1]⟩ _ hcast (ix2 p (0 : Fin 1))))
      (Ideal.ofBits .f32 0x2B8CBCCC#32)) = _
  rw [Cert.Lib.shapeCast_a_a1_apply]
  refine congrArg (fun s => Ideal.div (u (ix2 p q)) (max (Ideal.sqrt s) (Ideal.ofBits .f32 0x2B8CBCCC#32))) ?_
  exact combine_rowSum (mulf u u) hred _ _ p

/-- The positive part of a tile. -/
def combineReluTile (v : FVec Ideal ⟨2, ![R, D]⟩ .f32) : FVec Ideal ⟨2, ![R, D]⟩ .f32 :=
  maximumf v (broadcast ⟨2, ![R, D]⟩ (Scalar.ofBits .f32 0x00000000#32))

theorem combineReluTile_apply (v : FVec Ideal ⟨2, ![R, D]⟩ .f32) (p : Fin R) (q : Fin D) :
    combineReluTile v (ix2 p q) = max (v (ix2 p q)) 0 := by
  unfold combineReluTile
  rw [maximumf_apply]
  show max (v (ix2 p q)) (Ideal.ofBits .f32 0x00000000#32) = _
  rw [Ideal.ofBits_zero_f32]

/-- Every row of a tile minus its largest entry. -/
def combineShiftTile (hred : (⟨2, ![R, D]⟩ : Shape).Reduces [1] ⟨1, ![R]⟩)
    (hcast : (⟨1, ![R]⟩ : Shape).ShapeCasts ⟨2, ![R, 1]⟩) (hcol : (⟨2, ![R, 1]⟩ : Shape).Broadcasts ⟨2, ![R, D]⟩)
    (v : FVec Ideal ⟨2, ![R, D]⟩ .f32) : FVec Ideal ⟨2, ![R, D]⟩ .f32 :=
  subf v (broadcastTo ⟨2, ![R, D]⟩
    (shapeCast ⟨2, ![R, 1]⟩ (multiReduction .maximumf [1] ⟨1, ![R]⟩ v 0xFF800000#32 hred (.inl rfl) rfl) hcast) hcol)

theorem combineShiftTile_apply (hred : (⟨2, ![R, D]⟩ : Shape).Reduces [1] ⟨1, ![R]⟩)
    (hcast : (⟨1, ![R]⟩ : Shape).ShapeCasts ⟨2, ![R, 1]⟩) (hcol : (⟨2, ![R, 1]⟩ : Shape).Broadcasts ⟨2, ![R, D]⟩)
    (v : FVec Ideal ⟨2, ![R, D]⟩ .f32) (p : Fin R) (q : Fin D) :
    combineShiftTile hred hcast hcol v (ix2 p q)
      = v (ix2 p q) - Cert.Spec.rowMax (fun q : Fin D => v (ix2 p q)) := by
  unfold combineShiftTile
  rw [subf_apply, Cert.Lib.broadcastTo_a1_ab_apply, Cert.Lib.shapeCast_a_a1_apply]
  exact congrArg (fun m => v (ix2 p q) - m) (combine_rowMax v hred _ _ p)

/-- The log-softmax of every row of a tile: the shifted row minus the logarithm of the sum of its exponentials. -/
def combineLsmTile (hred : (⟨2, ![R, D]⟩ : Shape).Reduces [1] ⟨1, ![R]⟩)
    (hcast : (⟨1, ![R]⟩ : Shape).ShapeCasts ⟨2, ![R, 1]⟩) (hcol : (⟨2, ![R, 1]⟩ : Shape).Broadcasts ⟨2, ![R, D]⟩)
    (v : FVec Ideal ⟨2, ![R, D]⟩ .f32) : FVec Ideal ⟨2, ![R, D]⟩ .f32 :=
  subf (combineShiftTile hred hcast hcol v) (broadcastTo ⟨2, ![R, D]⟩
    (log (shapeCast ⟨2, ![R, 1]⟩
      (multiReduction .add [1] ⟨1, ![R]⟩ (exp (combineShiftTile hred hcast hcol v)) 0x00000000#32 hred (.inl rfl) rfl) hcast)) hcol)

/-- Its entry `(p, q)` is the log-softmax of row `p` at `q`. -/
theorem combineLsmTile_apply (hred : (⟨2, ![R, D]⟩ : Shape).Reduces [1] ⟨1, ![R]⟩)
    (hcast : (⟨1, ![R]⟩ : Shape).ShapeCasts ⟨2, ![R, 1]⟩) (hcol : (⟨2, ![R, 1]⟩ : Shape).Broadcasts ⟨2, ![R, D]⟩)
    (v : FVec Ideal ⟨2, ![R, D]⟩ .f32) (p : Fin R) (q : Fin D) :
    combineLsmTile hred hcast hcol v (ix2 p q)
      = Cert.Spec.logSoftmax (fun (p : Fin R) (q : Fin D) => v (ix2 p q)) p q := by
  unfold combineLsmTile Cert.Spec.logSoftmax
  rw [subf_apply, combineShiftTile_apply, Cert.Lib.broadcastTo_a1_ab_apply]
  show _ - Ideal.log (shapeCast ⟨2, ![R, 1]⟩ _ hcast (ix2 p (0 : Fin 1))) = _
  rw [Cert.Lib.shapeCast_a_a1_apply]
  show (v (ix2 p q) - Cert.Spec.rowMax (fun q : Fin D => v (ix2 p q))) - Ideal.log _
      = (v (ix2 p q) - Cert.Spec.rowMax (fun q : Fin D => v (ix2 p q)))
        - Ideal.log (∑ j : Fin D, Ideal.exp (v (ix2 p j) - Cert.Spec.rowMax (fun q : Fin D => v (ix2 p q))))
  refine congrArg (fun s => (v (ix2 p q) - Cert.Spec.rowMax (fun q : Fin D => v (ix2 p q))) - Ideal.log s) ?_
  refine (combine_rowSum (exp (combineShiftTile hred hcast hcol v)) hred _ _ p).trans ?_
  refine Finset.sum_congr rfl fun j _ => ?_
  show Ideal.exp (combineShiftTile hred hcast hcol v (ix2 p j)) = _
  rw [combineShiftTile_apply]

/-- The normalized rows, then the positive part, depend on one row of the matrix only. -/
theorem combine_relu_norm_congr {N N' : ℕ} (u : Fin N → Fin D → EReal) (u' : Fin N' → Fin D → EReal)
    (p : Fin N) (p' : Fin N') (h : u p = u' p') (q : Fin D) :
    Cert.Spec.relu (Cert.Spec.normalize u) p q = Cert.Spec.relu (Cert.Spec.normalize u') p' q := by
  unfold Cert.Spec.relu Cert.Spec.normalize
  rw [h]

/-- The normalized rows, then the log-softmax, depend on one row of the matrix only. -/
theorem combine_lsm_norm_congr {N N' : ℕ} (u : Fin N → Fin D → EReal) (u' : Fin N' → Fin D → EReal)
    (p : Fin N) (p' : Fin N') (h : u p = u' p') (q : Fin D) :
    Cert.Spec.logSoftmax (Cert.Spec.normalize u) p q = Cert.Spec.logSoftmax (Cert.Spec.normalize u') p' q := by
  have hn : Cert.Spec.normalize u p = Cert.Spec.normalize u' p' := by
    funext j; unfold Cert.Spec.normalize; rw [h]
  unfold Cert.Spec.logSoftmax
  rw [hn]

end Rows

/-- The zero offsets of a whole-block access, however they are spelt. -/
theorem combine_hz : (![0, 0] : Fin 2 → Nat) = fun _ => 0 := funext fun a => by fin_cases a <;> rfl

end Cert.KernelIdeal.RegValue

end
-- ==== Proof.KerCombine1.lean ====
/-
  The first combining region, as one function of the arrays it finds.

  The region runs over twenty grid points; point `t` loads rows `5000 t … 5000 t + 4999` of the summed messages
  `[100000, 32]`, of the scale column `[100000, 1]` and of the node features `[100000, 50]`, the whole self weights
  `[32, 50]` and the whole bias row `[1, 32]`, and stores the same rows of the output `[100000, 32]`. What it stores
  at row `p` and channel `q` is the positive part of the normalized layer,
      relu (normalize pre) p q,   pre (p, q) = (msg (p, q) · scale (p, 0) + bias (0, q)) + Σ_k x (p, k) · w (q, k),
  which depends on row `p` of the inputs only. Hence tile `t` of the output is tile `t` of one whole-array function;
  the tiles cover the array (row `r` is written by point `r / 5000`), so after the twenty points the output array
  IS that function. Nothing here depends on what the arrays hold when the region is entered.
-/
import proofs.«145111_j36661840838929_2_alg».proof.Proof.Gen.KernelIdeal.Frame
import proofs.«145111_j36661840838929_2_alg».proof.Proof.KerCombineTile

noncomputable section

namespace Cert.KernelIdeal.RegValue

open Cert.KernelIdeal Cert.KernelIdeal.Gen Idealize.ShloMosaic Idealize.ShloMosaic.TcCoe Idealize.ShloMosaic.ValueIdx
open Idealize.ShloMosaic.Pipeline (Dat)
open scoped BigOperators

/-! ## Region 1: the combining layer with the positive part -/

section Region1

/-- The body's stored value is the positive part of the normalized layer of its loaded tiles. -/
theorem combine1_pay_eq (x0 : FVec Ideal S5000x32 .f32) (x1 : FVec Ideal S5000x1 .f32) (x2 : FVec Ideal S5000x50 .f32)
    (x3 : FVec Ideal S32x50 .f32) (x4 : FVec Ideal S1x32 .f32) :
    k1_pay1 (F := Ideal) x0 x1 x2 x3 x4
      = combineReluTile (combineNormTile reduces_S5000x32_S5000 shapeCasts_S5000_S5000x1 broadcasts_S5000x1_S5000x32
          (combinePreTile dot_S5000x50_S50x32_S5000x32_1_0_0_1_n_n_wf broadcasts_S5000x1_S5000x32
            broadcasts_S1x32_S5000x32 transposes_S32x50_p1_0_S50x32
            (shapeCast S5000x32 x0 shapeCasts_S5000x32_S5000x32) (shapeCast S5000x1 x1 shapeCasts_S5000x1_S5000x1)
            (shapeCast S1x32 x4 shapeCasts_S1x32_S1x32) (truncf .bf16 x2 bitsLt_bf16_f32)
            (truncf .bf16 x3 bitsLt_bf16_f32))) := rfl

/-- Entry `(p, q)` of the stored tile, from the loaded tiles. -/
theorem combine1_pay_apply (x0 : FVec Ideal S5000x32 .f32) (x1 : FVec Ideal S5000x1 .f32) (x2 : FVec Ideal S5000x50 .f32)
    (x3 : FVec Ideal S32x50 .f32) (x4 : FVec Ideal S1x32 .f32) (p : Fin 5000) (q : Fin 32) :
    k1_pay1 (F := Ideal) x0 x1 x2 x3 x4 (ix2 p q)
      = Cert.Spec.relu (Cert.Spec.normalize (fun (p : Fin 5000) (q : Fin 32) =>
          (x0 (ix2 p q) * x1 (ix2 p (0 : Fin 1)) + x4 (ix2 (0 : Fin 1) q)) + ∑ k : Fin 50, x2 (ix2 p k) * x3 (ix2 q k))) p q := by
  rw [combine1_pay_eq]
  refine (combineReluTile_apply _ p q).trans ?_
  unfold Cert.Spec.relu
  refine congrArg (fun z => max z 0) ?_
  refine (combineNormTile_apply _ _ _ _ p q).trans ?_
  refine congrArg (fun u => Cert.Spec.normalize u p q) ?_
  funext p' q'
  refine (combinePreTile_apply _ _ _ _ _ _ _ _ _ p' q').trans ?_
  rw [shapeCast_self, shapeCast_self, shapeCast_self]
  rfl

end Region1

/-! ## Region 1: from the twenty row tiles to the array -/

section Array1
variable (V : (c : Dev nD) → (b : Ref sig .tc) → Buf (Elt Ideal) ((c : Thread nD τ).loc b))

/-- Where each window's block sits at point `t`: the row-tiled windows at block row `t`, the whole windows at the
    origin (decided over the twenty points). -/
theorem combine1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The arrays the region finds, as functions of an index: the summed messages, the scale column, the node features,
    the weights, the bias row. -/
abbrev combine1A0 (c : Dev nD) : S100000x32.Idx → EReal := V c (Pipeline.arrRef spec1 0)
abbrev combine1A1 (c : Dev nD) : S100000x1.Idx → EReal := V c (Pipeline.arrRef spec1 1)
abbrev combine1A2 (c : Dev nD) : S100000x50.Idx → EReal := V c (Pipeline.arrRef spec1 2)
abbrev combine1A3 (c : Dev nD) : S32x50.Idx → EReal := V c (Pipeline.arrRef spec1 3)
abbrev combine1A4 (c : Dev nD) : S1x32.Idx → EReal := V c (Pipeline.arrRef spec1 4)

/-- Their blocks at point `t`. -/
abbrev combine1X0 (c : Dev nD) (t : Fin cfg1.N) : FVec Ideal S5000x32 .f32 := iblk1 V c 0 t
abbrev combine1X1 (c : Dev nD) (t : Fin cfg1.N) : FVec Ideal S5000x1 .f32 := iblk1 V c 1 t
abbrev combine1X2 (c : Dev nD) (t : Fin cfg1.N) : FVec Ideal S5000x50 .f32 := iblk1 V c 2 t
abbrev combine1X3 (c : Dev nD) (t : Fin cfg1.N) : FVec Ideal S32x50 .f32 := iblk1 V c 3 t
abbrev combine1X4 (c : Dev nD) (t : Fin cfg1.N) : FVec Ideal S1x32 .f32 := iblk1 V c 4 t

/-- What the region leaves in its output array: at row `p`, the positive part of the normalized layer of row `p`. -/
def combine1G (A0 : S100000x32.Idx → EReal) (A1 : S100000x1.Idx → EReal) (A2 : S100000x50.Idx → EReal)
    (A3 : S32x50.Idx → EReal) (A4 : S1x32.Idx → EReal) : S100000x32.Idx → EReal := fun i =>
  Cert.Spec.relu (Cert.Spec.normalize (fun (p : Fin 100000) (q : Fin 32) =>
      (A0 (ix2 p q) * A1 (ix2 p (0 : Fin 1)) + A4 (ix2 (0 : Fin 1) q)) + ∑ k : Fin 50, A2 (ix2 p k) * A3 (ix2 q k)))
    (i 0) (i 1)

/-- Row `p` of the tile at point `t` is row `5000 t + p` of the array: the summed messages, -/
theorem combine1_read0 (c : Dev nD) (t : Fin cfg1.N) (p : Fin 5000) (q : Fin 32) (P : Fin 100000)
    (hP : P.val = 5000 * t.val + p.val) :
    combine1X0 V c t (ix2 p q) = combine1A0 V c (ix2 P q) := by
  obtain ⟨e00, e01, -⟩ := combine1_idx t
  show V c (Pipeline.arrRef spec1 0) (((cfg1.win 0).blk t).view.emb (ix2 p q)) = _
  refine congrArg _ ?_
  funext a; apply Fin.ext
  match a with
  | ⟨0, _⟩ => show win1_0.index t (0 : Fin 2) * 5000 + 1 * p.val = P.val; rw [e00, hP]; omega
  | ⟨1, _⟩ => show win1_0.index t (1 : Fin 2) * 32 + 1 * q.val = q.val; rw [e01]; omega

/-- the scale column, -/
theorem combine1_read1 (c : Dev nD) (t : Fin cfg1.N) (p : Fin 5000) (P : Fin 100000)
    (hP : P.val = 5000 * t.val + p.val) :
    combine1X1 V c t (ix2 p (0 : Fin 1)) = combine1A1 V c (ix2 P (0 : Fin 1)) := by
  obtain ⟨-, -, e10, e11, -⟩ := combine1_idx t
  show V c (Pipeline.arrRef spec1 1) (((cfg1.win 1).blk t).view.emb (ix2 p (0 : Fin 1))) = _
  refine congrArg _ ?_
  funext a; apply Fin.ext
  match a with
  | ⟨0, _⟩ => show win1_1.index t (0 : Fin 2) * 5000 + 1 * p.val = P.val; rw [e10, hP]; omega
  | ⟨1, _⟩ => show win1_1.index t (1 : Fin 2) * 1 + 1 * 0 = 0; rw [e11]

/-- the node features; -/
theorem combine1_read2 (c : Dev nD) (t : Fin cfg1.N) (p : Fin 5000) (k : Fin 50) (P : Fin 100000)
    (hP : P.val = 5000 * t.val + p.val) :
    combine1X2 V c t (ix2 p k) = combine1A2 V c (ix2 P k) := by
  obtain ⟨-, -, -, -, e20, e21, -⟩ := combine1_idx t
  show V c (Pipeline.arrRef spec1 2) (((cfg1.win 2).blk t).view.emb (ix2 p k)) = _
  refine congrArg _ ?_
  funext a; apply Fin.ext
  match a with
  | ⟨0, _⟩ => show win1_2.index t (0 : Fin 2) * 5000 + 1 * p.val = P.val; rw [e20, hP]; omega
  | ⟨1, _⟩ => show win1_2.index t (1 : Fin 2) * 50 + 1 * k.val = k.val; rw [e21]; omega

/-- the weights and the bias are read whole at every point. -/
theorem combine1_read3 (c : Dev nD) (t : Fin cfg1.N) (q : Fin 32) (k : Fin 50) :
    combine1X3 V c t (ix2 q k) = combine1A3 V c (ix2 q k) := by
  obtain ⟨-, -, -, -, -, -, e30, e31, -⟩ := combine1_idx t
  show V c (Pipeline.arrRef spec1 3) (((cfg1.win 3).blk t).view.emb (ix2 q k)) = _
  refine congrArg _ ?_
  funext a; apply Fin.ext
  match a with
  | ⟨0, _⟩ => show win1_3.index t (0 : Fin 2) * 32 + 1 * q.val = q.val; rw [e30]; omega
  | ⟨1, _⟩ => show win1_3.index t (1 : Fin 2) * 50 + 1 * k.val = k.val; rw [e31]; omega

theorem combine1_read4 (c : Dev nD) (t : Fin cfg1.N) (q : Fin 32) :
    combine1X4 V c t (ix2 (0 : Fin 1) q) = combine1A4 V c (ix2 (0 : Fin 1) q) := by
  obtain ⟨-, -, -, -, -, -, -, -, e40, e41, -⟩ := combine1_idx t
  show V c (Pipeline.arrRef spec1 4) (((cfg1.win 4).blk t).view.emb (ix2 (0 : Fin 1) q)) = _
  refine congrArg _ ?_
  funext a; apply Fin.ext
  match a with
  | ⟨0, _⟩ => show win1_4.index t (0 : Fin 2) * 1 + 1 * 0 = 0; rw [e40]
  | ⟨1, _⟩ => show win1_4.index t (1 : Fin 2) * 32 + 1 * q.val = q.val; rw [e41]; omega

end Array1

section Final1
variable (V : (c : Dev nD) → (b : Ref sig .tc) → Buf (Elt Ideal) ((c : Thread nD τ).loc b))

/-- What point `t` writes back is its block of `combine1G` of the arrays the region found. -/
theorem combine1_flushed (c : Dev nD) (t : Fin cfg1.N) :
    (dat1 (F := Ideal) V c).flushed 5 t
      = ((cfg1.win 5).blk t).view.read (Elt Ideal)
          (combine1G (combine1A0 V c) (combine1A1 V c) (combine1A2 V c) (combine1A3 V c) (combine1A4 V c)) := by
  show (cfg1.win 5).cut (grid1.coords t) ((dat1 V c).after 5 t) = _
  rw [after1_5]
  unfold out1_5
  rw [View.canon_unit_zero combine_hz]
  simp only [View.ld_unit_zero (S := S5000x32) combine_hz, View.ld_unit_zero (S := S5000x1) combine_hz,
    View.ld_unit_zero (S := S5000x50) combine_hz, View.ld_unit_zero (S := S32x50) combine_hz,
    View.ld_unit_zero (S := S1x32) combine_hz]
  have hN : grid1.N = 20 := N_1
  have ht : t.val < 20 := hN ▸ t.isLt
  obtain ⟨-, -, -, -, -, -, -, -, -, -, e50, e51⟩ := combine1_idx t
  funext j
  obtain ⟨p, q, rfl⟩ : ∃ (p : Fin 5000) (q : Fin 32), j = ix2 p q := ⟨j 0, j 1, eq_ix2 j⟩
  have hp : p.val < 5000 := p.isLt
  let P : Fin 100000 := ⟨5000 * t.val + p.val, by omega⟩
  have hP : P.val = 5000 * t.val + p.val := rfl
  have hemb : ((cfg1.win 5).blk t).view.emb (ix2 p q) = ix2 P q := by
    funext a; apply Fin.ext
    match a with
    | ⟨0, _⟩ => show win1_5.index t (0 : Fin 2) * 5000 + 1 * p.val = 5000 * t.val + p.val; rw [e50]; omega
    | ⟨1, _⟩ => show win1_5.index t (1 : Fin 2) * 32 + 1 * q.val = q.val; rw [e51]; omega
  refine (combine1_pay_apply (combine1X0 V c t) (combine1X1 V c t) (combine1X2 V c t) (combine1X3 V c t)
    (combine1X4 V c t) p q).trans ?_
  show _ = combine1G (combine1A0 V c) (combine1A1 V c) (combine1A2 V c) (combine1A3 V c) (combine1A4 V c)
      (((cfg1.win 5).blk t).view.emb (ix2 p q))
  rw [hemb]
  show _ = Cert.Spec.relu (Cert.Spec.normalize _) P q
  refine combine_relu_norm_congr _ _ p P ?_ q
  funext q'
  have hs : ∑ k : Fin 50, combine1X2 V c t (ix2 p k) * combine1X3 V c t (ix2 q' k)
      = ∑ k : Fin 50, combine1A2 V c (ix2 P k) * combine1A3 V c (ix2 q' k) :=
    Finset.sum_congr rfl fun k _ => by rw [combine1_read2 V c t p k P hP, combine1_read3 V c t q' k]
  show (combine1X0 V c t (ix2 p q') * combine1X1 V c t (ix2 p (0 : Fin 1)) + combine1X4 V c t (ix2 (0 : Fin 1) q'))
        + ∑ k : Fin 50, combine1X2 V c t (ix2 p k) * combine1X3 V c t (ix2 q' k)
      = (combine1A0 V c (ix2 P q') * combine1A1 V c (ix2 P (0 : Fin 1)) + combine1A4 V c (ix2 (0 : Fin 1) q'))
        + ∑ k : Fin 50, combine1A2 V c (ix2 P k) * combine1A3 V c (ix2 q' k)
  rw [hs, combine1_read0 V c t p q' P hP, combine1_read1 V c t p P hP, combine1_read4 V c t q']

/-- An index of the output array is in point `t`'s block iff its row is one of the tile's rows. -/
theorem combine1_mem_blk (t : Fin cfg1.N) (i : S100000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v19).slice (win1_5.rect t)).set ↔ _
  rw [View.set_slice_whole, Rect.mem_set_unit]
  exact Iff.rfl

/-- Every row `r` of the output array is written by the point `r / 5000`. -/
theorem combine1_cover (i : S100000x32.Idx) :
    ∃ t : Fin cfg1.N, (cfg1.win 5).flush t = true ∧ i ∈ ((cfg1.win 5).blk t).view.set := by
  have hN : grid1.N = 20 := N_1
  have hi0 : (i 0).val < 100000 := (i 0).isLt
  have hi1 : (i 1).val < 32 := (i 1).isLt
  have hlt : (i 0).val / 5000 < grid1.N := by rw [hN]; omega
  obtain ⟨-, -, -, -, -, -, -, -, -, -, e50, e51⟩ := combine1_idx ⟨(i 0).val / 5000, hlt⟩
  refine ⟨⟨(i 0).val / 5000, hlt⟩, flush1_5 _, ?_⟩
  rw [combine1_mem_blk]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hlt⟩ (1 : Fin 2) * 32 ≤ (i 1).val
      ∧ (i 1).val < win1_5.index ⟨(i 0).val / 5000, hlt⟩ (1 : Fin 2) * 32 + 32
    rw [e51]; omega

/-- The output array after the twenty points. -/
theorem combine1_final (c : Dev nD) :
    (dat1 (F := Ideal) V c).arrAt 5 cfg1.N
      = combine1G (combine1A0 V c) (combine1A1 V c) (combine1A2 V c) (combine1A3 V c) (combine1A4 V c) :=
  (dat1 V c).arrAt_eq_of_cover 5 _ (fun t _ => combine1_flushed V c t) combine1_cover

/-- REGION 1: entry `(p, q)` of the output array is the positive part of the normalized layer at row `p`, of the
    arrays the region found. -/
theorem combine1 (c : Dev nD) (p : Fin 100000) (q : Fin 32) :
    ((dat1 (F := Ideal) V c).arrAt 5 cfg1.N : S100000x32.Idx → EReal) (ix2 p q)
      = Cert.Spec.relu (Cert.Spec.normalize (fun (p : Fin 100000) (q : Fin 32) =>
          (combine1A0 V c (ix2 p q) * combine1A1 V c (ix2 p (0 : Fin 1)) + combine1A4 V c (ix2 (0 : Fin 1) q))
            + ∑ k : Fin 50, combine1A2 V c (ix2 p k) * combine1A3 V c (ix2 q k))) p q := by
  rw [combine1_final]
  rfl

end Final1

end Cert.KernelIdeal.RegValue

end
-- ==== Proof.KerCombine3.lean ====
/-
  The second combining region, as one function of the arrays it finds.

  As the first one, with sixteen output channels over thirty-two hidden channels, and the row's log-softmax in place
  of the positive part: point `t` loads rows `5000 t … 5000 t + 4999` of the summed messages `[100000, 16]`, of the
  scale column `[100000, 1]` and of the hidden features `[100000, 32]`, the whole self weights `[16, 32]` and the
  whole bias row `[1, 16]`, and stores the same rows of the output `[100000, 16]`:
      logSoftmax (normalize pre) p q,   pre (p, q) = (msg (p, q) · scale (p, 0) + bias (0, q)) + Σ_k h (p, k) · w (q, k).
  Row `p` of the output depends on row `p` of the inputs only, the twenty tiles cover the array, so after the twenty
  points the output array is that function of the arrays found.
-/
import proofs.«145111_j36661840838929_2_alg».proof.Proof.Gen.KernelIdeal.Frame
import proofs.«145111_j36661840838929_2_alg».proof.Proof.KerCombineTile

noncomputable section

namespace Cert.KernelIdeal.RegValue

open Cert.KernelIdeal Cert.KernelIdeal.Gen Idealize.ShloMosaic Idealize.ShloMosaic.TcCoe Idealize.ShloMosaic.ValueIdx
open Idealize.ShloMosaic.Pipeline (Dat)
open scoped BigOperators

/-! ## Region 3: the combining layer with the log-softmax -/

section Region3

/-- The body's stored value is the log-softmax of the normalized layer of its loaded tiles. -/
theorem combine3_pay_eq (x0 : FVec Ideal S5000x16 .f32) (x1 : FVec Ideal S5000x1 .f32) (x2 : FVec Ideal S5000x32 .f32)
    (x3 : FVec Ideal S16x32 .f32) (x4 : FVec Ideal S1x16 .f32) :
    k3_pay1 (F := Ideal) x0 x1 x2 x3 x4
      = combineLsmTile reduces_S5000x16_S5000 shapeCasts_S5000_S5000x1 broadcasts_S5000x1_S5000x16
          (combineNormTile reduces_S5000x16_S5000 shapeCasts_S5000_S5000x1 broadcasts_S5000x1_S5000x16
            (combinePreTile dot_S5000x32_S32x16_S5000x16_1_0_0_1_n_n_wf broadcasts_S5000x1_S5000x16
              broadcasts_S1x16_S5000x16 transposes_S16x32_p1_0_S32x16
              (shapeCast S5000x16 x0 shapeCasts_S5000x16_S5000x16) (shapeCast S5000x1 x1 shapeCasts_S5000x1_S5000x1)
              (shapeCast S1x16 x4 shapeCasts_S1x16_S1x16)
              (truncf .bf16 (shapeCast S5000x32 x2 shapeCasts_S5000x32_S5000x32) bitsLt_bf16_f32)
              (truncf .bf16 x3 bitsLt_bf16_f32))) := rfl

/-- Entry `(p, q)` of the stored tile, from the loaded tiles. -/
theorem combine3_pay_apply (x0 : FVec Ideal S5000x16 .f32) (x1 : FVec Ideal S5000x1 .f32) (x2 : FVec Ideal S5000x32 .f32)
    (x3 : FVec Ideal S16x32 .f32) (x4 : FVec Ideal S1x16 .f32) (p : Fin 5000) (q : Fin 16) :
    k3_pay1 (F := Ideal) x0 x1 x2 x3 x4 (ix2 p q)
      = Cert.Spec.logSoftmax (Cert.Spec.normalize (fun (p : Fin 5000) (q : Fin 16) =>
          (x0 (ix2 p q) * x1 (ix2 p (0 : Fin 1)) + x4 (ix2 (0 : Fin 1) q)) + ∑ k : Fin 32, x2 (ix2 p k) * x3 (ix2 q k))) p q := by
  rw [combine3_pay_eq]
  refine (combineLsmTile_apply _ _ _ _ p q).trans ?_
  refine congrArg (fun w => Cert.Spec.logSoftmax w p q) ?_
  funext p' q'
  refine (combineNormTile_apply _ _ _ _ p' q').trans ?_
  refine congrArg (fun u => Cert.Spec.normalize u p' q') ?_
  funext p'' q''
  refine (combinePreTile_apply _ _ _ _ _ _ _ _ _ p'' q'').trans ?_
  simp only [shapeCast_self]
  rfl

end Region3

/-! ## Region 3: from the twenty row tiles to the array -/

section Array3
variable (V : (c : Dev nD) → (b : Ref sig .tc) → Buf (Elt Ideal) ((c : Thread nD τ).loc b))

/-- Where each window's block sits at point `t`: the row-tiled windows at block row `t`, the whole windows at the
    origin (decided over the twenty points). -/
theorem combine3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The arrays the region finds, as functions of an index: the summed messages, the scale column, the hidden features,
    the weights, the bias row. -/
abbrev combine3A0 (c : Dev nD) : S100000x16.Idx → EReal := V c (Pipeline.arrRef spec3 0)
abbrev combine3A1 (c : Dev nD) : S100000x1.Idx → EReal := V c (Pipeline.arrRef spec3 1)
abbrev combine3A2 (c : Dev nD) : S100000x32.Idx → EReal := V c (Pipeline.arrRef spec3 2)
abbrev combine3A3 (c : Dev nD) : S16x32.Idx → EReal := V c (Pipeline.arrRef spec3 3)
abbrev combine3A4 (c : Dev nD) : S1x16.Idx → EReal := V c (Pipeline.arrRef spec3 4)

/-- Their blocks at point `t`. -/
abbrev combine3X0 (c : Dev nD) (t : Fin cfg3.N) : FVec Ideal S5000x16 .f32 := iblk3 V c 0 t
abbrev combine3X1 (c : Dev nD) (t : Fin cfg3.N) : FVec Ideal S5000x1 .f32 := iblk3 V c 1 t
abbrev combine3X2 (c : Dev nD) (t : Fin cfg3.N) : FVec Ideal S5000x32 .f32 := iblk3 V c 2 t
abbrev combine3X3 (c : Dev nD) (t : Fin cfg3.N) : FVec Ideal S16x32 .f32 := iblk3 V c 3 t
abbrev combine3X4 (c : Dev nD) (t : Fin cfg3.N) : FVec Ideal S1x16 .f32 := iblk3 V c 4 t

/-- What the region leaves in its output array: at row `p`, the log-softmax of the normalized layer of row `p`. -/
def combine3G (A0 : S100000x16.Idx → EReal) (A1 : S100000x1.Idx → EReal) (A2 : S100000x32.Idx → EReal)
    (A3 : S16x32.Idx → EReal) (A4 : S1x16.Idx → EReal) : S100000x16.Idx → EReal := fun i =>
  Cert.Spec.logSoftmax (Cert.Spec.normalize (fun (p : Fin 100000) (q : Fin 16) =>
      (A0 (ix2 p q) * A1 (ix2 p (0 : Fin 1)) + A4 (ix2 (0 : Fin 1) q)) + ∑ k : Fin 32, A2 (ix2 p k) * A3 (ix2 q k)))
    (i 0) (i 1)

/-- Row `p` of the tile at point `t` is row `5000 t + p` of the array: the summed messages, -/
theorem combine3_read0 (c : Dev nD) (t : Fin cfg3.N) (p : Fin 5000) (q : Fin 16) (P : Fin 100000)
    (hP : P.val = 5000 * t.val + p.val) :
    combine3X0 V c t (ix2 p q) = combine3A0 V c (ix2 P q) := by
  obtain ⟨e00, e01, -⟩ := combine3_idx t
  show V c (Pipeline.arrRef spec3 0) (((cfg3.win 0).blk t).view.emb (ix2 p q)) = _
  refine congrArg _ ?_
  funext a; apply Fin.ext
  match a with
  | ⟨0, _⟩ => show win3_0.index t (0 : Fin 2) * 5000 + 1 * p.val = P.val; rw [e00, hP]; omega
  | ⟨1, _⟩ => show win3_0.index t (1 : Fin 2) * 16 + 1 * q.val = q.val; rw [e01]; omega

/-- the scale column, -/
theorem combine3_read1 (c : Dev nD) (t : Fin cfg3.N) (p : Fin 5000) (P : Fin 100000)
    (hP : P.val = 5000 * t.val + p.val) :
    combine3X1 V c t (ix2 p (0 : Fin 1)) = combine3A1 V c (ix2 P (0 : Fin 1)) := by
  obtain ⟨-, -, e10, e11, -⟩ := combine3_idx t
  show V c (Pipeline.arrRef spec3 1) (((cfg3.win 1).blk t).view.emb (ix2 p (0 : Fin 1))) = _
  refine congrArg _ ?_
  funext a; apply Fin.ext
  match a with
  | ⟨0, _⟩ => show win3_1.index t (0 : Fin 2) * 5000 + 1 * p.val = P.val; rw [e10, hP]; omega
  | ⟨1, _⟩ => show win3_1.index t (1 : Fin 2) * 1 + 1 * 0 = 0; rw [e11]

/-- the hidden features; -/
theorem combine3_read2 (c : Dev nD) (t : Fin cfg3.N) (p : Fin 5000) (k : Fin 32) (P : Fin 100000)
    (hP : P.val = 5000 * t.val + p.val) :
    combine3X2 V c t (ix2 p k) = combine3A2 V c (ix2 P k) := by
  obtain ⟨-, -, -, -, e20, e21, -⟩ := combine3_idx t
  show V c (Pipeline.arrRef spec3 2) (((cfg3.win 2).blk t).view.emb (ix2 p k)) = _
  refine congrArg _ ?_
  funext a; apply Fin.ext
  match a with
  | ⟨0, _⟩ => show win3_2.index t (0 : Fin 2) * 5000 + 1 * p.val = P.val; rw [e20, hP]; omega
  | ⟨1, _⟩ => show win3_2.index t (1 : Fin 2) * 32 + 1 * k.val = k.val; rw [e21]; omega

/-- the weights and the bias are read whole at every point. -/
theorem combine3_read3 (c : Dev nD) (t : Fin cfg3.N) (q : Fin 16) (k : Fin 32) :
    combine3X3 V c t (ix2 q k) = combine3A3 V c (ix2 q k) := by
  obtain ⟨-, -, -, -, -, -, e30, e31, -⟩ := combine3_idx t
  show V c (Pipeline.arrRef spec3 3) (((cfg3.win 3).blk t).view.emb (ix2 q k)) = _
  refine congrArg _ ?_
  funext a; apply Fin.ext
  match a with
  | ⟨0, _⟩ => show win3_3.index t (0 : Fin 2) * 16 + 1 * q.val = q.val; rw [e30]; omega
  | ⟨1, _⟩ => show win3_3.index t (1 : Fin 2) * 32 + 1 * k.val = k.val; rw [e31]; omega

theorem combine3_read4 (c : Dev nD) (t : Fin cfg3.N) (q : Fin 16) :
    combine3X4 V c t (ix2 (0 : Fin 1) q) = combine3A4 V c (ix2 (0 : Fin 1) q) := by
  obtain ⟨-, -, -, -, -, -, -, -, e40, e41, -⟩ := combine3_idx t
  show V c (Pipeline.arrRef spec3 4) (((cfg3.win 4).blk t).view.emb (ix2 (0 : Fin 1) q)) = _
  refine congrArg _ ?_
  funext a; apply Fin.ext
  match a with
  | ⟨0, _⟩ => show win3_4.index t (0 : Fin 2) * 1 + 1 * 0 = 0; rw [e40]
  | ⟨1, _⟩ => show win3_4.index t (1 : Fin 2) * 16 + 1 * q.val = q.val; rw [e41]; omega

end Array3

section Final3
variable (V : (c : Dev nD) → (b : Ref sig .tc) → Buf (Elt Ideal) ((c : Thread nD τ).loc b))

/-- What point `t` writes back is its block of `combine3G` of the arrays the region found. -/
theorem combine3_flushed (c : Dev nD) (t : Fin cfg3.N) :
    (dat3 (F := Ideal) V c).flushed 5 t
      = ((cfg3.win 5).blk t).view.read (Elt Ideal)
          (combine3G (combine3A0 V c) (combine3A1 V c) (combine3A2 V c) (combine3A3 V c) (combine3A4 V c)) := by
  show (cfg3.win 5).cut (grid3.coords t) ((dat3 V c).after 5 t) = _
  rw [after3_5]
  unfold out3_5
  rw [View.canon_unit_zero combine_hz]
  simp only [View.ld_unit_zero (S := S5000x16) combine_hz, View.ld_unit_zero (S := S5000x1) combine_hz,
    View.ld_unit_zero (S := S5000x32) combine_hz, View.ld_unit_zero (S := S16x32) combine_hz,
    View.ld_unit_zero (S := S1x16) combine_hz]
  have hN : grid3.N = 20 := N_3
  have ht : t.val < 20 := hN ▸ t.isLt
  obtain ⟨-, -, -, -, -, -, -, -, -, -, e50, e51⟩ := combine3_idx t
  funext j
  obtain ⟨p, q, rfl⟩ : ∃ (p : Fin 5000) (q : Fin 16), j = ix2 p q := ⟨j 0, j 1, eq_ix2 j⟩
  have hp : p.val < 5000 := p.isLt
  let P : Fin 100000 := ⟨5000 * t.val + p.val, by omega⟩
  have hP : P.val = 5000 * t.val + p.val := rfl
  have hemb : ((cfg3.win 5).blk t).view.emb (ix2 p q) = ix2 P q := by
    funext a; apply Fin.ext
    match a with
    | ⟨0, _⟩ => show win3_5.index t (0 : Fin 2) * 5000 + 1 * p.val = 5000 * t.val + p.val; rw [e50]; omega
    | ⟨1, _⟩ => show win3_5.index t (1 : Fin 2) * 16 + 1 * q.val = q.val; rw [e51]; omega
  refine (combine3_pay_apply (combine3X0 V c t) (combine3X1 V c t) (combine3X2 V c t) (combine3X3 V c t)
    (combine3X4 V c t) p q).trans ?_
  show _ = combine3G (combine3A0 V c) (combine3A1 V c) (combine3A2 V c) (combine3A3 V c) (combine3A4 V c)
      (((cfg3.win 5).blk t).view.emb (ix2 p q))
  rw [hemb]
  show _ = Cert.Spec.logSoftmax (Cert.Spec.normalize _) P q
  refine combine_lsm_norm_congr _ _ p P ?_ q
  funext q'
  have hs : ∑ k : Fin 32, combine3X2 V c t (ix2 p k) * combine3X3 V c t (ix2 q' k)
      = ∑ k : Fin 32, combine3A2 V c (ix2 P k) * combine3A3 V c (ix2 q' k) :=
    Finset.sum_congr rfl fun k _ => by rw [combine3_read2 V c t p k P hP, combine3_read3 V c t q' k]
  show (combine3X0 V c t (ix2 p q') * combine3X1 V c t (ix2 p (0 : Fin 1)) + combine3X4 V c t (ix2 (0 : Fin 1) q'))
        + ∑ k : Fin 32, combine3X2 V c t (ix2 p k) * combine3X3 V c t (ix2 q' k)
      = (combine3A0 V c (ix2 P q') * combine3A1 V c (ix2 P (0 : Fin 1)) + combine3A4 V c (ix2 (0 : Fin 1) q'))
        + ∑ k : Fin 32, combine3A2 V c (ix2 P k) * combine3A3 V c (ix2 q' k)
  rw [hs, combine3_read0 V c t p q' P hP, combine3_read1 V c t p P hP, combine3_read4 V c t q']

/-- An index of the output array is in point `t`'s block iff its row is one of the tile's rows. -/
theorem combine3_mem_blk (t : Fin cfg3.N) (i : S100000x16.Idx) :
    i ∈ ((cfg3.win 5).blk t).view.set ↔ ∀ a : Fin 2, win3_5.index t a * S5000x16.size a ≤ (i a).val
      ∧ (i a).val < win3_5.index t a * S5000x16.size a + S5000x16.size a := by
  show i ∈ ((View.whole main_v26).slice (win3_5.rect t)).set ↔ _
  rw [View.set_slice_whole, Rect.mem_set_unit]
  exact Iff.rfl

/-- Every row `r` of the output array is written by the point `r / 5000`. -/
theorem combine3_cover (i : S100000x16.Idx) :
    ∃ t : Fin cfg3.N, (cfg3.win 5).flush t = true ∧ i ∈ ((cfg3.win 5).blk t).view.set := by
  have hN : grid3.N = 20 := N_3
  have hi0 : (i 0).val < 100000 := (i 0).isLt
  have hi1 : (i 1).val < 16 := (i 1).isLt
  have hlt : (i 0).val / 5000 < grid3.N := by rw [hN]; omega
  obtain ⟨-, -, -, -, -, -, -, -, -, -, e50, e51⟩ := combine3_idx ⟨(i 0).val / 5000, hlt⟩
  refine ⟨⟨(i 0).val / 5000, hlt⟩, flush3_5 _, ?_⟩
  rw [combine3_mem_blk]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, hlt⟩ (1 : Fin 2) * 16 ≤ (i 1).val
      ∧ (i 1).val < win3_5.index ⟨(i 0).val / 5000, hlt⟩ (1 : Fin 2) * 16 + 16
    rw [e51]; omega

/-- The output array after the twenty points. -/
theorem combine3_final (c : Dev nD) :
    (dat3 (F := Ideal) V c).arrAt 5 cfg3.N
      = combine3G (combine3A0 V c) (combine3A1 V c) (combine3A2 V c) (combine3A3 V c) (combine3A4 V c) :=
  (dat3 V c).arrAt_eq_of_cover 5 _ (fun t _ => combine3_flushed V c t) combine3_cover

/-- REGION 3: entry `(p, q)` of the output array is the log-softmax of the normalized layer at row `p`, of the
    arrays the region found. -/
theorem combine3 (c : Dev nD) (p : Fin 100000) (q : Fin 16) :
    ((dat3 (F := Ideal) V c).arrAt 5 cfg3.N : S100000x16.Idx → EReal) (ix2 p q)
      = Cert.Spec.logSoftmax (Cert.Spec.normalize (fun (p : Fin 100000) (q : Fin 16) =>
          (combine3A0 V c (ix2 p q) * combine3A1 V c (ix2 p (0 : Fin 1)) + combine3A4 V c (ix2 (0 : Fin 1) q))
            + ∑ k : Fin 32, combine3A2 V c (ix2 p k) * combine3A3 V c (ix2 q k))) p q := by
  rw [combine3_final]
  rfl

end Final3

end Cert.KernelIdeal.RegValue

end
-- ==== Proof.KerCombine.lean ====
/-
  The two combining regions of the network, each read as one function of the arrays it finds: `combine1` (the first
  layer: normalize, then the positive part) and `combine3` (the second layer: normalize, then the row's
  log-softmax). The shared row lemmas are in the tile module.
-/
import proofs.«145111_j36661840838929_2_alg».proof.Proof.KerCombine1
import proofs.«145111_j36661840838929_2_alg».proof.Proof.KerCombine3
-- ==== Proof.SpecSums.lean ====
/-
  The specification's graph sums, spelled out.

  Each is its definition with the set of incoming edges written as the filter it is, stated once over arbitrary extents so
  that a proof at large literal extents rewrites with the equation and never unfolds a definition there.
-/
import proofs.«145111_j36661840838929_2_alg».proof.Proof.Spec

noncomputable section

namespace Cert.Spec

open Idealize.ShloMosaic Cert.Lib
open scoped BigOperators

variable {N E K D : ℕ}

theorem agg_eq_sum (r : Fin E → Fin N) (s : Fin E → BitVec 32) (h : Fin N → Fin K → EReal) (p : Fin N) (k : Fin K) :
    agg r s h p k = ∑ e ∈ Finset.univ.filter (fun e : Fin E => row? N (s e) = some p), h (r e) k := rfl

theorem invDeg_eq_sum (s : Fin E → BitVec 32) (p : Fin N) :
    invDeg s p = Ideal.div 1 (max (∑ _e ∈ Finset.univ.filter (fun e : Fin E => row? N (s e) = some p), (1 : EReal)) 1) := rfl

theorem preK_eq (r : Fin E → Fin N) (s : Fin E → BitVec 32) (h : Fin N → Fin K → EReal) (wl : Fin D → Fin K → EReal)
    (b : Fin D → EReal) (wr : Fin D → Fin K → EReal) (p : Fin N) (q : Fin D) :
    preK r s h wl b wr p q
      = (agg r s (fun n d => ∑ k, h n k * wl d k) p q * invDeg s p + b q) + ∑ k, h p k * wr q k := rfl

end Cert.Spec

end
-- ==== Proof.KerValue1.lean ====
/-
  The kernel program's first layer, as a value.

  With every source id in range, the array the first combine region writes is, entry by entry, the specification's first
  layer in the arrangement that projects before the edges are summed: the projection region writes `y n d = ∑ k, x n k · wl d k`;
  the gather reads row `r e` of it for edge `e`; the scatter sums those rows over the edges into each node; the combine
  region multiplies by one over the degree, adds the bias row and the node's own projection, divides each row by its
  bounded norm and takes the positive part.
-/
import proofs.«145111_j36661840838929_2_alg».proof.Proof.KerTowerA
import proofs.«145111_j36661840838929_2_alg».proof.Proof.KerHostA
import proofs.«145111_j36661840838929_2_alg».proof.Proof.KerHostC
import proofs.«145111_j36661840838929_2_alg».proof.Proof.KerProject
import proofs.«145111_j36661840838929_2_alg».proof.Proof.KerCombine
import proofs.«145111_j36661840838929_2_alg».proof.Proof.SpecSums

set_option maxRecDepth 16384

noncomputable section

namespace Cert.KernelIdeal.Tower

open Cert.KernelIdeal Cert.KernelIdeal.Gen
open Idealize.ShloMosaic Idealize.ShloMosaic.TcCoe Idealize.ShloMosaic.ValueIdx Idealize.SL.Sem
open Cert.Lib Cert.Graph Cert.Spec Cert.KernelIdeal.HostValue Cert.KernelIdeal.RegValue

variable (m : (ℓ : Loc nD τ sig) → Buf (Elt Ideal) ℓ) (ρ : Dev nD → PrngReg) (c : Dev nD)

/-! ## The argument arrays -/

abbrev a0 : S100000x50.Idx → EReal := m ((c : Thread nD τ).loc main_arg0)
abbrev a1 : S2x1600000.Idx → BitVec 32 := m ((c : Thread nD τ).loc main_arg1)
abbrev a2 : S32x50.Idx → EReal := m ((c : Thread nD τ).loc main_arg2)
abbrev a3 : S32.Idx → EReal := m ((c : Thread nD τ).loc main_arg3)
abbrev a4 : S32x50.Idx → EReal := m ((c : Thread nD τ).loc main_arg4)
abbrev a5 : S16x32.Idx → EReal := m ((c : Thread nD τ).loc main_arg5)
abbrev a6 : S16.Idx → EReal := m ((c : Thread nD τ).loc main_arg6)
abbrev a7 : S16x32.Idx → EReal := m ((c : Thread nD τ).loc main_arg7)

/-- Every source id, read signed, is a legal row index or a legal negative one. -/
def InRange : Prop := ∀ e : Fin 1600000, -100000 ≤ (a1 m c (ix2 (0 : Fin 2) e)).toInt ∧ (a1 m c (ix2 (0 : Fin 2) e)).toInt < 100000

/-! ## The first layer's pieces -/

/-- The projected features: what the first projection region writes. -/
theorem y1_apply (n : Fin 100000) (d : Fin 32) :
    (W2 m ρ c (Proc.devRef .tc main_v13) : S100000x32.Idx → EReal) (ix2 n d) = ∑ k : Fin 50, a0 m c (ix2 n k) * a2 m c (ix2 d k) :=
  (congrFun (W2_arr m ρ c 2) (ix2 n d)).trans
    (project0_of (V1 m ρ) c (a0 m c) (a2 m c) (W1_main_arg0 m ρ c) (W1_main_arg2 m ρ c) n d)

/-- The node each edge reads, as the gather finds it. -/
theorem src2_apply (e : Fin 1600000) :
    (W2 m ρ c (Proc.devRef .tc main_v1) : S1600000.Idx → BitVec 32) (ix1 e) = a1 m c (ix2 (0 : Fin 2) e) :=
  (congrFun (W2_main_v1 m ρ c) (ix1 e)).trans (src_apply (W0 m ρ c) e)

/-- The gathered rows: edge `e` carries row `r e` of the projected features. -/
theorem g1_apply (hv : InRange m c) (e : Fin 1600000) (q : Fin 32) :
    (W3 m ρ c (Proc.devRef .tc main_v14) : S1600000x32.Idx → EReal) (ix2 e q)
      = (W2 m ρ c (Proc.devRef .tc main_v13) : S100000x32.Idx → EReal) (ix2 (rOf (a1 m c) e) q) := by
  have hv2 : ∀ e : Fin 1600000, -100000 ≤ ((W2 m ρ c (Proc.devRef .tc main_v1) : S1600000.Idx → BitVec 32) (ix1 e)).toInt
      ∧ ((W2 m ρ c (Proc.devRef .tc main_v1) : S1600000.Idx → BitVec 32) (ix1 e)).toInt < 100000 := fun e => by
    rw [src2_apply m ρ c e]; exact hv e
  refine (take1_apply (W2 m ρ c) hv2 e q).trans ?_
  rw [src2_apply m ρ c e]
  rfl

/-- Each edge's destination, as the scatter finds it. -/
theorem dst3_apply (e : Fin 1600000) :
    (W3 m ρ c (Proc.devRef .tc main_v3) : S1600000.Idx → BitVec 32) (ix1 e) = a1 m c (ix2 (1 : Fin 2) e) :=
  (congrFun ((W3_main_v3 m ρ c).trans (W2_main_v3 m ρ c)) (ix1 e)).trans (dst_apply (W0 m ρ c) e)

/-- The summed messages: at node `p` the sum over its incoming edges of the projected rows they carry. -/
theorem ag1_apply (hv : InRange m c) (p : Fin 100000) (q : Fin 32) :
    (W4 m ρ c (Proc.devRef .tc main_v17) : S100000x32.Idx → EReal) (ix2 p q)
      = agg (rOf (a1 m c)) (sOf (a1 m c)) (fun n d => ∑ k : Fin 50, a0 m c (ix2 n k) * a2 m c (ix2 d k)) p q := by
  rw [agg_eq_sum]
  refine (scatter1_apply (W3 m ρ c) p q).trans ?_
  show (_ : EReal) = _
  refine Finset.sum_congr (Finset.filter_congr fun e _ =>
    Eq.to_iff (congrArg (fun b : BitVec 32 => row? 100000 b = some p) (dst3_apply m ρ c e))) fun e _ => ?_
  show (_ : EReal) = _
  exact (g1_apply m ρ c hv e q).trans (y1_apply m ρ c _ q)

/-- One over the degree, as the first combine region finds it. -/
theorem inv4_apply (p : Fin 100000) (u : Fin 1) :
    (W4 m ρ c (Proc.devRef .tc main_v12) : S100000x1.Idx → EReal) (ix2 p u) = invDeg (sOf (a1 m c)) p :=
  (congrFun ((W4_main_v12 m ρ c).trans ((W3_main_v12 m ρ c).trans (W2_main_v12 m ρ c))) (ix2 p u)).trans
    (invDeg_apply (W0 m ρ c) p u)

/-- The bias row, as the first combine region finds it. -/
theorem b1_apply (u : Fin 1) (q : Fin 32) :
    (W4 m ρ c (Proc.devRef .tc main_v18) : S1x32.Idx → EReal) (ix2 u q) = a3 m c (ix1 q) :=
  (bias1_apply (W3 m ρ c) u q).trans
    (congrFun ((W3_main_arg3 m ρ c).trans ((W2_main_arg3 m ρ c).trans (W1_main_arg3 m ρ c))) (ix1 q))

/-- The node features and the self weights, as the first combine region finds them. -/
theorem x4_eq : (W4 m ρ c (Proc.devRef .tc main_arg0) : S100000x50.Idx → EReal) = a0 m c :=
  (W4_main_arg0 m ρ c).trans ((W3_main_arg0 m ρ c).trans ((W2_main_arg0 m ρ c).trans (W1_main_arg0 m ρ c)))
theorem wr4_eq : (W4 m ρ c (Proc.devRef .tc main_arg4) : S32x50.Idx → EReal) = a4 m c :=
  (W4_main_arg4 m ρ c).trans ((W3_main_arg4 m ρ c).trans ((W2_main_arg4 m ρ c).trans (W1_main_arg4 m ρ c)))

/-! ## The first layer -/

/-- The first layer of the specification, over the argument arrays. -/
def layer1 : Fin 100000 → Fin 32 → EReal :=
  relu (normalize (preK (rOf (a1 m c)) (sOf (a1 m c)) (fun n k => a0 m c (ix2 n k)) (fun d k => a2 m c (ix2 d k))
    (fun d => a3 m c (ix1 d)) (fun d k => a4 m c (ix2 d k))))

/-- What the first combine region writes is the first layer. -/
theorem h1_apply (hv : InRange m c) (p : Fin 100000) (q : Fin 32) :
    (W5 m ρ c (Proc.devRef .tc main_v19) : S100000x32.Idx → EReal) (ix2 p q) = layer1 m c p q := by
  refine (congrFun (W5_arr m ρ c 5) (ix2 p q)).trans ((combine1 (V4 m ρ) c p q).trans ?_)
  unfold layer1
  refine congrArg (fun F : Fin 100000 → Fin 32 → EReal => relu (normalize F) p q) (funext fun p' => funext fun q' => ?_)
  rw [preK_eq]
  have e0 : combine1A0 (V4 m ρ) c (ix2 p' q') = _ := ag1_apply m ρ c hv p' q'
  have e1 : combine1A1 (V4 m ρ) c (ix2 p' (0 : Fin 1)) = _ := inv4_apply m ρ c p' 0
  have e4 : combine1A4 (V4 m ρ) c (ix2 (0 : Fin 1) q') = _ := b1_apply m ρ c 0 q'
  have e2 : combine1A2 (V4 m ρ) c = a0 m c := x4_eq m ρ c
  have e3 : combine1A3 (V4 m ρ) c = a4 m c := wr4_eq m ρ c
  rw [e0, e1, e4, e2, e3]

end Cert.KernelIdeal.Tower

end
-- ==== Proof.KerTowerB.lean ====
/-
  The kernel program's buffers across its last five boundaries: the first combine region, the second projection
  region, the two stretches that gather and scatter its output, each buffer that is not written passing through
  unchanged, an input window's array passing through its region unchanged.
-/
import proofs.«145111_j36661840838929_2_alg».proof.Proof.Gen.KernelIdeal.Frame
import Idealize.ShloMosaic.Lib.StableHlo.Run
import Idealize.ShloMosaic.PureOps.Ideal

set_option maxRecDepth 16384

noncomputable section

namespace Cert.KernelIdeal.Tower

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

/-- A stretch of host operations leaves a buffer it does not write as it found it. -/
local macro "host_nw" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## One step at a time -/

theorem W5_main_v12 : W5 m ρ c (Proc.devRef .tc main_v12) = W4 m ρ c (Proc.devRef .tc main_v12) := (W5_arr m ρ c 1).trans (((dat1 (V4 m ρ) c).arrAt_in 1 rfl _).trans (A_eq1 (V4 m ρ) c 1))
theorem W5_main_v1 : W5 m ρ c (Proc.devRef .tc main_v1) = W4 m ρ c (Proc.devRef .tc main_v1) := W5_of_ne m ρ c main_v1 (by decide)
theorem W5_main_v3 : W5 m ρ c (Proc.devRef .tc main_v3) = W4 m ρ c (Proc.devRef .tc main_v3) := W5_of_ne m ρ c main_v3 (by decide)
theorem W5_main_arg5 : W5 m ρ c (Proc.devRef .tc main_arg5) = W4 m ρ c (Proc.devRef .tc main_arg5) := W5_of_ne m ρ c main_arg5 (by decide)
theorem W5_main_arg6 : W5 m ρ c (Proc.devRef .tc main_arg6) = W4 m ρ c (Proc.devRef .tc main_arg6) := W5_of_ne m ρ c main_arg6 (by decide)
theorem W5_main_arg7 : W5 m ρ c (Proc.devRef .tc main_arg7) = W4 m ρ c (Proc.devRef .tc main_arg7) := W5_of_ne m ρ c main_arg7 (by decide)
theorem W6_main_v19 : W6 m ρ c (Proc.devRef .tc main_v19) = W5 m ρ c (Proc.devRef .tc main_v19) := (W6_arr m ρ c 0).trans (((dat2 (V5 m ρ) c).arrAt_in 0 rfl _).trans (A_eq2 (V5 m ρ) c 0))
theorem W6_main_v1 : W6 m ρ c (Proc.devRef .tc main_v1) = W5 m ρ c (Proc.devRef .tc main_v1) := W6_of_ne m ρ c main_v1 (by decide)
theorem W6_main_v3 : W6 m ρ c (Proc.devRef .tc main_v3) = W5 m ρ c (Proc.devRef .tc main_v3) := W6_of_ne m ρ c main_v3 (by decide)
theorem W6_main_v12 : W6 m ρ c (Proc.devRef .tc main_v12) = W5 m ρ c (Proc.devRef .tc main_v12) := W6_of_ne m ρ c main_v12 (by decide)
theorem W6_main_arg6 : W6 m ρ c (Proc.devRef .tc main_arg6) = W5 m ρ c (Proc.devRef .tc main_arg6) := W6_of_ne m ρ c main_arg6 (by decide)
theorem W6_main_arg7 : W6 m ρ c (Proc.devRef .tc main_arg7) = W5 m ρ c (Proc.devRef .tc main_arg7) := W6_of_ne m ρ c main_arg7 (by decide)
theorem W7_main_v3 : W7 m ρ c (Proc.devRef .tc main_v3) = W6 m ρ c (Proc.devRef .tc main_v3) := by host_nw hostOps3
theorem W7_main_v12 : W7 m ρ c (Proc.devRef .tc main_v12) = W6 m ρ c (Proc.devRef .tc main_v12) := by host_nw hostOps3
theorem W7_main_v19 : W7 m ρ c (Proc.devRef .tc main_v19) = W6 m ρ c (Proc.devRef .tc main_v19) := by host_nw hostOps3
theorem W7_main_arg6 : W7 m ρ c (Proc.devRef .tc main_arg6) = W6 m ρ c (Proc.devRef .tc main_arg6) := by host_nw hostOps3
theorem W7_main_arg7 : W7 m ρ c (Proc.devRef .tc main_arg7) = W6 m ρ c (Proc.devRef .tc main_arg7) := by host_nw hostOps3
theorem W8_main_v12 : W8 m ρ c (Proc.devRef .tc main_v12) = W7 m ρ c (Proc.devRef .tc main_v12) := by host_nw hostOps3_1
theorem W8_main_v19 : W8 m ρ c (Proc.devRef .tc main_v19) = W7 m ρ c (Proc.devRef .tc main_v19) := by host_nw hostOps3_1
theorem W8_main_arg7 : W8 m ρ c (Proc.devRef .tc main_arg7) = W7 m ρ c (Proc.devRef .tc main_arg7) := by host_nw hostOps3_1

end Cert.KernelIdeal.Tower

end
-- ==== Proof.KerValue2.lean ====
/-
  The kernel program's result, as a value.

  The second layer repeats the first over the first layer's output: the second projection region writes
  `y n d = ∑ k, h n k · wl d k`, the gather and the scatter sum its rows over the edges into each node, and the last
  combine region scales by one over the degree, adds the bias and the node's own projection, divides each row by its
  bounded norm and takes the row's log-softmax. So the result buffer holds, entry by entry, the specification's network in
  the arrangement that projects before the edges are summed.
-/
import proofs.«145111_j36661840838929_2_alg».proof.Proof.KerValue1
import proofs.«145111_j36661840838929_2_alg».proof.Proof.KerTowerB

set_option maxRecDepth 16384

noncomputable section

namespace Cert.KernelIdeal.Tower

open Cert.KernelIdeal Cert.KernelIdeal.Gen
open Idealize.ShloMosaic Idealize.ShloMosaic.TcCoe Idealize.ShloMosaic.ValueIdx Idealize.SL.Sem
open Cert.Lib Cert.Graph Cert.Spec Cert.KernelIdeal.HostValue Cert.KernelIdeal.RegValue

variable (m : (ℓ : Loc nD τ sig) → Buf (Elt Ideal) ℓ) (ρ : Dev nD → PrngReg) (c : Dev nD)

/-- The first layer's output, as the array the first combine region left. -/
abbrev hArr : S100000x32.Idx → EReal := W5 m ρ c (Proc.devRef .tc main_v19)

/-- The second layer's neighbour weights, as the second projection region finds them. -/
theorem wl5_eq : (W5 m ρ c (Proc.devRef .tc main_arg5) : S16x32.Idx → EReal) = a5 m c :=
  (W5_main_arg5 m ρ c).trans ((W4_main_arg5 m ρ c).trans ((W3_main_arg5 m ρ c).trans ((W2_main_arg5 m ρ c).trans (W1_main_arg5 m ρ c))))

/-- The projected first-layer output: what the second projection region writes. -/
theorem y2_apply (n : Fin 100000) (d : Fin 16) :
    (W6 m ρ c (Proc.devRef .tc main_v20) : S100000x16.Idx → EReal) (ix2 n d) = ∑ k : Fin 32, hArr m ρ c (ix2 n k) * a5 m c (ix2 d k) :=
  (congrFun (W6_arr m ρ c 2) (ix2 n d)).trans
    (project2_of (V5 m ρ) c (hArr m ρ c) (a5 m c) rfl (wl5_eq m ρ c) n d)

theorem src6_apply (e : Fin 1600000) :
    (W6 m ρ c (Proc.devRef .tc main_v1) : S1600000.Idx → BitVec 32) (ix1 e) = a1 m c (ix2 (0 : Fin 2) e) :=
  (congrFun ((W6_main_v1 m ρ c).trans ((W5_main_v1 m ρ c).trans ((W4_main_v1 m ρ c).trans ((W3_main_v1 m ρ c).trans (W2_main_v1 m ρ c)))))
    (ix1 e)).trans (src_apply (W0 m ρ c) e)

theorem g2_apply (hv : InRange m c) (e : Fin 1600000) (q : Fin 16) :
    (W7 m ρ c (Proc.devRef .tc main_v21) : S1600000x16.Idx → EReal) (ix2 e q)
      = (W6 m ρ c (Proc.devRef .tc main_v20) : S100000x16.Idx → EReal) (ix2 (rOf (a1 m c) e) q) := by
  have hv6 : ∀ e : Fin 1600000, -100000 ≤ ((W6 m ρ c (Proc.devRef .tc main_v1) : S1600000.Idx → BitVec 32) (ix1 e)).toInt
      ∧ ((W6 m ρ c (Proc.devRef .tc main_v1) : S1600000.Idx → BitVec 32) (ix1 e)).toInt < 100000 := fun e => by
    rw [src6_apply m ρ c e]; exact hv e
  refine (take3_apply (W6 m ρ c) hv6 e q).trans ?_
  rw [src6_apply m ρ c e]
  rfl

theorem dst7_apply (e : Fin 1600000) :
    (W7 m ρ c (Proc.devRef .tc main_v3) : S1600000.Idx → BitVec 32) (ix1 e) = a1 m c (ix2 (1 : Fin 2) e) :=
  (congrFun ((W7_main_v3 m ρ c).trans ((W6_main_v3 m ρ c).trans ((W5_main_v3 m ρ c).trans ((W4_main_v3 m ρ c).trans
    ((W3_main_v3 m ρ c).trans (W2_main_v3 m ρ c)))))) (ix1 e)).trans (dst_apply (W0 m ρ c) e)

theorem ag2_apply (hv : InRange m c) (p : Fin 100000) (q : Fin 16) :
    (W8 m ρ c (Proc.devRef .tc main_v24) : S100000x16.Idx → EReal) (ix2 p q)
      = agg (rOf (a1 m c)) (sOf (a1 m c)) (fun n d => ∑ k : Fin 32, hArr m ρ c (ix2 n k) * a5 m c (ix2 d k)) p q := by
  rw [agg_eq_sum]
  refine (scatter3_apply (W7 m ρ c) p q).trans ?_
  show (_ : EReal) = _
  refine Finset.sum_congr (Finset.filter_congr fun e _ =>
    Eq.to_iff (congrArg (fun b : BitVec 32 => row? 100000 b = some p) (dst7_apply m ρ c e))) fun e _ => ?_
  show (_ : EReal) = _
  exact (g2_apply m ρ c hv e q).trans (y2_apply m ρ c _ q)

theorem inv8_apply (p : Fin 100000) (u : Fin 1) :
    (W8 m ρ c (Proc.devRef .tc main_v12) : S100000x1.Idx → EReal) (ix2 p u) = invDeg (sOf (a1 m c)) p :=
  (congrFun ((W8_main_v12 m ρ c).trans ((W7_main_v12 m ρ c).trans ((W6_main_v12 m ρ c).trans ((W5_main_v12 m ρ c).trans
    ((W4_main_v12 m ρ c).trans ((W3_main_v12 m ρ c).trans (W2_main_v12 m ρ c))))))) (ix2 p u)).trans
    (invDeg_apply (W0 m ρ c) p u)

theorem b2_apply (u : Fin 1) (q : Fin 16) :
    (W8 m ρ c (Proc.devRef .tc main_v25) : S1x16.Idx → EReal) (ix2 u q) = a6 m c (ix1 q) :=
  (bias3_apply (W7 m ρ c) u q).trans
    (congrFun ((W7_main_arg6 m ρ c).trans ((W6_main_arg6 m ρ c).trans ((W5_main_arg6 m ρ c).trans ((W4_main_arg6 m ρ c).trans
      ((W3_main_arg6 m ρ c).trans ((W2_main_arg6 m ρ c).trans (W1_main_arg6 m ρ c))))))) (ix1 q))

theorem h8_eq : (W8 m ρ c (Proc.devRef .tc main_v19) : S100000x32.Idx → EReal) = hArr m ρ c :=
  (W8_main_v19 m ρ c).trans ((W7_main_v19 m ρ c).trans (W6_main_v19 m ρ c))

theorem wr8_eq : (W8 m ρ c (Proc.devRef .tc main_arg7) : S16x32.Idx → EReal) = a7 m c :=
  (W8_main_arg7 m ρ c).trans ((W7_main_arg7 m ρ c).trans ((W6_main_arg7 m ρ c).trans ((W5_main_arg7 m ρ c).trans
    ((W4_main_arg7 m ρ c).trans ((W3_main_arg7 m ρ c).trans ((W2_main_arg7 m ρ c).trans (W1_main_arg7 m ρ c)))))))

/-- THE KERNEL PROGRAM'S RESULT, entry by entry: the specification's network, projecting before the edges are summed. -/
theorem value (hv : InRange m c) (p : Fin 100000) (q : Fin 16) :
    (W9 m ρ c (Proc.devRef .tc main_v26) : S100000x16.Idx → EReal) (ix2 p q)
      = kerOut (rOf (a1 m c)) (sOf (a1 m c)) (fun n k => a0 m c (ix2 n k)) (fun d k => a2 m c (ix2 d k)) (fun d => a3 m c (ix1 d))
          (fun d k => a4 m c (ix2 d k)) (fun d k => a5 m c (ix2 d k)) (fun d => a6 m c (ix1 d)) (fun d k => a7 m c (ix2 d k)) p q := by
  refine (congrFun (W9_arr m ρ c 5) (ix2 p q)).trans ((combine3 (V8 m ρ) c p q).trans ?_)
  unfold kerOut
  refine congrArg (fun F : Fin 100000 → Fin 16 → EReal => logSoftmax (normalize F) p q) (funext fun p' => funext fun q' => ?_)
  rw [preK_eq]
  have hh : (fun (n : Fin 100000) (k : Fin 32) => hArr m ρ c (ix2 n k)) = layer1 m c :=
    funext fun n => funext fun k => h1_apply m ρ c hv n k
  have e0 : combine3A0 (V8 m ρ) c (ix2 p' q') = _ := ag2_apply m ρ c hv p' q'
  have e1 : combine3A1 (V8 m ρ) c (ix2 p' (0 : Fin 1)) = _ := inv8_apply m ρ c p' 0
  have e4 : combine3A4 (V8 m ρ) c (ix2 (0 : Fin 1) q') = _ := b2_apply m ρ c 0 q'
  have e2 : combine3A2 (V8 m ρ) c = hArr m ρ c := h8_eq m ρ c
  have e3 : combine3A3 (V8 m ρ) c = a7 m c := wr8_eq m ρ c
  rw [e0, e1, e4, e2, e3]
  show _ = (agg (rOf (a1 m c)) (sOf (a1 m c)) (fun n d => ∑ k, layer1 m c n k * a5 m c (ix2 d k)) p' q' * invDeg (sOf (a1 m c)) p'
      + a6 m c (ix1 q')) + ∑ k, layer1 m c p' k * a7 m c (ix2 q' k)
  rw [← hh]

end Cert.KernelIdeal.Tower

end
-- ==== Proof.RefRunStages.lean ====
/-
  The reference network as pure functions of arrays.

  The reference is a straight line of array operations: the edge list's two rows are cut out as vectors of source and
  destination ids; each of the two layers gathers one feature row per edge by source id, sums the gathered rows into
  their destination nodes, divides by the in-degree (at least one), multiplies by the left weights, adds the bias and the
  node's own row times the right weights, and divides every row by its Euclidean norm (at least a small constant); the
  first layer ends in the rectifier, the second in the row-wise log-softmax. Each stretch is one function here, one
  `let` per array operation in the order the program performs them, and `result` is their composition.
-/
import proofs.«145111_j36661840838929_2_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge list as a vector: each edge's source node id. -/
def srcIds (a1 : IVec S2x1600000 32) : IVec S1600000 32 :=
  let v0 : IVec S1x1600000 32 := extractStridedSlice S1x1600000 ![0, 0] a1 slices_S2x1600000_S1x1600000_0_0
  shapeCast S1600000 v0 shapeCasts_S1x1600000_S1600000

/-- Row 1 of the edge list as a vector: each edge's destination node id. -/
def dstIds (a1 : IVec S2x1600000 32) : IVec S1600000 32 :=
  let v2 : IVec S1x1600000 32 := extractStridedSlice S1x1600000 ![1, 0] a1 slices_S2x1600000_S1x1600000_1_0
  shapeCast S1600000 v2 shapeCasts_S1x1600000_S1600000

/-- One feature row per edge: row `ids e` of `x` (a negative id counted from the end), a row of the default value where the wrapped id is out of range. -/
def takeRows50 (x : FVec F S100000x50 .f32) (ids : IVec S1600000 32) : FVec F S1600000x50 .f32 :=
  let c : IVec S_ 32 := constantI S_ 32 0#32
  let v0 : IVec S1600000 32 := broadcastInDim S1600000 ![] bcast_S_S1600000 c
  let v1 : IVec S1600000 1 := cmpi .slt ids v0
  let c_0 : IVec S_ 32 := constantI S_ 32 100000#32
  let v2 : IVec S1600000 32 := broadcastInDim S1600000 ![] bcast_S_S1600000 c_0
  let v3 : IVec S1600000 32 := addi ids v2
  let v4 : IVec S1600000 32 := select v1 v3 ids
  let v5 : IVec S1600000x1 32 := broadcastInDim S1600000x1 ![0] bcast_S1600000_S1600000x1_0 v4
  let c_1 : IVec S1 32 := constantI S1 32 99999#32
  let c_2 : IVec S_ 32 := constantI S_ 32 0#32
  let v6 : IVec S1600000x1 32 := broadcastInDim S1600000x1 ![] bcast_S_S1600000x1 c_2
  let v7 : IVec S1600000x1 1 := cmpi .sge v5 v6
  let v8 : IVec S1x1 32 := broadcastInDim S1x1 ![1] bcast_S1_S1x1_1 c_1
  let v9 : IVec S1600000x1 32 := broadcastInDim S1600000x1 ![0, 1] bcast_S1x1_S1600000x1_0_1 v8
  let v10 : IVec S1600000x1 1 := cmpi .sle v5 v9
  let v11 : IVec S1600000x1 1 := andi v7 v10
  let c_3 : IVec S_ 1 := constantI S_ 1 1#1
  let v12 : IVec S1600000 1 := Host.reduce IntOp.andi v11 c_3 reducesTo_S1600000x1_S1600000_d1 h_S_
  let v13 : FVec F S1600000x50 .f32 := Host.gather gather_S100000x50_S1600000x1_S1600000x50_1_0_n_n_0_1_150 x v5
  let v14 : IVec S1600000x50 1 := broadcastInDim S1600000x50 ![0] bcast_S1600000_S1600000x50_0 v12
  let cst : FVec F S_ .f32 := constant S_ .f32 0x7FC00000#32
  let v15 : FVec F S1600000x50 .f32 := broadcastInDim S1600000x50 ![] bcast_S_S1600000x50 cst
  select v14 v13 v15

/-- Layer 1 before normalisation: the gathered rows `g` summed into their destination nodes, divided by the in-degree clamped below at one, through the left weights, plus the bias, plus the node's own row through the right weights. -/
def layerLin1 (h : FVec F S100000x50 .f32) (wl : FVec F S32x50 .f32) (b : FVec F S32 .f32) (wr : FVec F S32x50 .f32) (dst : IVec S1600000 32) (g : FVec F S1600000x50 .f32) : FVec F S100000x32 .f32 :=
  let cst : FVec F S_ .f32 := constant S_ .f32 0x00000000#32
  let v5 : FVec F S100000x50 .f32 := broadcastInDim S100000x50 ![] bcast_S_S100000x50 cst
  let v6 : IVec S1600000x1 32 := broadcastInDim S1600000x1 ![0] bcast_S1600000_S1600000x1_0 dst
  let v7 : FVec F S100000x50 .f32 := Host.scatterAdd scatter_S100000x50_S1600000x1_S1600000x50_1_0_0_1 v5 v6 g
  let cst_0 : FVec F S_ .f32 := constant S_ .f32 0x3F800000#32
  let v8 : FVec F S1600000 .f32 := broadcastInDim S1600000 ![] bcast_S_S1600000 cst_0
  let cst_1 : FVec F S_ .f32 := constant S_ .f32 0x00000000#32
  let v9 : FVec F S100000 .f32 := broadcastInDim S100000 ![] bcast_S_S100000 cst_1
  let v10 : IVec S1600000x1 32 := broadcastInDim S1600000x1 ![0] bcast_S1600000_S1600000x1_0 dst
  let v11 : FVec F S100000 .f32 := Host.scatterAdd scatter_S100000_S1600000x1_S1600000_n_0_0_1 v9 v10 v8
  let cst_2 : FVec F S_ .f32 := constant S_ .f32 0x3F800000#32
  let v12 : FVec F S100000 .f32 := broadcastInDim S100000 ![] bcast_S_S100000 cst_2
  let v13 : FVec F S100000 .f32 := maximumf v11 v12
  let v14 : FVec F S100000x1 .f32 := broadcastInDim S100000x1 ![0] bcast_S100000_S100000x1_0 v13
  let v15 : FVec F S100000x50 .f32 := broadcastInDim S100000x50 ![0, 1] bcast_S100000x1_S100000x50_0_1 v14
  let v16 : FVec F S100000x50 .f32 := Host.divf v7 v15
  let v17 : FVec F S50x32 .f32 := transpose S50x32 [1, 0] wl transposes_S32x50_S50x32_1_0
  let v18 : FVec F S100000x32 .f32 := Host.dotGeneral dot_S100000x50_S50x32_S100000x32_1_0_0_1_n_n none v16 v17
  let v19 : FVec F S1x32 .f32 := broadcastInDim S1x32 ![1] bcast_S32_S1x32_1 b
  let v20 : FVec F S100000x32 .f32 := broadcastInDim S100000x32 ![0, 1] bcast_S1x32_S100000x32_0_1 v19
  let v21 : FVec F S100000x32 .f32 := addf v18 v20
  let v22 : FVec F S50x32 .f32 := transpose S50x32 [1, 0] wr transposes_S32x50_S50x32_1_0
  let v23 : FVec F S100000x32 .f32 := Host.dotGeneral dot_S100000x50_S50x32_S100000x32_1_0_0_1_n_n none h v22
  addf v21 v23

/-- The Euclidean norm of every row, as a column. -/
def norm32 (x : FVec F S100000x32 .f32) : FVec F S100000x1 .f32 :=
  let v0 : FVec F S100000x32 .f32 := mulf x x
  let cst : FVec F S_ .f32 := constant S_ .f32 0x00000000#32
  let v1 : FVec F S100000 .f32 := Host.reduceAdd v0 cst reducesTo_S100000x32_S100000_d1 h_S_
  let v2 : FVec F S100000x1 .f32 := broadcastInDim S100000x1 ![0] bcast_S100000_S100000x1_0 v1
  Host.sqrt v2

/-- Every row divided by its Euclidean norm clamped below at the small constant. -/
def normalize32 (x : FVec F S100000x32 .f32) : FVec F S100000x32 .f32 :=
  let n : FVec F S100000x1 .f32 := norm32 x
  let cst_3 : FVec F S_ .f32 := constant S_ .f32 0x2B8CBCCC#32
  let v26 : FVec F S100000x1 .f32 := broadcastInDim S100000x1 ![] bcast_S_S100000x1 cst_3
  let v27 : FVec F S100000x1 .f32 := maximumf n v26
  let v28 : FVec F S100000x32 .f32 := broadcastInDim S100000x32 ![0, 1] bcast_S100000x1_S100000x32_0_1 v27
  Host.divf x v28

/-- The rectifier: the entrywise maximum with zero. -/
def relu32 (x : FVec F S100000x32 .f32) : FVec F S100000x32 .f32 :=
  let cst : FVec F S_ .f32 := constant S_ .f32 0x00000000#32
  let v0 : FVec F S100000x32 .f32 := broadcastInDim S100000x32 ![] bcast_S_S100000x32 cst
  maximumf x v0

/-- One hidden row per edge: row `ids e` of `x`, as `takeRows50` at width 32. -/
def takeRows32 (x : FVec F S100000x32 .f32) (ids : IVec S1600000 32) : FVec F S1600000x32 .f32 :=
  let c : IVec S_ 32 := constantI S_ 32 0#32
  let v0 : IVec S1600000 32 := broadcastInDim S1600000 ![] bcast_S_S1600000 c
  let v1 : IVec S1600000 1 := cmpi .slt ids v0
  let c_0 : IVec S_ 32 := constantI S_ 32 100000#32
  let v2 : IVec S1600000 32 := broadcastInDim S1600000 ![] bcast_S_S1600000 c_0
  let v3 : IVec S1600000 32 := addi ids v2
  let v4 : IVec S1600000 32 := select v1 v3 ids
  let v5 : IVec S1600000x1 32 := broadcastInDim S1600000x1 ![0] bcast_S1600000_S1600000x1_0 v4
  let c_1 : IVec S1 32 := constantI S1 32 99999#32
  let c_2 : IVec S_ 32 := constantI S_ 32 0#32
  let v6 : IVec S1600000x1 32 := broadcastInDim S1600000x1 ![] bcast_S_S1600000x1 c_2
  let v7 : IVec S1600000x1 1 := cmpi .sge v5 v6
  let v8 : IVec S1x1 32 := broadcastInDim S1x1 ![1] bcast_S1_S1x1_1 c_1
  let v9 : IVec S1600000x1 32 := broadcastInDim S1600000x1 ![0, 1] bcast_S1x1_S1600000x1_0_1 v8
  let v10 : IVec S1600000x1 1 := cmpi .sle v5 v9
  let v11 : IVec S1600000x1 1 := andi v7 v10
  let c_3 : IVec S_ 1 := constantI S_ 1 1#1
  let v12 : IVec S1600000 1 := Host.reduce IntOp.andi v11 c_3 reducesTo_S1600000x1_S1600000_d1 h_S_
  let v13 : FVec F S1600000x32 .f32 := Host.gather gather_S100000x32_S1600000x1_S1600000x32_1_0_n_n_0_1_132 x v5
  let v14 : IVec S1600000x32 1 := broadcastInDim S1600000x32 ![0] bcast_S1600000_S1600000x32_0 v12
  let cst : FVec F S_ .f32 := constant S_ .f32 0x7FC00000#32
  let v15 : FVec F S1600000x32 .f32 := broadcastInDim S1600000x32 ![] bcast_S_S1600000x32 cst
  select v14 v13 v15

/-- Layer 2 before normalisation, as `layerLin1` from width 32 to width 16. -/
def layerLin2 (h : FVec F S100000x32 .f32) (wl : FVec F S16x32 .f32) (b : FVec F S16 .f32) (wr : FVec F S16x32 .f32) (dst : IVec S1600000 32) (g : FVec F S1600000x32 .f32) : FVec F S100000x16 .f32 :=
  let cst_4 : FVec F S_ .f32 := constant S_ .f32 0x00000000#32
  let v32 : FVec F S100000x32 .f32 := broadcastInDim S100000x32 ![] bcast_S_S100000x32 cst_4
  let v33 : IVec S1600000x1 32 := broadcastInDim S1600000x1 ![0] bcast_S1600000_S1600000x1_0 dst
  let v34 : FVec F S100000x32 .f32 := Host.scatterAdd scatter_S100000x32_S1600000x1_S1600000x32_1_0_0_1 v32 v33 g
  let cst_5 : FVec F S_ .f32 := constant S_ .f32 0x3F800000#32
  let v35 : FVec F S1600000 .f32 := broadcastInDim S1600000 ![] bcast_S_S1600000 cst_5
  let cst_6 : FVec F S_ .f32 := constant S_ .f32 0x00000000#32
  let v36 : FVec F S100000 .f32 := broadcastInDim S100000 ![] bcast_S_S100000 cst_6
  let v37 : IVec S1600000x1 32 := broadcastInDim S1600000x1 ![0] bcast_S1600000_S1600000x1_0 dst
  let v38 : FVec F S100000 .f32 := Host.scatterAdd scatter_S100000_S1600000x1_S1600000_n_0_0_1 v36 v37 v35
  let cst_7 : FVec F S_ .f32 := constant S_ .f32 0x3F800000#32
  let v39 : FVec F S100000 .f32 := broadcastInDim S100000 ![] bcast_S_S100000 cst_7
  let v40 : FVec F S100000 .f32 := maximumf v38 v39
  let v41 : FVec F S100000x1 .f32 := broadcastInDim S100000x1 ![0] bcast_S100000_S100000x1_0 v40
  let v42 : FVec F S100000x32 .f32 := broadcastInDim S100000x32 ![0, 1] bcast_S100000x1_S100000x32_0_1 v41
  let v43 : FVec F S100000x32 .f32 := Host.divf v34 v42
  let v44 : FVec F S32x16 .f32 := transpose S32x16 [1, 0] wl transposes_S16x32_S32x16_1_0
  let v45 : FVec F S100000x16 .f32 := Host.dotGeneral dot_S100000x32_S32x16_S100000x16_1_0_0_1_n_n none v43 v44
  let v46 : FVec F S1x16 .f32 := broadcastInDim S1x16 ![1] bcast_S16_S1x16_1 b
  let v47 : FVec F S100000x16 .f32 := broadcastInDim S100000x16 ![0, 1] bcast_S1x16_S100000x16_0_1 v46
  let v48 : FVec F S100000x16 .f32 := addf v45 v47
  let v49 : FVec F S32x16 .f32 := transpose S32x16 [1, 0] wr transposes_S16x32_S32x16_1_0
  let v50 : FVec F S100000x16 .f32 := Host.dotGeneral dot_S100000x32_S32x16_S100000x16_1_0_0_1_n_n none h v49
  addf v48 v50

/-- The Euclidean norm of every row of a width-16 array, as a column. -/
def norm16 (x : FVec F S100000x16 .f32) : FVec F S100000x1 .f32 :=
  let v0 : FVec F S100000x16 .f32 := mulf x x
  let cst : FVec F S_ .f32 := constant S_ .f32 0x00000000#32
  let v1 : FVec F S100000 .f32 := Host.reduceAdd v0 cst reducesTo_S100000x16_S100000_d1 h_S_
  let v2 : FVec F S100000x1 .f32 := broadcastInDim S100000x1 ![0] bcast_S100000_S100000x1_0 v1
  Host.sqrt v2

/-- Every row of a width-16 array divided by its clamped Euclidean norm. -/
def normalize16 (x : FVec F S100000x16 .f32) : FVec F S100000x16 .f32 :=
  let n : FVec F S100000x1 .f32 := norm16 x
  let cst_8 : FVec F S_ .f32 := constant S_ .f32 0x2B8CBCCC#32
  let v53 : FVec F S100000x1 .f32 := broadcastInDim S100000x1 ![] bcast_S_S100000x1 cst_8
  let v54 : FVec F S100000x1 .f32 := maximumf n v53
  let v55 : FVec F S100000x16 .f32 := broadcastInDim S100000x16 ![0, 1] bcast_S100000x1_S100000x16_0_1 v54
  Host.divf x v55

/-- The row-wise log-softmax: each entry minus its row's maximum, minus the logarithm of the row's sum of exponentials of those differences. -/
def logSoftmax16 (x : FVec F S100000x16 .f32) : FVec F S100000x16 .f32 :=
  let cst : FVec F S_ .f32 := constant S_ .f32 0xFF800000#32
  let v0 : FVec F S100000 .f32 := Host.reduce FloatOps.maximumf x cst reducesTo_S100000x16_S100000_d1 h_S_
  let cst_0 : FVec F S_ .f32 := constant S_ .f32 0xFF800000#32
  let v1 : FVec F S100000 .f32 := broadcastInDim S100000 ![] bcast_S_S100000 cst_0
  let v2 : FVec F S100000 .f32 := maximumf v1 v0
  let v3 : FVec F S100000x1 .f32 := broadcastInDim S100000x1 ![0] bcast_S100000_S100000x1_0 v2
  let v4 : FVec F S100000x16 .f32 := broadcastInDim S100000x16 ![0, 1] bcast_S100000x1_S100000x16_0_1 v3
  let v5 : FVec F S100000x16 .f32 := subf x v4
  let v6 : FVec F S100000x16 .f32 := Host.exp v5
  let cst_1 : FVec F S_ .f32 := constant S_ .f32 0x00000000#32
  let v7 : FVec F S100000 .f32 := Host.reduceAdd v6 cst_1 reducesTo_S100000x16_S100000_d1 h_S_
  let v8 : FVec F S100000x1 .f32 := broadcastInDim S100000x1 ![0] bcast_S100000_S100000x1_0 v7
  let v9 : FVec F S100000x1 .f32 := Host.log v8
  let v10 : FVec F S100000x16 .f32 := broadcastInDim S100000x16 ![0, 1] bcast_S100000x1_S100000x16_0_1 v9
  subf v5 v10

/-- The reference's result array as one pure term of its eight argument arrays: the edge list's two rows; per layer the
    row gather by source id, the mean aggregation by destination id with the two products and the bias, and the row
    normalisation; the rectifier between the layers and the row-wise log-softmax at the end. -/
def result (a0 : FVec Ideal S100000x50 .f32) (a1 : IVec S2x1600000 32) (a2 : FVec Ideal S32x50 .f32) (a3 : FVec Ideal S32 .f32) (a4 : FVec Ideal S32x50 .f32) (a5 : FVec Ideal S16x32 .f32) (a6 : FVec Ideal S16 .f32) (a7 : FVec Ideal S16x32 .f32) : FVec Ideal S100000x16 .f32 :=
  let src : IVec S1600000 32 := srcIds a1
  let dst : IVec S1600000 32 := dstIds a1
  let g1 : FVec Ideal S1600000x50 .f32 := takeRows50 a0 src
  let z1 : FVec Ideal S100000x32 .f32 := layerLin1 a0 a2 a3 a4 dst g1
  let h1 : FVec Ideal S100000x32 .f32 := relu32 (normalize32 z1)
  let g2 : FVec Ideal S1600000x32 .f32 := takeRows32 h1 src
  let z2 : FVec Ideal S100000x16 .f32 := layerLin2 h1 a5 a6 a7 dst g2
  logSoftmax16 (normalize16 z2)

end Cert.ReferenceIdeal.RefValue

end
-- ==== Proof.RefRunOps.lean ====
/-
  The reference program as a list of array operations, and its run.

  The program calls seven helper functions (two row gathers, each with an index selection inside; two row norms; the
  rectifier; the log-softmax). With every call replaced by the callee's operations over that call's buffers it is a
  straight line of 136 operations, listed here in eight stretches. Running the program is folding the list over the
  starting buffer contents: every execution terminates with every buffer at that fold.
-/
import proofs.«145111_j36661840838929_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4: the two rows of the edge list, each as a vector: source ids and destination ids. -/
abbrev w0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- Operations 5 … 27: layer 1's row gather by source id (negative ids wrapped, out-of-range rows masked). -/
abbrev w1 : List (HloOp τ sig (Elt F)) :=
  [ StableHlo.TRef.nullary main_call0.c (constantI S_ 32 0#32),
    StableHlo.TRef.unary main_call0.c main_call0.v0 (broadcastInDim S1600000 ![] bcast_S_S1600000),
    StableHlo.TRef.binary (.of main_v1 : TRef sig ⟨S1600000, .i32⟩) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_v1 : TRef sig ⟨S1600000, .i32⟩) main_call0.v2 main_call0.v3 addi,
    StableHlo.TRef.ternary main_call0.v1 main_call0.v3 (.of main_v1 : TRef sig ⟨S1600000, .i32⟩) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0 : TRef sig ⟨S100000x50, .f32⟩) main_call0.v5 main_call0.v13 (fun x i => Host.gather gather_S100000x50_S1600000x1_S1600000x50_1_0_n_n_0_1_150 x i),
    StableHlo.TRef.unary main_call0.v12 main_call0.v14 (broadcastInDim S1600000x50 ![0] bcast_S1600000_S1600000x50_0),
    StableHlo.TRef.nullary main_call0.cst (constant S_ .f32 0x7FC00000#32),
    StableHlo.TRef.unary main_call0.cst main_call0.v15 (broadcastInDim S1600000x50 ![] bcast_S_S1600000x50),
    StableHlo.TRef.ternary main_call0.v14 main_call0.v13 main_call0.v15 main_call0.v16 select ]

/-- Operations 28 … 51: layer 1: scatter-add of the gathered rows and of ones by destination id, the mean, the two products and the bias. -/
abbrev w2 : List (HloOp τ sig (Elt F)) :=
  [ StableHlo.nullary main_cst (constant S_ .f32 0x00000000#32),
    StableHlo.unary main_cst main_v5 (broadcastInDim S100000x50 ![] bcast_S_S100000x50 : (⟨S_, .f32⟩ : BufTy).Contents (Elt F) → (⟨S100000x50, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x50_S1600000x1_S1600000x50_1_0_0_1 x i u) : (⟨S100000x50, .f32⟩ : BufTy).Contents (Elt F) → (⟨S1600000x1, .i32⟩ : BufTy).Contents (Elt F) → (⟨S1600000x50, .f32⟩ : BufTy).Contents (Elt F) → (⟨S100000x50, .f32⟩ : BufTy).Contents (Elt F)),
    StableHlo.nullary main_cst_0 (constant S_ .f32 0x3F800000#32),
    StableHlo.unary main_cst_0 main_v8 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v9 (broadcastInDim S100000 ![] bcast_S_S100000 : (⟨S_, .f32⟩ : BufTy).Contents (Elt F) → (⟨S100000, .f32⟩ : BufTy).Contents (Elt F)),
    StableHlo.unary main_v3 main_v10 (broadcastInDim S1600000x1 ![0] bcast_S1600000_S1600000x1_0 : (⟨S1600000, .i32⟩ : BufTy).Contents (Elt F) → (⟨S1600000x1, .i32⟩ : BufTy).Contents (Elt F)),
    StableHlo.ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v12 (broadcastInDim S100000 ![] bcast_S_S100000 : (⟨S_, .f32⟩ : BufTy).Contents (Elt F) → (⟨S100000, .f32⟩ : BufTy).Contents (Elt F)),
    StableHlo.binary main_v11 main_v12 main_v13 (maximumf : (⟨S100000, .f32⟩ : BufTy).Contents (Elt F) → (⟨S100000, .f32⟩ : BufTy).Contents (Elt F) → (⟨S100000, .f32⟩ : BufTy).Contents (Elt F)),
    StableHlo.unary main_v13 main_v14 (broadcastInDim S100000x1 ![0] bcast_S100000_S100000x1_0 : (⟨S100000, .f32⟩ : BufTy).Contents (Elt F) → (⟨S100000x1, .f32⟩ : BufTy).Contents (Elt F)),
    StableHlo.unary main_v14 main_v15 (broadcastInDim S100000x50 ![0, 1] bcast_S100000x1_S100000x50_0_1 : (⟨S100000x1, .f32⟩ : BufTy).Contents (Elt F) → (⟨S100000x50, .f32⟩ : BufTy).Contents (Elt F)),
    StableHlo.binary main_v7 main_v15 main_v16 (Host.divf : (⟨S100000x50, .f32⟩ : BufTy).Contents (Elt F) → (⟨S100000x50, .f32⟩ : BufTy).Contents (Elt F) → (⟨S100000x50, .f32⟩ : BufTy).Contents (Elt F)),
    StableHlo.unary main_arg2 main_v17 ((transpose S50x32 [1, 0] · transposes_S32x50_S50x32_1_0) : (⟨S32x50, .f32⟩ : BufTy).Contents (Elt F) → (⟨S50x32, .f32⟩ : BufTy).Contents (Elt F)),
    StableHlo.binary main_v16 main_v17 main_v18 ((fun l r => Host.dotGeneral dot_S100000x50_S50x32_S100000x32_1_0_0_1_n_n none l r) : (⟨S100000x50, .f32⟩ : BufTy).Contents (Elt F) → (⟨S50x32, .f32⟩ : BufTy).Contents (Elt F) → (⟨S100000x32, .f32⟩ : BufTy).Contents (Elt F)),
    StableHlo.unary main_arg3 main_v19 (broadcastInDim S1x32 ![1] bcast_S32_S1x32_1 : (⟨S32, .f32⟩ : BufTy).Contents (Elt F) → (⟨S1x32, .f32⟩ : BufTy).Contents (Elt F)),
    StableHlo.unary main_v19 main_v20 (broadcastInDim S100000x32 ![0, 1] bcast_S1x32_S100000x32_0_1 : (⟨S1x32, .f32⟩ : BufTy).Contents (Elt F) → (⟨S100000x32, .f32⟩ : BufTy).Contents (Elt F)),
    StableHlo.binary main_v18 main_v20 main_v21 (addf : (⟨S100000x32, .f32⟩ : BufTy).Contents (Elt F) → (⟨S100000x32, .f32⟩ : BufTy).Contents (Elt F) → (⟨S100000x32, .f32⟩ : BufTy).Contents (Elt F)),
    StableHlo.unary main_arg4 main_v22 ((transpose S50x32 [1, 0] · transposes_S32x50_S50x32_1_0) : (⟨S32x50, .f32⟩ : BufTy).Contents (Elt F) → (⟨S50x32, .f32⟩ : BufTy).Contents (Elt F)),
    StableHlo.binary main_arg0 main_v22 main_v23 ((fun l r => Host.dotGeneral dot_S100000x50_S50x32_S100000x32_1_0_0_1_n_n none l r) : (⟨S100000x50, .f32⟩ : BufTy).Contents (Elt F) → (⟨S50x32, .f32⟩ : BufTy).Contents (Elt F) → (⟨S100000x32, .f32⟩ : BufTy).Contents (Elt F)),
    StableHlo.binary main_v21 main_v23 main_v24 (addf : (⟨S100000x32, .f32⟩ : BufTy).Contents (Elt F) → (⟨S100000x32, .f32⟩ : BufTy).Contents (Elt F) → (⟨S100000x32, .f32⟩ : BufTy).Contents (Elt F)) ]

/-- Operations 52 … 64: layer 1: the row norms, the division by the clamped norm, the rectifier. -/
abbrev w3 : List (HloOp τ sig (Elt F)) :=
  [ StableHlo.TRef.binary (.of main_v24 : TRef sig ⟨S100000x32, .f32⟩) (.of main_v24 : TRef sig ⟨S100000x32, .f32⟩) main_call1.v0 mulf,
    StableHlo.TRef.nullary main_call1.cst (constant S_ .f32 0x00000000#32),
    StableHlo.TRef.binary main_call1.v0 main_call1.cst main_call1.v1 (fun x v => Host.reduceAdd x v reducesTo_S100000x32_S100000_d1 h_S_),
    StableHlo.TRef.unary main_call1.v1 main_call1.v2 (broadcastInDim S100000x1 ![0] bcast_S100000_S100000x1_0),
    StableHlo.TRef.unary main_call1.v2 main_call1.v3 Host.sqrt,
    StableHlo.nullary main_cst_3 (constant S_ .f32 0x2B8CBCCC#32),
    StableHlo.unary main_cst_3 main_v26 (broadcastInDim S100000x1 ![] bcast_S_S100000x1 : (⟨S_, .f32⟩ : BufTy).Contents (Elt F) → (⟨S100000x1, .f32⟩ : BufTy).Contents (Elt F)),
    StableHlo.binary main_v25 main_v26 main_v27 (maximumf : (⟨S100000x1, .f32⟩ : BufTy).Contents (Elt F) → (⟨S100000x1, .f32⟩ : BufTy).Contents (Elt F) → (⟨S100000x1, .f32⟩ : BufTy).Contents (Elt F)),
    StableHlo.unary main_v27 main_v28 (broadcastInDim S100000x32 ![0, 1] bcast_S100000x1_S100000x32_0_1 : (⟨S100000x1, .f32⟩ : BufTy).Contents (Elt F) → (⟨S100000x32, .f32⟩ : BufTy).Contents (Elt F)),
    StableHlo.binary main_v24 main_v28 main_v29 (Host.divf : (⟨S100000x32, .f32⟩ : BufTy).Contents (Elt F) → (⟨S100000x32, .f32⟩ : BufTy).Contents (Elt F) → (⟨S100000x32, .f32⟩ : BufTy).Contents (Elt F)),
    StableHlo.TRef.nullary main_call2.cst (constant S_ .f32 0x00000000#32),
    StableHlo.TRef.unary main_call2.cst main_call2.v0 (broadcastInDim S100000x32 ![] bcast_S_S100000x32),
    StableHlo.TRef.binary (.of main_v29 : TRef sig ⟨S100000x32, .f32⟩) main_call2.v0 main_call2.v1 maximumf ]

/-- Operations 65 … 87: layer 2's row gather by source id. -/
abbrev w4 : List (HloOp τ sig (Elt F)) :=
  [ StableHlo.TRef.nullary main_call3.c (constantI S_ 32 0#32),
    StableHlo.TRef.unary main_call3.c main_call3.v0 (broadcastInDim S1600000 ![] bcast_S_S1600000),
    StableHlo.TRef.binary (.of main_v1 : TRef sig ⟨S1600000, .i32⟩) main_call3.v0 main_call3.v1 (cmpi .slt),
    StableHlo.TRef.nullary main_call3.c_0 (constantI S_ 32 100000#32),
    StableHlo.TRef.unary main_call3.c_0 main_call3.v2 (broadcastInDim S1600000 ![] bcast_S_S1600000),
    StableHlo.TRef.binary (.of main_v1 : TRef sig ⟨S1600000, .i32⟩) main_call3.v2 main_call3.v3 addi,
    StableHlo.TRef.ternary main_call3.v1 main_call3.v3 (.of main_v1 : TRef sig ⟨S1600000, .i32⟩) main_call3.call0.v0 select,
    StableHlo.TRef.unary main_call3.call0.v0 main_call3.v5 (broadcastInDim S1600000x1 ![0] bcast_S1600000_S1600000x1_0),
    StableHlo.TRef.nullary main_call3.c_1 (constantI S1 32 99999#32),
    StableHlo.TRef.nullary main_call3.c_2 (constantI S_ 32 0#32),
    StableHlo.TRef.unary main_call3.c_2 main_call3.v6 (broadcastInDim S1600000x1 ![] bcast_S_S1600000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S1600000x1 ![0, 1] bcast_S1x1_S1600000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S1600000x1_S1600000_d1 h_S_),
    StableHlo.TRef.binary (.of main_v30 : TRef sig ⟨S100000x32, .f32⟩) main_call3.v5 main_call3.v13 (fun x i => Host.gather gather_S100000x32_S1600000x1_S1600000x32_1_0_n_n_0_1_132 x i),
    StableHlo.TRef.unary main_call3.v12 main_call3.v14 (broadcastInDim S1600000x32 ![0] bcast_S1600000_S1600000x32_0),
    StableHlo.TRef.nullary main_call3.cst (constant S_ .f32 0x7FC00000#32),
    StableHlo.TRef.unary main_call3.cst main_call3.v15 (broadcastInDim S1600000x32 ![] bcast_S_S1600000x32),
    StableHlo.TRef.ternary main_call3.v14 main_call3.v13 main_call3.v15 main_call3.v16 select ]

/-- Operations 88 … 111: layer 2: scatter-adds, the mean, the two products, the bias and their sum. -/
abbrev w5 : List (HloOp τ sig (Elt F)) :=
  [ StableHlo.nullary main_cst_4 (constant S_ .f32 0x00000000#32),
    StableHlo.unary main_cst_4 main_v32 (broadcastInDim S100000x32 ![] bcast_S_S100000x32 : (⟨S_, .f32⟩ : BufTy).Contents (Elt F) → (⟨S100000x32, .f32⟩ : BufTy).Contents (Elt F)),
    StableHlo.unary main_v3 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.nullary main_cst_5 (constant S_ .f32 0x3F800000#32),
    StableHlo.unary main_cst_5 main_v35 (broadcastInDim S1600000 ![] bcast_S_S1600000 : (⟨S_, .f32⟩ : BufTy).Contents (Elt F) → (⟨S1600000, .f32⟩ : BufTy).Contents (Elt F)),
    StableHlo.nullary main_cst_6 (constant S_ .f32 0x00000000#32),
    StableHlo.unary main_cst_6 main_v36 (broadcastInDim S100000 ![] bcast_S_S100000 : (⟨S_, .f32⟩ : BufTy).Contents (Elt F) → (⟨S100000, .f32⟩ : BufTy).Contents (Elt F)),
    StableHlo.unary main_v3 main_v37 (broadcastInDim S1600000x1 ![0] bcast_S1600000_S1600000x1_0 : (⟨S1600000, .i32⟩ : BufTy).Contents (Elt F) → (⟨S1600000x1, .i32⟩ : BufTy).Contents (Elt F)),
    StableHlo.ternary main_v36 main_v37 main_v35 main_v38 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_7 (constant S_ .f32 0x3F800000#32),
    StableHlo.unary main_cst_7 main_v39 (broadcastInDim S100000 ![] bcast_S_S100000 : (⟨S_, .f32⟩ : BufTy).Contents (Elt F) → (⟨S100000, .f32⟩ : BufTy).Contents (Elt F)),
    StableHlo.binary main_v38 main_v39 main_v40 (maximumf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x32 ![0, 1] bcast_S100000x1_S100000x32_0_1 : (⟨S100000x1, .f32⟩ : BufTy).Contents (Elt F) → (⟨S100000x32, .f32⟩ : BufTy).Contents (Elt F)),
    StableHlo.binary main_v34 main_v42 main_v43 (Host.divf : (⟨S100000x32, .f32⟩ : BufTy).Contents (Elt F) → (⟨S100000x32, .f32⟩ : BufTy).Contents (Elt F) → (⟨S100000x32, .f32⟩ : BufTy).Contents (Elt F)),
    StableHlo.unary main_arg5 main_v44 ((transpose S32x16 [1, 0] · transposes_S16x32_S32x16_1_0) : (⟨S16x32, .f32⟩ : BufTy).Contents (Elt F) → (⟨S32x16, .f32⟩ : BufTy).Contents (Elt F)),
    StableHlo.binary main_v43 main_v44 main_v45 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg6 main_v46 (broadcastInDim S1x16 ![1] bcast_S16_S1x16_1 : (⟨S16, .f32⟩ : BufTy).Contents (Elt F) → (⟨S1x16, .f32⟩ : BufTy).Contents (Elt F)),
    StableHlo.unary main_v46 main_v47 (broadcastInDim S100000x16 ![0, 1] bcast_S1x16_S100000x16_0_1 : (⟨S1x16, .f32⟩ : BufTy).Contents (Elt F) → (⟨S100000x16, .f32⟩ : BufTy).Contents (Elt F)),
    StableHlo.binary main_v45 main_v47 main_v48 (addf : (⟨S100000x16, .f32⟩ : BufTy).Contents (Elt F) → (⟨S100000x16, .f32⟩ : BufTy).Contents (Elt F) → (⟨S100000x16, .f32⟩ : BufTy).Contents (Elt F)),
    StableHlo.unary main_arg7 main_v49 ((transpose S32x16 [1, 0] · transposes_S16x32_S32x16_1_0) : (⟨S16x32, .f32⟩ : BufTy).Contents (Elt F) → (⟨S32x16, .f32⟩ : BufTy).Contents (Elt F)),
    StableHlo.binary main_v30 main_v49 main_v50 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.binary main_v48 main_v50 main_v51 (addf : (⟨S100000x16, .f32⟩ : BufTy).Contents (Elt F) → (⟨S100000x16, .f32⟩ : BufTy).Contents (Elt F) → (⟨S100000x16, .f32⟩ : BufTy).Contents (Elt F)) ]

/-- Operations 112 … 121: layer 2: the row norms and the division by the clamped norm. -/
abbrev w6 : List (HloOp τ sig (Elt F)) :=
  [ StableHlo.TRef.binary (.of main_v51 : TRef sig ⟨S100000x16, .f32⟩) (.of main_v51 : TRef sig ⟨S100000x16, .f32⟩) main_call4.v0 mulf,
    StableHlo.TRef.nullary main_call4.cst (constant S_ .f32 0x00000000#32),
    StableHlo.TRef.binary main_call4.v0 main_call4.cst main_call4.v1 (fun x v => Host.reduceAdd x v reducesTo_S100000x16_S100000_d1 h_S_),
    StableHlo.TRef.unary main_call4.v1 main_call4.v2 (broadcastInDim S100000x1 ![0] bcast_S100000_S100000x1_0),
    StableHlo.TRef.unary main_call4.v2 main_call4.v3 Host.sqrt,
    StableHlo.nullary main_cst_8 (constant S_ .f32 0x2B8CBCCC#32),
    StableHlo.unary main_cst_8 main_v53 (broadcastInDim S100000x1 ![] bcast_S_S100000x1 : (⟨S_, .f32⟩ : BufTy).Contents (Elt F) → (⟨S100000x1, .f32⟩ : BufTy).Contents (Elt F)),
    StableHlo.binary main_v52 main_v53 main_v54 (maximumf : (⟨S100000x1, .f32⟩ : BufTy).Contents (Elt F) → (⟨S100000x1, .f32⟩ : BufTy).Contents (Elt F) → (⟨S100000x1, .f32⟩ : BufTy).Contents (Elt F)),
    StableHlo.unary main_v54 main_v55 (broadcastInDim S100000x16 ![0, 1] bcast_S100000x1_S100000x16_0_1 : (⟨S100000x1, .f32⟩ : BufTy).Contents (Elt F) → (⟨S100000x16, .f32⟩ : BufTy).Contents (Elt F)),
    StableHlo.binary main_v51 main_v55 main_v56 (Host.divf : (⟨S100000x16, .f32⟩ : BufTy).Contents (Elt F) → (⟨S100000x16, .f32⟩ : BufTy).Contents (Elt F) → (⟨S100000x16, .f32⟩ : BufTy).Contents (Elt F)) ]

/-- Operations 122 … 136: the row-wise log-softmax. -/
abbrev w7 : List (HloOp τ sig (Elt F)) :=
  [ StableHlo.TRef.nullary main_call5.cst (constant S_ .f32 0xFF800000#32),
    StableHlo.TRef.binary (.of main_v56 : TRef sig ⟨S100000x16, .f32⟩) main_call5.cst main_call5.v0 (fun x v => Host.reduce FloatOps.maximumf x v reducesTo_S100000x16_S100000_d1 h_S_),
    StableHlo.TRef.nullary main_call5.cst_0 (constant S_ .f32 0xFF800000#32),
    StableHlo.TRef.unary main_call5.cst_0 main_call5.v1 (broadcastInDim S100000 ![] bcast_S_S100000),
    StableHlo.TRef.binary main_call5.v1 main_call5.v0 main_call5.v2 maximumf,
    StableHlo.TRef.unary main_call5.v2 main_call5.v3 (broadcastInDim S100000x1 ![0] bcast_S100000_S100000x1_0),
    StableHlo.TRef.unary main_call5.v3 main_call5.v4 (broadcastInDim S100000x16 ![0, 1] bcast_S100000x1_S100000x16_0_1),
    StableHlo.TRef.binary (.of main_v56 : TRef sig ⟨S100000x16, .f32⟩) main_call5.v4 main_call5.v5 subf,
    StableHlo.TRef.unary main_call5.v5 main_call5.v6 Host.exp,
    StableHlo.TRef.nullary main_call5.cst_1 (constant S_ .f32 0x00000000#32),
    StableHlo.TRef.binary main_call5.v6 main_call5.cst_1 main_call5.v7 (fun x v => Host.reduceAdd x v reducesTo_S100000x16_S100000_d1 h_S_),
    StableHlo.TRef.unary main_call5.v7 main_call5.v8 (broadcastInDim S100000x1 ![0] bcast_S100000_S100000x1_0),
    StableHlo.TRef.unary main_call5.v8 main_call5.v9 Host.log,
    StableHlo.TRef.unary main_call5.v9 main_call5.v10 (broadcastInDim S100000x16 ![0, 1] bcast_S100000x1_S100000x16_0_1),
    StableHlo.TRef.binary main_call5.v5 main_call5.v10 main_call5.v11 subf ]

/-- The program's 136 operations in order, the calls unfolded at their sites. -/
abbrev ops : List (HloOp τ sig (Elt F)) := w0 ++ (w1 ++ (w2 ++ (w3 ++ (w4 ++ (w5 ++ (w6 ++ w7))))))

set_option maxRecDepth 16384 in
set_option maxHeartbeats 4000000 in
/-- The program is that straight line: the functions' bodies unfolded at their calls, sequencing reassociated. -/
theorem main_eq (c : Dev nD) : main (F := F) c = seq ops := by
  simp only [main, main_part0, main_part1, fn_take.body, fn_where.body, fn_norm.body, fn_relu.body, fn_take_0.body,
    fn_norm_1.body, fn_log_softmax.body, ops, w0, w1, w2, w3, w4, w5, w6, w7, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨unary_bufs_sub .., reshape_bufs_sub .., unary_bufs_sub .., reshape_bufs_sub ..⟩

theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem w2_sub : (w2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem w3_sub : (w3 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub ..⟩

theorem w4_sub : (w4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem w5_sub : (w5 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem w6_sub : (w6 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem w7_sub : (w7 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp w0_sub op h, List.forall_iff_forall_mem.mp w1_sub op h,
      List.forall_iff_forall_mem.mp w2_sub op h, List.forall_iff_forall_mem.mp w3_sub op h,
      List.forall_iff_forall_mem.mp w4_sub op h, List.forall_iff_forall_mem.mp w5_sub op h,
      List.forall_iff_forall_mem.mp w6_sub op h, List.forall_iff_forall_mem.mp w7_sub op h]

/-- Every weakly fair execution of the program terminates with every buffer at the fold of the operations over the
    starting contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- An operation's one written buffer is in the list of the stretch's written buffers. -/
local macro "writes_mem" : tactic =>
  `(tactic| (simp only [nullary_writes, unary_writes, binary_writes, ternary_writes, reshape_writes,
      Finset.singleton_subset_iff, List.mem_toFinset]; exact List.mem_map_of_mem (by decide)))

/-- The buffers that the operations of `w0` write. -/
abbrev w0_W : List (Ref sig .tc) := [main_v0, main_v1, main_v2, main_v3]
theorem w0_writes : (w0 : List (HloOp τ sig (Elt F))).Forall fun op =>
    op.writes ⊆ (w0_W.map (Proc.devRef (τ := τ) .tc)).toFinset := by
  simp only [List.Forall]; exact ⟨by writes_mem, by writes_mem, by writes_mem, by writes_mem⟩

/-- The buffers that the operations of `w1` write. -/
abbrev w1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem w1_writes : (w1 : List (HloOp τ sig (Elt F))).Forall fun op =>
    op.writes ⊆ (w1_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- The buffers that the operations of `w2` write. -/
abbrev w2_W : List (Ref sig .tc) := [main_cst, main_v5, main_v6, main_v7, main_cst_0, main_v8, main_cst_1, main_v9, main_v10, main_v11, main_cst_2, main_v12, main_v13, main_v14, main_v15, main_v16, main_v17, main_v18, main_v19, main_v20, main_v21, main_v22, main_v23, main_v24]
theorem w2_writes : (w2 : List (HloOp τ sig (Elt F))).Forall fun op =>
    op.writes ⊆ (w2_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- The buffers that the operations of `w3` write. -/
abbrev w3_W : List (Ref sig .tc) := [main_call1_v0, main_call1_cst, main_call1_v1, main_call1_v2, main_v25, main_cst_3, main_v26, main_v27, main_v28, main_v29, main_call2_cst, main_call2_v0, main_v30]
theorem w3_writes : (w3 : List (HloOp τ sig (Elt F))).Forall fun op =>
    op.writes ⊆ (w3_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem⟩

/-- The buffers that the operations of `w4` write. -/
abbrev w4_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v31]
theorem w4_writes : (w4 : List (HloOp τ sig (Elt F))).Forall fun op =>
    op.writes ⊆ (w4_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- The buffers that the operations of `w5` write. -/
abbrev w5_W : List (Ref sig .tc) := [main_cst_4, main_v32, main_v33, main_v34, main_cst_5, main_v35, main_cst_6, main_v36, main_v37, main_v38, main_cst_7, main_v39, main_v40, main_v41, main_v42, main_v43, main_v44, main_v45, main_v46, main_v47, main_v48, main_v49, main_v50, main_v51]
theorem w5_writes : (w5 : List (HloOp τ sig (Elt F))).Forall fun op =>
    op.writes ⊆ (w5_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- The buffers that the operations of `w6` write. -/
abbrev w6_W : List (Ref sig .tc) := [main_call4_v0, main_call4_cst, main_call4_v1, main_call4_v2, main_v52, main_cst_8, main_v53, main_v54, main_v55, main_v56]
theorem w6_writes : (w6 : List (HloOp τ sig (Elt F))).Forall fun op =>
    op.writes ⊆ (w6_W.map (Proc.devRef (τ := τ) .tc)).toFinset := by
  simp only [List.Forall]; exact ⟨by writes_mem, by writes_mem, by writes_mem, by writes_mem, by writes_mem, by writes_mem, by writes_mem, by writes_mem, by writes_mem, by writes_mem⟩

/-- The buffers that the operations of `w7` write. -/
abbrev w7_W : List (Ref sig .tc) := [main_call5_cst, main_call5_v0, main_call5_cst_0, main_call5_v1, main_call5_v2, main_call5_v3, main_call5_v4, main_call5_v5, main_call5_v6, main_call5_cst_1, main_call5_v7, main_call5_v8, main_call5_v9, main_call5_v10, main_v57]
theorem w7_writes : (w7 : List (HloOp τ sig (Elt F))).Forall fun op =>
    op.writes ⊆ (w7_W.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem⟩

end Cert.ReferenceIdeal.RefValue

end
-- ==== Proof.RefRun.lean ====
/-
  The reference's run read back: its result buffer holds `result` of the argument arrays.

  The 136 operations are folded stretch by stretch. After each stretch the buffers later stretches read are named as
  pure terms of the starting contents: the stretch's own result as the corresponding function of the terms before it,
  a buffer the stretch does not write as what it held before. After the last stretch the result buffer holds the
  composition of all the functions, which is `result`, and no argument buffer was ever written.
-/
import proofs.«145111_j36661840838929_2_alg».proof.Proof.RefRunStages
import proofs.«145111_j36661840838929_2_alg».proof.Proof.RefRunOps
import proofs.«145111_j36661840838929_2_alg».proof.Proof.LibAfterAppend
import proofs.«145111_j36661840838929_2_alg».proof.Proof.LibTypedRefs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- The array operations are kept closed while the two spellings of a stretch are compared: the comparison opens only the
-- transports between a buffer's type and its value's type, and the network's own functions.
attribute [local irreducible] Idealize.ShloMosaic.subf Idealize.ShloMosaic.addf Idealize.ShloMosaic.mulf Idealize.ShloMosaic.maximumf Host.divf Host.sqrt Host.exp Host.log broadcastInDim Idealize.ShloMosaic.constant constantI Idealize.ShloMosaic.cmpi Idealize.ShloMosaic.addi Idealize.ShloMosaic.andi Idealize.ShloMosaic.select Host.reduce Host.reduceAdd Host.gather Host.scatterAdd transpose extractStridedSlice shapeCast

/-- The buffer contents after the first 1 stretch of operations. -/
def val1 (V0 : Valuation τ sig (Elt F)) : Valuation τ sig (Elt F) := after w0 V0
/-- A buffer that `w0` does not write keeps its contents through it. -/
theorem val1_keep (V0 : Valuation τ sig (Elt F)) (r : Ref sig .tc) (h : r ∉ w0_W) :
    val1 V0 (Proc.devRef .tc r) = V0 (Proc.devRef .tc r) :=
  after_of_writes_sub w0 _ w0_writes h
/-- A buffer that none of the first 1 stretch writes still holds its starting contents. -/
theorem val1_start (V0 : Valuation τ sig (Elt F)) (r : Ref sig .tc) (h0 : r ∉ w0_W) :
    val1 V0 (Proc.devRef .tc r) = V0 (Proc.devRef .tc r) :=
  val1_keep V0 r h0
set_option maxRecDepth 16384 in
theorem val1_main_v1 (V0 : Valuation τ sig (Elt F)) : val1 V0 (no_index (Proc.devRef .tc main_v1)) = srcIds (V0 (Proc.devRef .tc main_arg1)) := by
  unfold val1
  simp only [w0]
  after_results_simp
  rfl
set_option maxRecDepth 16384 in
theorem val1_main_v3 (V0 : Valuation τ sig (Elt F)) : val1 V0 (no_index (Proc.devRef .tc main_v3)) = dstIds (V0 (Proc.devRef .tc main_arg1)) := by
  unfold val1
  simp only [w0]
  after_results_simp
  rfl
theorem val1_main_arg0 (V0 : Valuation τ sig (Elt F)) : val1 V0 (no_index (Proc.devRef .tc main_arg0)) = V0 (Proc.devRef .tc main_arg0) :=
  val1_start V0 main_arg0 (by decide)

/-- The buffer contents after the first 2 stretches of operations. -/
def val2 (V0 : Valuation τ sig (Elt F)) : Valuation τ sig (Elt F) := after w1 (val1 V0)
/-- A buffer that `w1` does not write keeps its contents through it. -/
theorem val2_keep (V0 : Valuation τ sig (Elt F)) (r : Ref sig .tc) (h : r ∉ w1_W) :
    val2 V0 (Proc.devRef .tc r) = val1 V0 (Proc.devRef .tc r) :=
  after_of_writes_sub w1 _ w1_writes h
/-- A buffer that none of the first 2 stretches writes still holds its starting contents. -/
theorem val2_start (V0 : Valuation τ sig (Elt F)) (r : Ref sig .tc) (h0 : r ∉ w0_W) (h1 : r ∉ w1_W) :
    val2 V0 (Proc.devRef .tc r) = V0 (Proc.devRef .tc r) :=
  (val2_keep V0 r h1).trans (val1_start V0 r h0)
set_option maxRecDepth 16384 in
theorem val2_main_v4 (V0 : Valuation τ sig (Elt F)) : val2 V0 (no_index (Proc.devRef .tc main_v4)) = takeRows50 (V0 (Proc.devRef .tc main_arg0)) (srcIds (V0 (Proc.devRef .tc main_arg1))) := by
  unfold val2
  simp only [w1]
  after_results_simp
  simp only [Cert.Lib.ofBuf_toBuf, val1_main_arg0, val1_main_v1]
  rfl
theorem val2_main_v1 (V0 : Valuation τ sig (Elt F)) : val2 V0 (no_index (Proc.devRef .tc main_v1)) = srcIds (V0 (Proc.devRef .tc main_arg1)) :=
  (val2_keep V0 main_v1 (by decide)).trans (val1_main_v1 V0)
theorem val2_main_v3 (V0 : Valuation τ sig (Elt F)) : val2 V0 (no_index (Proc.devRef .tc main_v3)) = dstIds (V0 (Proc.devRef .tc main_arg1)) :=
  (val2_keep V0 main_v3 (by decide)).trans (val1_main_v3 V0)
theorem val2_main_arg0 (V0 : Valuation τ sig (Elt F)) : val2 V0 (no_index (Proc.devRef .tc main_arg0)) = V0 (Proc.devRef .tc main_arg0) :=
  val2_start V0 main_arg0 (by decide) (by decide)
theorem val2_main_arg2 (V0 : Valuation τ sig (Elt F)) : val2 V0 (no_index (Proc.devRef .tc main_arg2)) = V0 (Proc.devRef .tc main_arg2) :=
  val2_start V0 main_arg2 (by decide) (by decide)
theorem val2_main_arg3 (V0 : Valuation τ sig (Elt F)) : val2 V0 (no_index (Proc.devRef .tc main_arg3)) = V0 (Proc.devRef .tc main_arg3) :=
  val2_start V0 main_arg3 (by decide) (by decide)
theorem val2_main_arg4 (V0 : Valuation τ sig (Elt F)) : val2 V0 (no_index (Proc.devRef .tc main_arg4)) = V0 (Proc.devRef .tc main_arg4) :=
  val2_start V0 main_arg4 (by decide) (by decide)

/-- The buffer contents after the first 3 stretches of operations. -/
def val3 (V0 : Valuation τ sig (Elt F)) : Valuation τ sig (Elt F) := after w2 (val2 V0)
/-- A buffer that `w2` does not write keeps its contents through it. -/
theorem val3_keep (V0 : Valuation τ sig (Elt F)) (r : Ref sig .tc) (h : r ∉ w2_W) :
    val3 V0 (Proc.devRef .tc r) = val2 V0 (Proc.devRef .tc r) :=
  after_of_writes_sub w2 _ w2_writes h
/-- A buffer that none of the first 3 stretches writes still holds its starting contents. -/
theorem val3_start (V0 : Valuation τ sig (Elt F)) (r : Ref sig .tc) (h0 : r ∉ w0_W) (h1 : r ∉ w1_W) (h2 : r ∉ w2_W) :
    val3 V0 (Proc.devRef .tc r) = V0 (Proc.devRef .tc r) :=
  (val3_keep V0 r h2).trans (val2_start V0 r h0 h1)
set_option maxRecDepth 16384 in
theorem val3_main_v24 (V0 : Valuation τ sig (Elt F)) : val3 V0 (no_index (Proc.devRef .tc main_v24)) = layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1)))) := by
  unfold val3
  simp only [w2]
  after_results_simp
  simp only [val2_main_arg0, val2_main_arg2, val2_main_arg3, val2_main_arg4, val2_main_v3, val2_main_v4]
  rfl
theorem val3_main_v1 (V0 : Valuation τ sig (Elt F)) : val3 V0 (no_index (Proc.devRef .tc main_v1)) = srcIds (V0 (Proc.devRef .tc main_arg1)) :=
  (val3_keep V0 main_v1 (by decide)).trans (val2_main_v1 V0)
theorem val3_main_v3 (V0 : Valuation τ sig (Elt F)) : val3 V0 (no_index (Proc.devRef .tc main_v3)) = dstIds (V0 (Proc.devRef .tc main_arg1)) :=
  (val3_keep V0 main_v3 (by decide)).trans (val2_main_v3 V0)

/-- The buffer contents after the first 4 stretches of operations. -/
def val4 (V0 : Valuation τ sig (Elt F)) : Valuation τ sig (Elt F) := after w3 (val3 V0)
/-- A buffer that `w3` does not write keeps its contents through it. -/
theorem val4_keep (V0 : Valuation τ sig (Elt F)) (r : Ref sig .tc) (h : r ∉ w3_W) :
    val4 V0 (Proc.devRef .tc r) = val3 V0 (Proc.devRef .tc r) :=
  after_of_writes_sub w3 _ w3_writes h
/-- A buffer that none of the first 4 stretches writes still holds its starting contents. -/
theorem val4_start (V0 : Valuation τ sig (Elt F)) (r : Ref sig .tc) (h0 : r ∉ w0_W) (h1 : r ∉ w1_W) (h2 : r ∉ w2_W) (h3 : r ∉ w3_W) :
    val4 V0 (Proc.devRef .tc r) = V0 (Proc.devRef .tc r) :=
  (val4_keep V0 r h3).trans (val3_start V0 r h0 h1 h2)
set_option maxRecDepth 16384 in
theorem val4_main_v30 (V0 : Valuation τ sig (Elt F)) : val4 V0 (no_index (Proc.devRef .tc main_v30)) = relu32 (normalize32 (layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1)))))) := by
  unfold val4
  simp only [w3]
  after_results_simp
  simp only [Cert.Lib.ofBuf_toBuf, val3_main_v24]
  rfl
theorem val4_main_v1 (V0 : Valuation τ sig (Elt F)) : val4 V0 (no_index (Proc.devRef .tc main_v1)) = srcIds (V0 (Proc.devRef .tc main_arg1)) :=
  (val4_keep V0 main_v1 (by decide)).trans (val3_main_v1 V0)
theorem val4_main_v3 (V0 : Valuation τ sig (Elt F)) : val4 V0 (no_index (Proc.devRef .tc main_v3)) = dstIds (V0 (Proc.devRef .tc main_arg1)) :=
  (val4_keep V0 main_v3 (by decide)).trans (val3_main_v3 V0)

/-- The buffer contents after the first 5 stretches of operations. -/
def val5 (V0 : Valuation τ sig (Elt F)) : Valuation τ sig (Elt F) := after w4 (val4 V0)
/-- A buffer that `w4` does not write keeps its contents through it. -/
theorem val5_keep (V0 : Valuation τ sig (Elt F)) (r : Ref sig .tc) (h : r ∉ w4_W) :
    val5 V0 (Proc.devRef .tc r) = val4 V0 (Proc.devRef .tc r) :=
  after_of_writes_sub w4 _ w4_writes h
/-- A buffer that none of the first 5 stretches writes still holds its starting contents. -/
theorem val5_start (V0 : Valuation τ sig (Elt F)) (r : Ref sig .tc) (h0 : r ∉ w0_W) (h1 : r ∉ w1_W) (h2 : r ∉ w2_W) (h3 : r ∉ w3_W) (h4 : r ∉ w4_W) :
    val5 V0 (Proc.devRef .tc r) = V0 (Proc.devRef .tc r) :=
  (val5_keep V0 r h4).trans (val4_start V0 r h0 h1 h2 h3)
set_option maxRecDepth 16384 in
theorem val5_main_v31 (V0 : Valuation τ sig (Elt F)) : val5 V0 (no_index (Proc.devRef .tc main_v31)) = takeRows32 (relu32 (normalize32 (layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1))))))) (srcIds (V0 (Proc.devRef .tc main_arg1))) := by
  unfold val5
  simp only [w4]
  after_results_simp
  simp only [Cert.Lib.ofBuf_toBuf, val4_main_v30, val4_main_v1]
  rfl
theorem val5_main_v30 (V0 : Valuation τ sig (Elt F)) : val5 V0 (no_index (Proc.devRef .tc main_v30)) = relu32 (normalize32 (layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1)))))) :=
  (val5_keep V0 main_v30 (by decide)).trans (val4_main_v30 V0)
theorem val5_main_v3 (V0 : Valuation τ sig (Elt F)) : val5 V0 (no_index (Proc.devRef .tc main_v3)) = dstIds (V0 (Proc.devRef .tc main_arg1)) :=
  (val5_keep V0 main_v3 (by decide)).trans (val4_main_v3 V0)
theorem val5_main_arg5 (V0 : Valuation τ sig (Elt F)) : val5 V0 (no_index (Proc.devRef .tc main_arg5)) = V0 (Proc.devRef .tc main_arg5) :=
  val5_start V0 main_arg5 (by decide) (by decide) (by decide) (by decide) (by decide)
theorem val5_main_arg6 (V0 : Valuation τ sig (Elt F)) : val5 V0 (no_index (Proc.devRef .tc main_arg6)) = V0 (Proc.devRef .tc main_arg6) :=
  val5_start V0 main_arg6 (by decide) (by decide) (by decide) (by decide) (by decide)
theorem val5_main_arg7 (V0 : Valuation τ sig (Elt F)) : val5 V0 (no_index (Proc.devRef .tc main_arg7)) = V0 (Proc.devRef .tc main_arg7) :=
  val5_start V0 main_arg7 (by decide) (by decide) (by decide) (by decide) (by decide)

/-- The buffer contents after the first 6 stretches of operations. -/
def val6 (V0 : Valuation τ sig (Elt F)) : Valuation τ sig (Elt F) := after w5 (val5 V0)
/-- A buffer that `w5` does not write keeps its contents through it. -/
theorem val6_keep (V0 : Valuation τ sig (Elt F)) (r : Ref sig .tc) (h : r ∉ w5_W) :
    val6 V0 (Proc.devRef .tc r) = val5 V0 (Proc.devRef .tc r) :=
  after_of_writes_sub w5 _ w5_writes h
/-- A buffer that none of the first 6 stretches writes still holds its starting contents. -/
theorem val6_start (V0 : Valuation τ sig (Elt F)) (r : Ref sig .tc) (h0 : r ∉ w0_W) (h1 : r ∉ w1_W) (h2 : r ∉ w2_W) (h3 : r ∉ w3_W) (h4 : r ∉ w4_W) (h5 : r ∉ w5_W) :
    val6 V0 (Proc.devRef .tc r) = V0 (Proc.devRef .tc r) :=
  (val6_keep V0 r h5).trans (val5_start V0 r h0 h1 h2 h3 h4)
set_option maxRecDepth 16384 in
theorem val6_main_v51 (V0 : Valuation τ sig (Elt F)) : val6 V0 (no_index (Proc.devRef .tc main_v51)) = layerLin2 (relu32 (normalize32 (layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1))))))) (V0 (Proc.devRef .tc main_arg5)) (V0 (Proc.devRef .tc main_arg6)) (V0 (Proc.devRef .tc main_arg7)) (dstIds (V0 (Proc.devRef .tc main_arg1))) (takeRows32 (relu32 (normalize32 (layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1))))))) (srcIds (V0 (Proc.devRef .tc main_arg1)))) := by
  unfold val6
  simp only [w5]
  after_results_simp
  simp only [val5_main_v30, val5_main_arg5, val5_main_arg6, val5_main_arg7, val5_main_v3, val5_main_v31]
  rfl

/-- The buffer contents after the first 7 stretches of operations. -/
def val7 (V0 : Valuation τ sig (Elt F)) : Valuation τ sig (Elt F) := after w6 (val6 V0)
/-- A buffer that `w6` does not write keeps its contents through it. -/
theorem val7_keep (V0 : Valuation τ sig (Elt F)) (r : Ref sig .tc) (h : r ∉ w6_W) :
    val7 V0 (Proc.devRef .tc r) = val6 V0 (Proc.devRef .tc r) :=
  after_of_writes_sub w6 _ w6_writes h
/-- A buffer that none of the first 7 stretches writes still holds its starting contents. -/
theorem val7_start (V0 : Valuation τ sig (Elt F)) (r : Ref sig .tc) (h0 : r ∉ w0_W) (h1 : r ∉ w1_W) (h2 : r ∉ w2_W) (h3 : r ∉ w3_W) (h4 : r ∉ w4_W) (h5 : r ∉ w5_W) (h6 : r ∉ w6_W) :
    val7 V0 (Proc.devRef .tc r) = V0 (Proc.devRef .tc r) :=
  (val7_keep V0 r h6).trans (val6_start V0 r h0 h1 h2 h3 h4 h5)
set_option maxRecDepth 16384 in
theorem val7_main_v56 (V0 : Valuation τ sig (Elt F)) : val7 V0 (no_index (Proc.devRef .tc main_v56)) = normalize16 (layerLin2 (relu32 (normalize32 (layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1))))))) (V0 (Proc.devRef .tc main_arg5)) (V0 (Proc.devRef .tc main_arg6)) (V0 (Proc.devRef .tc main_arg7)) (dstIds (V0 (Proc.devRef .tc main_arg1))) (takeRows32 (relu32 (normalize32 (layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1))))))) (srcIds (V0 (Proc.devRef .tc main_arg1))))) := by
  unfold val7
  simp only [w6]
  after_results_simp
  simp only [Cert.Lib.ofBuf_toBuf, val6_main_v51]
  rfl

/-- The buffer contents after the first 8 stretches of operations. -/
def val8 (V0 : Valuation τ sig (Elt F)) : Valuation τ sig (Elt F) := after w7 (val7 V0)
/-- A buffer that `w7` does not write keeps its contents through it. -/
theorem val8_keep (V0 : Valuation τ sig (Elt F)) (r : Ref sig .tc) (h : r ∉ w7_W) :
    val8 V0 (Proc.devRef .tc r) = val7 V0 (Proc.devRef .tc r) :=
  after_of_writes_sub w7 _ w7_writes h
/-- A buffer that none of the first 8 stretches writes still holds its starting contents. -/
theorem val8_start (V0 : Valuation τ sig (Elt F)) (r : Ref sig .tc) (h0 : r ∉ w0_W) (h1 : r ∉ w1_W) (h2 : r ∉ w2_W) (h3 : r ∉ w3_W) (h4 : r ∉ w4_W) (h5 : r ∉ w5_W) (h6 : r ∉ w6_W) (h7 : r ∉ w7_W) :
    val8 V0 (Proc.devRef .tc r) = V0 (Proc.devRef .tc r) :=
  (val8_keep V0 r h7).trans (val7_start V0 r h0 h1 h2 h3 h4 h5 h6)
set_option maxRecDepth 16384 in
theorem val8_main_v57 (V0 : Valuation τ sig (Elt F)) : val8 V0 (no_index (Proc.devRef .tc main_v57)) = logSoftmax16 (normalize16 (layerLin2 (relu32 (normalize32 (layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1))))))) (V0 (Proc.devRef .tc main_arg5)) (V0 (Proc.devRef .tc main_arg6)) (V0 (Proc.devRef .tc main_arg7)) (dstIds (V0 (Proc.devRef .tc main_arg1))) (takeRows32 (relu32 (normalize32 (layerLin1 (V0 (Proc.devRef .tc main_arg0)) (V0 (Proc.devRef .tc main_arg2)) (V0 (Proc.devRef .tc main_arg3)) (V0 (Proc.devRef .tc main_arg4)) (dstIds (V0 (Proc.devRef .tc main_arg1))) (takeRows50 (V0 (Proc.devRef .tc main_arg0)) (srcIds (V0 (Proc.devRef .tc main_arg1))))))) (srcIds (V0 (Proc.devRef .tc main_arg1)))))) := by
  unfold val8
  simp only [w7]
  after_results_simp
  simp only [Cert.Lib.ofBuf_toBuf, val7_main_v56]
  rfl

/-- The fold of all the operations is the contents after the eighth stretch. -/
theorem after_ops (V0 : Valuation τ sig (Elt F)) : after ops V0 = val8 V0 := by
  simp only [ops, Cert.Lib.after_append]
  rfl

/-- The result buffer after all the operations holds `result` of the arguments' starting contents. -/
theorem after_ops_result (V0 : Valuation τ sig (Elt Ideal)) :
    after ops V0 (Proc.devRef .tc main_v57)
      = result (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) := by
  rw [after_ops]
  exact val8_main_v57 V0

/-- An argument buffer after all the operations holds its starting contents. -/
theorem after_ops_arg (V0 : Valuation τ sig (Elt F)) (r : Ref sig .tc) (h0 : r ∉ w0_W) (h1 : r ∉ w1_W) (h2 : r ∉ w2_W) (h3 : r ∉ w3_W) (h4 : r ∉ w4_W) (h5 : r ∉ w5_W) (h6 : r ∉ w6_W) (h7 : r ∉ w7_W) :
    after ops V0 (Proc.devRef .tc r) = V0 (Proc.devRef .tc r) := by
  rw [after_ops]
  exact val8_start V0 r h0 h1 h2 h3 h4 h5 h6 h7

/-- On every device, from any memory with zero counters: every weakly fair execution of the reference terminates with
    its result buffer at `result` of the argument arrays and the argument arrays unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v57)
          = result (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  (θ_run defs _ _).mono (fun _ h c => ⟨(h c main_v57).trans (after_ops_result (launchContents m c)),
      (h c main_arg0).trans (after_ops_arg (launchContents m c) main_arg0 (by decide) (by decide) (by decide) (by decide) (by decide) (by decide) (by decide) (by decide)),
      (h c main_arg1).trans (after_ops_arg (launchContents m c) main_arg1 (by decide) (by decide) (by decide) (by decide) (by decide) (by decide) (by decide) (by decide)),
      (h c main_arg2).trans (after_ops_arg (launchContents m c) main_arg2 (by decide) (by decide) (by decide) (by decide) (by decide) (by decide) (by decide) (by decide)),
      (h c main_arg3).trans (after_ops_arg (launchContents m c) main_arg3 (by decide) (by decide) (by decide) (by decide) (by decide) (by decide) (by decide) (by decide)),
      (h c main_arg4).trans (after_ops_arg (launchContents m c) main_arg4 (by decide) (by decide) (by decide) (by decide) (by decide) (by decide) (by decide) (by decide)),
      (h c main_arg5).trans (after_ops_arg (launchContents m c) main_arg5 (by decide) (by decide) (by decide) (by decide) (by decide) (by decide) (by decide) (by decide)),
      (h c main_arg6).trans (after_ops_arg (launchContents m c) main_arg6 (by decide) (by decide) (by decide) (by decide) (by decide) (by decide) (by decide) (by decide)),
      (h c main_arg7).trans (after_ops_arg (launchContents m c) main_arg7 (by decide) (by decide) (by decide) (by decide) (by decide) (by decide) (by decide) (by decide))⟩)
    (run_all m ρ)

end Cert.ReferenceIdeal.RefValue

end
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«145111_j36661840838929_2_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.RefRead.lean ====
/-
  The reference network read entry by entry.

  Each stretch of the reference — the two rows of the edge list, the row gather, the mean-aggregating layer, the row
  normalisation, the rectifier, the log-softmax — is read at one entry as the corresponding formula of the
  specification, first over variables and then composed: entry (p, q) of `result` is the specification's two-layer
  network, the one that projects the mean of the summed neighbour rows.
-/
import proofs.«145111_j36661840838929_2_alg».proof.Proof.RefRunStages
import proofs.«145111_j36661840838929_2_alg».proof.Proof.Spec
import proofs.«145111_j36661840838929_2_alg».proof.Proof.Graph
import proofs.«145111_j36661840838929_2_alg».proof.Proof.LibTake
import proofs.«145111_j36661840838929_2_alg».proof.Proof.LibRowOps
import proofs.«145111_j36661840838929_2_alg».proof.Proof.LibSageLayer
import proofs.«145111_j36661840838929_2_alg».proof.Proof.LibHostBiasRelu
import proofs.«145111_j36661840838929_2_alg».proof.Proof.LibRealMore
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx Cert.Lib
open scoped BigOperators

/-! ## The edge list's rows and the row gather -/

/-- The source-id vector at edge `e` is row 0 of the edge list there. -/
theorem srcIds_apply (a1 : IVec S2x1600000 32) (e : Fin 1600000) : srcIds a1 (ix1 e) = a1 (ix2 (0 : Fin 2) e) :=
  Cert.Graph.edgeRow0_apply a1 slices_S2x1600000_S1x1600000_0_0 shapeCasts_S1x1600000_S1600000 e

/-- The destination-id vector at edge `e` is row 1 of the edge list there. -/
theorem dstIds_apply (a1 : IVec S2x1600000 32) (e : Fin 1600000) : dstIds a1 (ix1 e) = a1 (ix2 (1 : Fin 2) e) :=
  Cert.Graph.edgeRow1_apply a1 slices_S2x1600000_S1x1600000_1_0 shapeCasts_S1x1600000_S1600000 e

/-- With every id in `[-100000, 100000)`, the gathered array at `(e, k)` is the operand at the wrapped, clamped row of
    edge `e`, column `k`. -/
theorem takeRows50_apply (x : FVec Ideal S100000x50 .f32) (ids : IVec S1600000 32)
    (hv : ∀ e : Fin 1600000, -100000 ≤ (ids (ix1 e)).toInt ∧ (ids (ix1 e)).toInt < 100000) (e : Fin 1600000) (k : Fin 50) :
    takeRows50 x ids (ix2 e k) = x (ix2 (clampRow 100000 (by norm_num) (wrapRow (ids (ix1 e)))) k) := by
  have hg : gather_S100000x50_S1600000x1_S1600000x50_1_0_n_n_0_1_150
      = rowGather 100000 1600000 50 gather_S100000x50_S1600000x1_S1600000x50_1_0_n_n_0_1_150_wf := rfl
  unfold takeRows50
  dsimp only
  rw [hg]
  exact take_apply x _ ids _ _ (fun _ => rfl) (fun _ => rfl) bcast_S1600000_S1600000x1_0 _ _ (fun _ => rfl) (fun _ => rfl)
    _ (fun _ => rfl) reducesTo_S1600000x1_S1600000_d1 h_S_ bcast_S1600000_S1600000x50_0
    gather_S100000x50_S1600000x1_S1600000x50_1_0_n_n_0_1_150_wf hv e k

/-- The same at width 32. -/
theorem takeRows32_apply (x : FVec Ideal S100000x32 .f32) (ids : IVec S1600000 32)
    (hv : ∀ e : Fin 1600000, -100000 ≤ (ids (ix1 e)).toInt ∧ (ids (ix1 e)).toInt < 100000) (e : Fin 1600000) (k : Fin 32) :
    takeRows32 x ids (ix2 e k) = x (ix2 (clampRow 100000 (by norm_num) (wrapRow (ids (ix1 e)))) k) := by
  have hg : gather_S100000x32_S1600000x1_S1600000x32_1_0_n_n_0_1_132
      = rowGather 100000 1600000 32 gather_S100000x32_S1600000x1_S1600000x32_1_0_n_n_0_1_132_wf := rfl
  unfold takeRows32
  dsimp only
  rw [hg]
  exact take_apply x _ ids _ _ (fun _ => rfl) (fun _ => rfl) bcast_S1600000_S1600000x1_0 _ _ (fun _ => rfl) (fun _ => rfl)
    _ (fun _ => rfl) reducesTo_S1600000x1_S1600000_d1 h_S_ bcast_S1600000_S1600000x32_0
    gather_S100000x32_S1600000x1_S1600000x32_1_0_n_n_0_1_132_wf hv e k

/-! ## One mean-aggregating layer -/

section Layer
variable {N E K D : ℕ}

/-- The zero word is the extended real zero, the one word the extended real one. -/
theorem ofBits_one : Ideal.ofBits .f32 0x3F800000#32 = (1 : EReal) := by
  rw [ofBits_one_f32, EReal.coe_one]

/-- One layer before normalisation, read at `(p, q)`: when the per-edge rows `g` are the feature rows of the nodes the
    edges read and `dst` holds the edges' destination words, the host's spelling — both scatter-adds into zeros, the
    degree clamped below at one and spread over the row, the quotient through the transposed left weights, the bias,
    the features through the transposed right weights — is the specification's layer that projects the mean. -/
theorem meanLayer_apply
    (dwf : DotDims.WF ⟨2, ![N, K]⟩ ⟨2, ![K, D]⟩ ⟨2, ![N, D]⟩ [1] [0] [0] [1] [] [])
    (swf : ScatterDims.WF ⟨2, ![N, K]⟩ ⟨2, ![E, 1]⟩ ⟨2, ![E, K]⟩ [1] [0] [0] 1)
    (vwf : ScatterDims.WF ⟨1, ![N]⟩ ⟨2, ![E, 1]⟩ ⟨1, ![E]⟩ [] [0] [0] 1)
    (h : FVec Ideal ⟨2, ![N, K]⟩ .f32) (wl wr : FVec Ideal ⟨2, ![D, K]⟩ .f32) (b : FVec Ideal ⟨1, ![D]⟩ .f32)
    (dst : IVec ⟨1, ![E]⟩ 32) (g : FVec Ideal ⟨2, ![E, K]⟩ .f32)
    (hzNK : (⟨0, ![]⟩ : Shape).BroadcastsInDim ⟨2, ![N, K]⟩ (![] : Fin 0 → Fin 2))
    (hcol : (⟨1, ![E]⟩ : Shape).BroadcastsInDim ⟨2, ![E, 1]⟩ (![0] : Fin 1 → Fin 2))
    (hoE : (⟨0, ![]⟩ : Shape).BroadcastsInDim ⟨1, ![E]⟩ (![] : Fin 0 → Fin 1))
    (hzN : (⟨0, ![]⟩ : Shape).BroadcastsInDim ⟨1, ![N]⟩ (![] : Fin 0 → Fin 1))
    (hc1 : (⟨1, ![N]⟩ : Shape).BroadcastsInDim ⟨2, ![N, 1]⟩ (![0] : Fin 1 → Fin 2))
    (hc2 : (⟨2, ![N, 1]⟩ : Shape).BroadcastsInDim ⟨2, ![N, K]⟩ (![0, 1] : Fin 2 → Fin 2))
    (htr : (⟨2, ![D, K]⟩ : Shape).Transposes [1, 0] ⟨2, ![K, D]⟩)
    (hb1 : (⟨1, ![D]⟩ : Shape).BroadcastsInDim ⟨2, ![1, D]⟩ (![1] : Fin 1 → Fin 2))
    (hb2 : (⟨2, ![1, D]⟩ : Shape).BroadcastsInDim ⟨2, ![N, D]⟩ (![0, 1] : Fin 2 → Fin 2))
    (r : Fin E → Fin N) (s : Fin E → BitVec 32)
    (hg : ∀ e k, g (ix2 e k) = h (ix2 (r e) k)) (hs : ∀ e, dst (ix1 e) = s e) (p : Fin N) (q : Fin D) :
    addf (addf
        (Host.dotGeneral (plain2 dwf) none
          (Host.divf
            (Host.scatterAdd (rowScatter N E K swf)
              (broadcastInDim ⟨2, ![N, K]⟩ ![] hzNK (constant (F := Ideal) ⟨0, ![]⟩ .f32 0x00000000#32))
              (broadcastInDim ⟨2, ![E, 1]⟩ ![0] hcol dst) g)
            (broadcastInDim ⟨2, ![N, K]⟩ ![0, 1] hc2 (broadcastInDim ⟨2, ![N, 1]⟩ ![0] hc1
              (maximumf
                (Host.scatterAdd (F := Ideal) (vecScatter N E vwf)
                  (broadcastInDim ⟨1, ![N]⟩ ![] hzN (constant (F := Ideal) ⟨0, ![]⟩ .f32 0x00000000#32))
                  (broadcastInDim ⟨2, ![E, 1]⟩ ![0] hcol dst)
                  (broadcastInDim ⟨1, ![E]⟩ ![] hoE (constant (F := Ideal) ⟨0, ![]⟩ .f32 0x3F800000#32)))
                (broadcastInDim ⟨1, ![N]⟩ ![] hzN (constant (F := Ideal) ⟨0, ![]⟩ .f32 0x3F800000#32))))))
          (transpose ⟨2, ![K, D]⟩ [1, 0] wl htr))
        (broadcastInDim ⟨2, ![N, D]⟩ ![0, 1] hb2 (broadcastInDim ⟨2, ![1, D]⟩ ![1] hb1 b)))
      (Host.dotGeneral (plain2 dwf) none h (transpose ⟨2, ![K, D]⟩ [1, 0] wr htr)) (ix2 p q)
    = Cert.Spec.preR r s (fun n k => h (ix2 n k)) (fun d k => wl (ix2 d k)) (fun d => b (ix1 d)) (fun d k => wr (ix2 d k)) p q := by
  rw [sageHost_apply dwf _ h _ wl wr b hc1 hc2 htr hb1 hb2 p q]
  unfold sageAt Cert.Spec.preR
  have hfilter : (Finset.univ.filter fun e : Fin E => row? N (broadcastInDim ⟨2, ![E, 1]⟩ ![0] hcol dst (ix2 e 0)) = some p)
      = Cert.Spec.into s p := by
    unfold Cert.Spec.into
    refine Finset.filter_congr fun e _ => ?_
    rw [Cert.Graph.column_apply dst hcol e 0, hs e]
  have hdeg : maximumf
        (Host.scatterAdd (F := Ideal) (vecScatter N E vwf)
          (broadcastInDim ⟨1, ![N]⟩ ![] hzN (constant (F := Ideal) ⟨0, ![]⟩ .f32 0x00000000#32))
          (broadcastInDim ⟨2, ![E, 1]⟩ ![0] hcol dst)
          (broadcastInDim ⟨1, ![E]⟩ ![] hoE (constant (F := Ideal) ⟨0, ![]⟩ .f32 0x3F800000#32)))
        (broadcastInDim ⟨1, ![N]⟩ ![] hzN (constant (F := Ideal) ⟨0, ![]⟩ .f32 0x3F800000#32)) (ix1 p)
      = max (Cert.Spec.deg s p) 1 := by
    rw [maximumf_apply, vecScatterAdd_apply vwf _ _ _ p, hfilter, bcast_scalar_apply _ hzN, bcast_scalar_apply _ hzN,
      constant_apply, constant_apply, Ideal.ofBits_zero_f32, ofBits_one, zero_add]
    unfold Cert.Spec.deg
    refine congrArg (fun t => max t 1) (Finset.sum_congr rfl fun e _ => ?_)
    rw [bcast_scalar_apply _ hoE, constant_apply, ofBits_one]
  have hagg : ∀ k : Fin K, Host.scatterAdd (rowScatter N E K swf)
        (broadcastInDim ⟨2, ![N, K]⟩ ![] hzNK (constant (F := Ideal) ⟨0, ![]⟩ .f32 0x00000000#32))
        (broadcastInDim ⟨2, ![E, 1]⟩ ![0] hcol dst) g (ix2 p k)
      = Cert.Spec.agg r s (fun n k => h (ix2 n k)) p k := fun k => by
    rw [rowScatterAdd_apply swf _ _ g p k, hfilter, bcast_scalar_apply _ hzNK, constant_apply, Ideal.ofBits_zero_f32, zero_add]
    unfold Cert.Spec.agg
    exact Finset.sum_congr rfl fun e _ => hg e k
  refine congrArg₂ (· + ·) (congrArg₂ (· + ·) (Finset.sum_congr rfl fun k _ => ?_) rfl) rfl
  rw [hagg k]
  beta_reduce
  rw [hdeg]

end Layer

/-! ## The row functions -/

section Rows
variable {N D : ℕ}

/-- The host's division, square root, exponential and logarithm act entry by entry. -/
theorem hostDivf_apply {s : Shape} {φ : FTy} (a b : FVec Ideal s φ) (i : s.Idx) : Host.divf a b i = Ideal.div (a i) (b i) := rfl
theorem hostSqrt_apply {s : Shape} {φ : FTy} (a : FVec Ideal s φ) (i : s.Idx) : Host.sqrt a i = Ideal.sqrt (a i) := rfl
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-- An `[N, 1]` column repeated along the rows reads, at `(p, q)`, the column at row `p`. -/
theorem bcast_column_apply {α : Type} (v : (⟨2, ![N, 1]⟩ : Shape).Idx → α)
    (h : (⟨2, ![N, 1]⟩ : Shape).BroadcastsInDim ⟨2, ![N, D]⟩ (![0, 1] : Fin 2 → Fin 2)) (p : Fin N) (q : Fin D) :
    broadcastInDim ⟨2, ![N, D]⟩ ![0, 1] h v (ix2 p q) = v (ix2 p (0 : Fin 1)) :=
  broadcastInDim_apply _ h v (ix2 p q) (ix2 p (0 : Fin 1)) fun ax =>
    match ax with
    | ⟨0, _⟩ => by
      show p.val = if N = 1 then 0 else p.val
      split
      · have := p.isLt; omega
      · rfl
    | ⟨1, _⟩ => rfl

/-- Row `p` with the column coordinate `k` put back is `(p, k)`. -/
theorem lift_row (hr : (⟨2, ![N, D]⟩ : Shape).Reduces [1] ⟨1, ![N]⟩) (p : Fin N)
    (k : Fin ((⟨2, ![N, D]⟩ : Shape).size 1)) : hr.lift (ix1 p) k = ix2 p (⟨k.val, k.isLt⟩ : Fin D) := by
  funext c; apply Fin.ext
  fin_cases c <;> rfl

/-- The host's sum along the rows, started from the zero word: at row `p` the sum of the row's entries. -/
theorem hostRowSum_apply (y : FVec Ideal ⟨2, ![N, D]⟩ .f32) (hr' : (⟨2, ![N, D]⟩ : Shape).ReducesTo [1] ⟨1, ![N]⟩)
    (hr : (⟨2, ![N, D]⟩ : Shape).Reduces [1] ⟨1, ![N]⟩) (hu : 0 < (⟨0, ![]⟩ : Shape).numel) (p : Fin N) :
    Host.reduceAdd y (constant (F := Ideal) ⟨0, ![]⟩ .f32 0x00000000#32) hr' hu (ix1 p) = ∑ j : Fin D, y (ix2 p j) := by
  unfold Host.reduceAdd
  rw [Ideal.hostReduceAdd_def, Ideal.hostReduceAdd_single hr' hr, constant_apply, Ideal.ofBits_zero_f32, zero_add]
  exact Finset.sum_congr rfl fun k _ => congrArg y (lift_row hr p k)

/-- The host's maximum along the rows, started from the word of minus infinity: at row `p` the fold of `max` over the
    row from the bottom element. -/
theorem hostRowMax_apply (y : FVec Ideal ⟨2, ![N, D]⟩ .f32) (hr' : (⟨2, ![N, D]⟩ : Shape).ReducesTo [1] ⟨1, ![N]⟩)
    (hr : (⟨2, ![N, D]⟩ : Shape).Reduces [1] ⟨1, ![N]⟩) (hu : 0 < (⟨0, ![]⟩ : Shape).numel) (p : Fin N) :
    Host.reduce FloatOps.maximumf y (constant (F := Ideal) ⟨0, ![]⟩ .f32 0xFF800000#32) hr' hu (ix1 p)
      = Cert.Spec.rowMax fun j : Fin D => y (ix2 p j) := by
  rw [Host.reduce_eq_fold_single FloatOps.maximumf y _ hr' hr hu]
  have hbot : (Ideal.ofBits .f32 0xFF800000#32 : EReal) = ⊥ := by simp [Ideal.ofBits, Ideal.ieee]
  have hf : (y ∘ hr.lift (ix1 p)) = fun j : Fin D => y (ix2 p j) := funext fun k => congrArg y (lift_row hr p k)
  unfold Cert.Spec.rowMax
  rw [constant_apply, hbot]
  exact congrArg (fun f => Finset.fold max (⊥ : EReal) f (Finset.univ : Finset (Fin D))) hf

/-- Every row divided by its Euclidean norm bounded below by the small constant, read at `(p, q)`. -/
theorem rowNormalize_apply (x : FVec Ideal ⟨2, ![N, D]⟩ .f32) (hr' : (⟨2, ![N, D]⟩ : Shape).ReducesTo [1] ⟨1, ![N]⟩)
    (hr : (⟨2, ![N, D]⟩ : Shape).Reduces [1] ⟨1, ![N]⟩) (hu : 0 < (⟨0, ![]⟩ : Shape).numel)
    (hc1 : (⟨1, ![N]⟩ : Shape).BroadcastsInDim ⟨2, ![N, 1]⟩ (![0] : Fin 1 → Fin 2))
    (he : (⟨0, ![]⟩ : Shape).BroadcastsInDim ⟨2, ![N, 1]⟩ (![] : Fin 0 → Fin 2))
    (hc2 : (⟨2, ![N, 1]⟩ : Shape).BroadcastsInDim ⟨2, ![N, D]⟩ (![0, 1] : Fin 2 → Fin 2)) (p : Fin N) (q : Fin D) :
    Host.divf x (broadcastInDim ⟨2, ![N, D]⟩ ![0, 1] hc2
        (maximumf
          (Host.sqrt (broadcastInDim ⟨2, ![N, 1]⟩ ![0] hc1
            (Host.reduceAdd (mulf x x) (constant (F := Ideal) ⟨0, ![]⟩ .f32 0x00000000#32) hr' hu)))
          (broadcastInDim ⟨2, ![N, 1]⟩ ![] he (constant (F := Ideal) ⟨0, ![]⟩ .f32 0x2B8CBCCC#32)))) (ix2 p q)
      = Cert.Spec.normalize (fun n d => x (ix2 n d)) p q := by
  rw [hostDivf_apply, bcast_column_apply _ hc2 p q, maximumf_apply, bcast_scalar_apply _ he, constant_apply, hostSqrt_apply,
    Cert.Graph.column_apply _ hc1 p 0, hostRowSum_apply _ hr' hr hu p]
  rfl

/-- The rectifier read at `(p, q)`. -/
theorem hostRelu_apply (x : FVec Ideal ⟨2, ![N, D]⟩ .f32)
    (h0 : (⟨0, ![]⟩ : Shape).BroadcastsInDim ⟨2, ![N, D]⟩ (![] : Fin 0 → Fin 2)) (p : Fin N) (q : Fin D) :
    maximumf x (broadcastInDim ⟨2, ![N, D]⟩ ![] h0 (constant (F := Ideal) ⟨0, ![]⟩ .f32 0x00000000#32)) (ix2 p q)
      = Cert.Spec.relu (fun n d => x (ix2 n d)) p q := by
  rw [maximumf_apply, bcast_scalar_apply _ h0, constant_apply, Ideal.ofBits_zero_f32]
  rfl

/-- The host's row-wise log-softmax read at `(p, q)`. -/
theorem hostLogSoftmax_apply (x : FVec Ideal ⟨2, ![N, D]⟩ .f32) (hr' : (⟨2, ![N, D]⟩ : Shape).ReducesTo [1] ⟨1, ![N]⟩)
    (hr : (⟨2, ![N, D]⟩ : Shape).Reduces [1] ⟨1, ![N]⟩) (hu : 0 < (⟨0, ![]⟩ : Shape).numel)
    (hbN : (⟨0, ![]⟩ : Shape).BroadcastsInDim ⟨1, ![N]⟩ (![] : Fin 0 → Fin 1))
    (hc1 : (⟨1, ![N]⟩ : Shape).BroadcastsInDim ⟨2, ![N, 1]⟩ (![0] : Fin 1 → Fin 2))
    (hc2 : (⟨2, ![N, 1]⟩ : Shape).BroadcastsInDim ⟨2, ![N, D]⟩ (![0, 1] : Fin 2 → Fin 2)) (p : Fin N) (q : Fin D) :
    subf
        (subf x (broadcastInDim ⟨2, ![N, D]⟩ ![0, 1] hc2 (broadcastInDim ⟨2, ![N, 1]⟩ ![0] hc1
          (maximumf (broadcastInDim ⟨1, ![N]⟩ ![] hbN (constant (F := Ideal) ⟨0, ![]⟩ .f32 0xFF800000#32))
            (Host.reduce FloatOps.maximumf x (constant (F := Ideal) ⟨0, ![]⟩ .f32 0xFF800000#32) hr' hu)))))
        (broadcastInDim ⟨2, ![N, D]⟩ ![0, 1] hc2 (Host.log (broadcastInDim ⟨2, ![N, 1]⟩ ![0] hc1
          (Host.reduceAdd
            (Host.exp (subf x (broadcastInDim ⟨2, ![N, D]⟩ ![0, 1] hc2 (broadcastInDim ⟨2, ![N, 1]⟩ ![0] hc1
              (maximumf (broadcastInDim ⟨1, ![N]⟩ ![] hbN (constant (F := Ideal) ⟨0, ![]⟩ .f32 0xFF800000#32))
                (Host.reduce FloatOps.maximumf x (constant (F := Ideal) ⟨0, ![]⟩ .f32 0xFF800000#32) hr' hu))))))
            (constant (F := Ideal) ⟨0, ![]⟩ .f32 0x00000000#32) hr' hu)))) (ix2 p q)
      = Cert.Spec.logSoftmax (fun n d => x (ix2 n d)) p q := by
  have hbot : (Ideal.ofBits .f32 0xFF800000#32 : EReal) = ⊥ := by simp [Ideal.ofBits, Ideal.ieee]
  -- the shifted entry: the entry minus its row's maximum
  have hshift : ∀ j : Fin D,
      subf x (broadcastInDim ⟨2, ![N, D]⟩ ![0, 1] hc2 (broadcastInDim ⟨2, ![N, 1]⟩ ![0] hc1
        (maximumf (broadcastInDim ⟨1, ![N]⟩ ![] hbN (constant (F := Ideal) ⟨0, ![]⟩ .f32 0xFF800000#32))
          (Host.reduce FloatOps.maximumf x (constant (F := Ideal) ⟨0, ![]⟩ .f32 0xFF800000#32) hr' hu)))) (ix2 p j)
        = x (ix2 p j) - Cert.Spec.rowMax fun j : Fin D => x (ix2 p j) := fun j => by
    rw [subf_apply, bcast_column_apply _ hc2 p j, Cert.Graph.column_apply _ hc1 p 0, maximumf_apply,
      bcast_scalar_apply _ hbN, constant_apply, hbot, hostRowMax_apply x hr' hr hu p]
    exact congrArg (fun t => x (ix2 p j) - t) (max_eq_right bot_le)
  rw [subf_apply, hshift q, bcast_column_apply _ hc2 p q, hostLog_apply, Cert.Graph.column_apply _ hc1 p 0,
    hostRowSum_apply _ hr' hr hu p]
  unfold Cert.Spec.logSoftmax
  refine congrArg (fun t => _ - Ideal.log t) (Finset.sum_congr rfl fun j _ => ?_)
  rw [hostExp_apply, hshift j]

end Rows

/-! ## The stretches of the reference -/

/-- Layer 1 before normalisation at `(p, q)`, when the per-edge rows are the rows of the nodes the edges read. -/
theorem layerLin1_apply (h : FVec Ideal S100000x50 .f32) (wl : FVec Ideal S32x50 .f32) (b : FVec Ideal S32 .f32)
    (wr : FVec Ideal S32x50 .f32) (dst : IVec S1600000 32) (g : FVec Ideal S1600000x50 .f32)
    (r : Fin 1600000 → Fin 100000) (s : Fin 1600000 → BitVec 32) (x : Fin 100000 → Fin 50 → EReal)
    (hh : ∀ n k, h (ix2 n k) = x n k) (hg : ∀ e k, g (ix2 e k) = h (ix2 (r e) k)) (hs : ∀ e, dst (ix1 e) = s e)
    (p : Fin 100000) (q : Fin 32) :
    layerLin1 h wl b wr dst g (ix2 p q)
      = Cert.Spec.preR r s x (fun d k => wl (ix2 d k)) (fun d => b (ix1 d)) (fun d k => wr (ix2 d k)) p q := by
  obtain rfl : x = fun n k => h (ix2 n k) := funext fun n => funext fun k => (hh n k).symm
  have hd : dot_S100000x50_S50x32_S100000x32_1_0_0_1_n_n = plain2 dot_S100000x50_S50x32_S100000x32_1_0_0_1_n_n_wf := rfl
  have hsc : scatter_S100000x50_S1600000x1_S1600000x50_1_0_0_1
      = rowScatter 100000 1600000 50 scatter_S100000x50_S1600000x1_S1600000x50_1_0_0_1_wf := rfl
  have hvs : scatter_S100000_S1600000x1_S1600000_n_0_0_1
      = vecScatter 100000 1600000 scatter_S100000_S1600000x1_S1600000_n_0_0_1_wf := rfl
  unfold layerLin1
  dsimp only
  rw [hd, hsc, hvs]
  exact meanLayer_apply _ _ _ h wl wr b dst g bcast_S_S100000x50 bcast_S1600000_S1600000x1_0 bcast_S_S1600000 bcast_S_S100000
    bcast_S100000_S100000x1_0 bcast_S100000x1_S100000x50_0_1 transposes_S32x50_S50x32_1_0 bcast_S32_S1x32_1
    bcast_S1x32_S100000x32_0_1 r s hg hs p q

/-- Layer 2 before normalisation at `(p, q)`. -/
theorem layerLin2_apply (h : FVec Ideal S100000x32 .f32) (wl : FVec Ideal S16x32 .f32) (b : FVec Ideal S16 .f32)
    (wr : FVec Ideal S16x32 .f32) (dst : IVec S1600000 32) (g : FVec Ideal S1600000x32 .f32)
    (r : Fin 1600000 → Fin 100000) (s : Fin 1600000 → BitVec 32) (x : Fin 100000 → Fin 32 → EReal)
    (hh : ∀ n k, h (ix2 n k) = x n k) (hg : ∀ e k, g (ix2 e k) = h (ix2 (r e) k)) (hs : ∀ e, dst (ix1 e) = s e)
    (p : Fin 100000) (q : Fin 16) :
    layerLin2 h wl b wr dst g (ix2 p q)
      = Cert.Spec.preR r s x (fun d k => wl (ix2 d k)) (fun d => b (ix1 d)) (fun d k => wr (ix2 d k)) p q := by
  obtain rfl : x = fun n k => h (ix2 n k) := funext fun n => funext fun k => (hh n k).symm
  have hd : dot_S100000x32_S32x16_S100000x16_1_0_0_1_n_n = plain2 dot_S100000x32_S32x16_S100000x16_1_0_0_1_n_n_wf := rfl
  have hsc : scatter_S100000x32_S1600000x1_S1600000x32_1_0_0_1
      = rowScatter 100000 1600000 32 scatter_S100000x32_S1600000x1_S1600000x32_1_0_0_1_wf := rfl
  have hvs : scatter_S100000_S1600000x1_S1600000_n_0_0_1
      = vecScatter 100000 1600000 scatter_S100000_S1600000x1_S1600000_n_0_0_1_wf := rfl
  unfold layerLin2
  dsimp only
  rw [hd, hsc, hvs]
  exact meanLayer_apply _ _ _ h wl wr b dst g bcast_S_S100000x32 bcast_S1600000_S1600000x1_0 bcast_S_S1600000 bcast_S_S100000
    bcast_S100000_S100000x1_0 bcast_S100000x1_S100000x32_0_1 transposes_S16x32_S32x16_1_0 bcast_S16_S1x16_1
    bcast_S1x16_S100000x16_0_1 r s hg hs p q

/-- @norm followed by the division, at width 32. -/
theorem normalize32_apply (x : FVec Ideal S100000x32 .f32) (p : Fin 100000) (q : Fin 32) :
    normalize32 x (ix2 p q) = Cert.Spec.normalize (fun n d => x (ix2 n d)) p q := by
  unfold normalize32 norm32
  dsimp only
  exact rowNormalize_apply x reducesTo_S100000x32_S100000_d1 (by decide) h_S_ bcast_S100000_S100000x1_0 bcast_S_S100000x1
    bcast_S100000x1_S100000x32_0_1 p q

/-- @norm_1 followed by the division, at width 16. -/
theorem normalize16_apply (x : FVec Ideal S100000x16 .f32) (p : Fin 100000) (q : Fin 16) :
    normalize16 x (ix2 p q) = Cert.Spec.normalize (fun n d => x (ix2 n d)) p q := by
  unfold normalize16 norm16
  dsimp only
  exact rowNormalize_apply x reducesTo_S100000x16_S100000_d1 (by decide) h_S_ bcast_S100000_S100000x1_0 bcast_S_S100000x1
    bcast_S100000x1_S100000x16_0_1 p q

/-- @relu. -/
theorem relu32_apply (x : FVec Ideal S100000x32 .f32) (p : Fin 100000) (q : Fin 32) :
    relu32 x (ix2 p q) = Cert.Spec.relu (fun n d => x (ix2 n d)) p q := by
  unfold relu32
  dsimp only
  exact hostRelu_apply x bcast_S_S100000x32 p q

/-- @log_softmax. -/
theorem logSoftmax16_apply (x : FVec Ideal S100000x16 .f32) (p : Fin 100000) (q : Fin 16) :
    logSoftmax16 x (ix2 p q) = Cert.Spec.logSoftmax (fun n d => x (ix2 n d)) p q := by
  unfold logSoftmax16
  dsimp only
  exact hostLogSoftmax_apply x reducesTo_S100000x16_S100000_d1 (by decide) h_S_ bcast_S_S100000 bcast_S100000_S100000x1_0
    bcast_S100000x1_S100000x16_0_1 p q

/-! ## The whole network -/

/-- Between the layers: the normalisation and the rectifier of an array known entry by entry. -/
theorem mid_apply (z : FVec Ideal S100000x32 .f32) (u : Fin 100000 → Fin 32 → EReal) (hz : ∀ n d, z (ix2 n d) = u n d)
    (p : Fin 100000) (q : Fin 32) :
    relu32 (normalize32 z) (ix2 p q) = Cert.Spec.relu (Cert.Spec.normalize u) p q := by
  obtain rfl : u = fun n d => z (ix2 n d) := funext fun n => funext fun d => (hz n d).symm
  rw [relu32_apply]
  exact congrArg (fun f => Cert.Spec.relu f p q) (funext fun n => funext fun d => normalize32_apply z n d)

/-- After the second layer: the normalisation and the log-softmax of an array known entry by entry. -/
theorem head_apply (z : FVec Ideal S100000x16 .f32) (u : Fin 100000 → Fin 16 → EReal) (hz : ∀ n d, z (ix2 n d) = u n d)
    (p : Fin 100000) (q : Fin 16) :
    logSoftmax16 (normalize16 z) (ix2 p q) = Cert.Spec.logSoftmax (Cert.Spec.normalize u) p q := by
  obtain rfl : u = fun n d => z (ix2 n d) := funext fun n => funext fun d => (hz n d).symm
  rw [logSoftmax16_apply]
  exact congrArg (fun f => Cert.Spec.logSoftmax f p q) (funext fun n => funext fun d => normalize16_apply z n d)

/-- ENTRY `(p, q)` OF THE REFERENCE'S RESULT, every source id in `[-100000, 100000)`: the specification's two-layer network
    that projects the mean of the summed neighbour rows, on the graph the edge list describes. -/
theorem result_apply (a0 : FVec Ideal S100000x50 .f32) (a1 : IVec S2x1600000 32) (a2 : FVec Ideal S32x50 .f32) (a3 : FVec Ideal S32 .f32) (a4 : FVec Ideal S32x50 .f32) (a5 : FVec Ideal S16x32 .f32) (a6 : FVec Ideal S16 .f32) (a7 : FVec Ideal S16x32 .f32)
    (hv : ∀ e : Fin 1600000, -100000 ≤ (a1 (ix2 (0 : Fin 2) e)).toInt ∧ (a1 (ix2 (0 : Fin 2) e)).toInt < 100000)
    (p : Fin 100000) (q : Fin 16) :
    result a0 a1 a2 a3 a4 a5 a6 a7 (ix2 p q)
      = Cert.Spec.refOut (Cert.Graph.rOf a1) (Cert.Graph.sOf a1) (fun n k => a0 (ix2 n k)) (fun d k => a2 (ix2 d k))
          (fun d => a3 (ix1 d)) (fun d k => a4 (ix2 d k)) (fun d k => a5 (ix2 d k)) (fun d => a6 (ix1 d))
          (fun d k => a7 (ix2 d k)) p q := by
  have hsrc : ∀ e : Fin 1600000, -100000 ≤ (srcIds a1 (ix1 e)).toInt ∧ (srcIds a1 (ix1 e)).toInt < 100000 := fun e => by
    rw [srcIds_apply]; exact hv e
  have hr : ∀ e : Fin 1600000, clampRow 100000 (by norm_num) (wrapRow (srcIds a1 (ix1 e))) = Cert.Graph.rOf a1 e := fun e => by
    rw [srcIds_apply]; rfl
  have hs : ∀ e : Fin 1600000, dstIds a1 (ix1 e) = Cert.Graph.sOf a1 e := fun e => dstIds_apply a1 e
  unfold result Cert.Spec.refOut
  refine head_apply _ _ (fun n d => ?_) p q
  refine layerLin2_apply _ a5 a6 a7 _ _ (Cert.Graph.rOf a1) (Cert.Graph.sOf a1) _ (fun n' k' => ?_) (fun e k => ?_) hs n d
  · refine mid_apply _ _ (fun n'' d'' => ?_) n' k'
    exact layerLin1_apply a0 a2 a3 a4 _ _ (Cert.Graph.rOf a1) (Cert.Graph.sOf a1) _ (fun _ _ => rfl)
      (fun e k => by rw [takeRows50_apply a0 _ hsrc e k, hr e]) hs n'' d''
  · rw [takeRows32_apply _ _ hsrc e k, hr e]

end Cert.ReferenceIdeal.RefValue

end
-- ==== Proof.Law.lean ====
/-
  The two arrangements of a mean-aggregating layer agree on real data, and so do the two-layer networks built from them.

  Fix a node `p`. Its in-degree is a natural number, so `c = max (deg p) 1` is a real number at least one and dividing by it
  is multiplying by the real `1 / c`. With real features `h` and real weights `wl`, every sum in sight is a finite sum of
  reals, and the identity
      (∑ e, ∑ k, h (r e) k · wl q k) · (1 / c) = ∑ k, ((∑ e, h (r e) k) · (1 / c)) · wl q k
  is the exchange of the two finite sums followed by distributivity in the real field. A normalized row of reals is a row
  of reals (the bound under the norm is a positive real), so the second layer is fed reals and the same identity applies.
-/
import proofs.«145111_j36661840838929_2_alg».proof.Proof.Spec

noncomputable section

namespace Cert.Spec

open Idealize.ShloMosaic Cert.Lib
open scoped BigOperators

variable {N E K D : ℕ}

/-- The in-degree is the number of incoming edges. -/
theorem deg_eq (s : Fin E → BitVec 32) (p : Fin N) : deg s p = ((((into s p).card : ℕ) : ℝ) : EReal) := by
  unfold deg
  rw [Finset.sum_const, nsmul_one]
  norm_cast

/-- `max (deg p) 1` is a real number at least one. -/
theorem maxDeg_eq (s : Fin E → BitVec 32) (p : Fin N) : ∃ c : ℝ, 1 ≤ c ∧ max (deg s p) 1 = (c : EReal) := by
  refine ⟨max (((into s p).card : ℕ) : ℝ) 1, le_max_right _ _, ?_⟩
  rw [deg_eq, ← EReal.coe_one]
  exact (EReal.coe_strictMono.monotone.map_max).symm

/-- One over it is the real `1 / c`. -/
theorem invDeg_eq (s : Fin E → BitVec 32) (p : Fin N) {c : ℝ} (hc : 1 ≤ c) (h : max (deg s p) 1 = (c : EReal)) :
    invDeg s p = ((1 / c : ℝ) : EReal) := by
  unfold invDeg
  rw [h, Ideal.div_coe (ne_of_gt (lt_of_lt_of_le one_pos hc)), one_mul]

theorem isReal_invDeg (s : Fin E → BitVec 32) (p : Fin N) : IsReal (invDeg s p) := by
  obtain ⟨c, hc, hm⟩ := maxDeg_eq s p
  rw [invDeg_eq s p hc hm]
  exact isReal_coe _

/-- THE EXCHANGE: on real features and weights, the projected rows summed over the incoming edges and scaled by one over the
    degree are the projection of the summed rows divided by the degree. -/
theorem exchange (r : Fin E → Fin N) (s : Fin E → BitVec 32) (h : Fin N → Fin K → ℝ) (wl : Fin D → Fin K → ℝ)
    (p : Fin N) (q : Fin D) :
    agg r s (fun n d => ∑ k, ((h n k : ℝ) : EReal) * ((wl d k : ℝ) : EReal)) p q * invDeg s p
      = ∑ k, Ideal.div (agg r s (fun n k => ((h n k : ℝ) : EReal)) p k) (max (deg s p) 1) * ((wl q k : ℝ) : EReal) := by
  obtain ⟨c, hc, hmax⟩ := maxDeg_eq s p
  have hc0 : c ≠ 0 := ne_of_gt (lt_of_lt_of_le one_pos hc)
  rw [invDeg_eq s p hc hmax, hmax]
  simp only [agg]
  have hL : ∑ e ∈ into s p, ∑ k, ((h (r e) k : ℝ) : EReal) * ((wl q k : ℝ) : EReal)
      = ((∑ e ∈ into s p, ∑ k, h (r e) k * wl q k : ℝ) : EReal) := by
    rw [← sum_coe]
    refine Finset.sum_congr rfl fun e _ => ?_
    rw [← sum_coe]
    refine Finset.sum_congr rfl fun k _ => ?_
    rw [EReal.coe_mul]
  have hR : ∀ k, Ideal.div (∑ e ∈ into s p, ((h (r e) k : ℝ) : EReal)) (c : EReal) * ((wl q k : ℝ) : EReal)
      = (((∑ e ∈ into s p, h (r e) k) * (1 / c) * wl q k : ℝ) : EReal) := fun k => by
    rw [Ideal.div_coe hc0, sum_coe, ← EReal.coe_mul, ← EReal.coe_mul]
  rw [hL, ← EReal.coe_mul, Finset.sum_congr rfl (fun k _ => hR k), sum_coe]
  congr 1
  rw [Finset.sum_comm, Finset.sum_mul]
  refine Finset.sum_congr rfl fun k _ => ?_
  simp only [Finset.sum_mul]
  refine Finset.sum_congr rfl fun e _ => ?_
  ring

/-- The two arrangements of a layer agree when the features and the neighbour weights are real. -/
theorem preK_eq_preR (r : Fin E → Fin N) (s : Fin E → BitVec 32) (h : Fin N → Fin K → EReal) (wl : Fin D → Fin K → EReal)
    (b : Fin D → EReal) (wr : Fin D → Fin K → EReal) (hh : ∀ n k, IsReal (h n k)) (hwl : ∀ d k, IsReal (wl d k)) :
    preK r s h wl b wr = preR r s h wl b wr := by
  choose h' hh' using hh
  choose wl' hwl' using hwl
  obtain rfl : h = fun n k => ((h' n k : ℝ) : EReal) := funext fun n => funext fun k => hh' n k
  obtain rfl : wl = fun d k => ((wl' d k : ℝ) : EReal) := funext fun d => funext fun k => hwl' d k
  funext p q
  unfold preK preR
  rw [exchange r s h' wl' p q]

/-- A layer of real data is real, before normalization. -/
theorem isReal_preK (r : Fin E → Fin N) (s : Fin E → BitVec 32) (h : Fin N → Fin K → EReal) (wl : Fin D → Fin K → EReal)
    (b : Fin D → EReal) (wr : Fin D → Fin K → EReal) (hh : ∀ n k, IsReal (h n k)) (hwl : ∀ d k, IsReal (wl d k))
    (hb : ∀ d, IsReal (b d)) (hwr : ∀ d k, IsReal (wr d k)) (p : Fin N) (q : Fin D) : IsReal (preK r s h wl b wr p q) := by
  unfold preK agg
  exact (((isReal_sum _ _ fun e => isReal_sum _ _ fun k => (hh (r e) k).mul (hwl q k)).mul (isReal_invDeg s p)).add (hb q)).add
    (isReal_sum _ _ fun k => (hh p k).mul (hwr q k))

/-- The bounded norm of a row of reals is a positive real. -/
theorem rowNorm_pos (v : Fin D → EReal) (hv : ∀ j, IsReal (v j)) : ∃ c : ℝ, 0 < c ∧ rowNorm v = (c : EReal) := by
  choose v' hv' using hv
  obtain ⟨ε, hε, heps⟩ := eps_pos
  refine ⟨max (Real.sqrt (∑ j, v' j * v' j)) ε, lt_max_of_lt_right hε, ?_⟩
  unfold rowNorm
  rw [heps, Finset.sum_congr rfl (fun j _ => by rw [hv' j, ← EReal.coe_mul]), sum_coe, Ideal.sqrt_coe,
    if_neg (not_lt.mpr (Finset.sum_nonneg fun j _ => mul_self_nonneg _))]
  exact (EReal.coe_strictMono.monotone.map_max).symm

theorem isReal_normalize (u : Fin N → Fin D → EReal) (hu : ∀ p q, IsReal (u p q)) (p : Fin N) (q : Fin D) :
    IsReal (normalize u p q) := by
  obtain ⟨c, hc, hn⟩ := rowNorm_pos (u p) (hu p)
  unfold normalize
  rw [hn]
  exact isReal_div (hu p q) (ne_of_gt hc)

theorem isReal_relu (u : Fin N → Fin D → EReal) (hu : ∀ p q, IsReal (u p q)) (p : Fin N) (q : Fin D) :
    IsReal (relu u p q) :=
  (hu p q).max ⟨0, EReal.coe_zero.symm⟩

/-- THE TWO NETWORKS AGREE on real features, real neighbour weights, and a real first-layer bias and self weights (the
    second layer's bias and self weights enter both sides alike and may be anything). -/
theorem kerOut_eq_refOut {K₁ D₁ D₂ : ℕ} (r : Fin E → Fin N) (s : Fin E → BitVec 32)
    (x : Fin N → Fin K₁ → EReal) (w1l : Fin D₁ → Fin K₁ → EReal) (b1 : Fin D₁ → EReal) (w1r : Fin D₁ → Fin K₁ → EReal)
    (w2l : Fin D₂ → Fin D₁ → EReal) (b2 : Fin D₂ → EReal) (w2r : Fin D₂ → Fin D₁ → EReal)
    (hx : ∀ n k, IsReal (x n k)) (hw1l : ∀ d k, IsReal (w1l d k)) (hb1 : ∀ d, IsReal (b1 d)) (hw1r : ∀ d k, IsReal (w1r d k))
    (hw2l : ∀ d k, IsReal (w2l d k)) :
    kerOut r s x w1l b1 w1r w2l b2 w2r = refOut r s x w1l b1 w1r w2l b2 w2r := by
  unfold kerOut refOut
  rw [← preK_eq_preR r s x w1l b1 w1r hx hw1l]
  rw [preK_eq_preR r s (relu (normalize (preK r s x w1l b1 w1r))) w2l b2 w2r
    (isReal_relu _ (isReal_normalize _ (isReal_preK r s x w1l b1 w1r hx hw1l hb1 hw1r))) hw2l]

end Cert.Spec

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.PreFacts.lean ====
/-
  What the precondition says, entry by entry.

  The precondition is the conjunction of eight tests, each an and-reduction over a whole array asserted to be 1: for each
  of the seven float arguments, |v| < +∞ at every entry, so every entry is a real number; and for the first row of the edge
  array (the node each edge reads), -100000 ≤ id < 100000 as signed integers at every edge.
-/
import proofs.«145111_j36661840838929_2_alg».proof.Pre_finite_inputs
import proofs.«145111_j36661840838929_2_alg».proof.Proof.Gen.Pre_finite_inputs
import proofs.«145111_j36661840838929_2_alg».proof.Proof.LibFiniteEntries
import Idealize.ShloMosaic.Lib.Affine

noncomputable section

namespace Cert.PreFacts

open Idealize.ShloMosaic Idealize.ShloMosaic.ValueIdx Cert.Lib Cert.Pre_finite_inputs Cert.Pre_finite_inputs.Facts

variable [hF : Cert.Pre_finite_inputs.Facts]

/-- The node each edge reads: the first row of the edge array, as a vector. -/
def src (a1 : IVec S2x1600000 32) : IVec S1600000 32 :=
  shapeCast S1600000 ((extractStridedSlice S1x1600000 ![0, 0] · slices_S2x1600000_S1x1600000_0_0) a1) shapeCasts_S1x1600000_S1600000

/-- Under the precondition every entry of every float argument is a real number, and every source id, read signed, lies in
    `[-100000, 100000)`. -/
theorem of_pre (a0 : FVec Ideal S100000x50 .f32) (a1 : IVec S2x1600000 32) (a2 : FVec Ideal S32x50 .f32) (a3 : FVec Ideal S32 .f32)
    (a4 : FVec Ideal S32x50 .f32) (a5 : FVec Ideal S16x32 .f32) (a6 : FVec Ideal S16 .f32) (a7 : FVec Ideal S16x32 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal))
      ∧ (∀ j : S1600000.Idx, -100000 ≤ (src a1 j).toInt ∧ (src a1 j).toInt < 100000) := by
  have h0 := congrFun h ix0
  dsimp only [fn, fn_part1, fn_part2, andi] at h0
  obtain ⟨h33, h43⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨real_of_all_finite a0 _ _ _ h3, real_of_all_finite a2 _ _ _ h7, real_of_all_finite a3 _ _ _ h12,
    real_of_all_finite a4 _ _ _ h17, real_of_all_finite a5 _ _ _ h22, real_of_all_finite a6 _ _ _ h27,
    real_of_all_finite a7 _ _ _ h32, fun j => ?_⟩
  have hj := Host.reduce_andi_all _ _ _ _ ix0 h43 j
  obtain ⟨hge, hlt⟩ := IntOp.andi_eq_one.1 hj
  have hlo : (4294867296#32 : BitVec 32).toInt = -100000 := by decide
  have hhi : (100000#32 : BitVec 32).toInt = 100000 := by decide
  refine ⟨?_, ?_⟩
  · have := IntOp.cmpi_sge.1 hge
    rw [← hlo]
    exact this
  · have := IntOp.cmpi_slt.1 hlt
    rw [← hhi]
    exact this

end Cert.PreFacts

end
-- ==== Proof.lean ====
/-
  A two-layer mean-aggregating graph network: four TensorCore regions among host gathers and scatters, against the plain
  host program, on the extended reals.

  Both programs compute, per layer and per node `p`, the mean over the incoming edges of the neighbours' features through
  one weight matrix, plus a bias, plus the node's own features through another; divide each row by its Euclidean norm
  bounded below by a small positive constant; and end the first layer in the positive part and the second in the row's
  log-softmax. They differ in one place: the kernel program projects every node to the output width first and sums the
  projected rows over the edges, multiplying by one over the degree, while the reference sums the raw rows, divides by the
  degree and projects the quotient. On the extended reals a product does not distribute over a sum at infinities, so the two
  agree because the data are real: every float argument is finite by the precondition, and a normalized row of reals is a
  row of reals, so the second layer is fed reals too. The precondition also keeps every source id a legal row index (or a
  legal negative one): outside that range a gather's fill row is read, at different widths by the two programs.

  The kernel program's run gives its result as the fold of its nine segments; read region by region and stretch by stretch
  it is the specification's network in the kernel's arrangement. The reference's run gives its result as one pure term,
  read index by index as the network in the reference's arrangement. The law joining the two is `kerOut_eq_refOut`.
-/
import proofs.«145111_j36661840838929_2_alg».proof.Defs
import proofs.«145111_j36661840838929_2_alg».proof.Proof.Gen.Kernel
import proofs.«145111_j36661840838929_2_alg».proof.Proof.Gen.Kernel.Frame
import proofs.«145111_j36661840838929_2_alg».proof.Proof.Gen.KernelIdeal
import proofs.«145111_j36661840838929_2_alg».proof.Proof.Gen.KernelIdeal.Frame
import proofs.«145111_j36661840838929_2_alg».proof.Proof.Gen.ReferenceIdeal
import proofs.«145111_j36661840838929_2_alg».proof.Proof.Gen.Pre_finite_inputs
import proofs.«145111_j36661840838929_2_alg».proof.Proof.KerRun
import proofs.«145111_j36661840838929_2_alg».proof.Proof.KerValue2
import proofs.«145111_j36661840838929_2_alg».proof.Proof.RefRun
import proofs.«145111_j36661840838929_2_alg».proof.Proof.RefRead
import proofs.«145111_j36661840838929_2_alg».proof.Proof.Law
import proofs.«145111_j36661840838929_2_alg».proof.Proof.PreFacts

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end with the same result array: entry by entry the kernel
    program's is the network projecting before the edges are summed, the reference's the network projecting the mean, and
    the two are one function of real data with legal source ids. -/
theorem algebraic : Cert.algebraic_KernelIdeal_ReferenceIdeal := by
  intro m ρ m' ρ' hpre hagree
  refine ⟨fun c => Cert.KernelIdeal.Gen.W9 m ρ c (Proc.devRef .tc Cert.KernelIdeal.main_v26), Cert.KernelIdeal.RunValue.run m ρ, ?_⟩
  refine (θ_run Cert.ReferenceIdeal.defs _ _).mono (fun r h c => ⟨(h c).1.trans ?_, (h c).2⟩)
    (Cert.ReferenceIdeal.RefValue.run m' ρ')
  obtain ⟨e0, e1, e2, e3, e4, e5, e6, e7⟩ := hagree c
  rw [e0, e1, e2, e3, e4, e5, e6, e7]
  obtain ⟨r0, r2, r3, r4, r5, r6, r7, hsrc⟩ := Cert.PreFacts.of_pre _ _ _ _ _ _ _ _ (hpre c)
  have hv : Cert.KernelIdeal.Tower.InRange m c := fun e => by
    have hs := hsrc (ix1 e)
    rwa [show Cert.PreFacts.src (Cert.KernelIdeal.Tower.a1 m c) (ix1 e) = Cert.KernelIdeal.Tower.a1 m c (ix2 (0 : Fin 2) e)
      from Cert.Graph.edgeRow0_apply _ _ _ e] at hs
  funext i
  obtain ⟨p, q, rfl⟩ : ∃ (p : Fin 100000) (q : Fin 16), i = ix2 p q := ⟨i 0, i 1, eq_ix2 i⟩
  refine (Cert.ReferenceIdeal.RefValue.result_apply _ _ _ _ _ _ _ _ hv p q).trans ?_
  refine Eq.trans ?_ (Cert.KernelIdeal.Tower.value m ρ c hv p q).symm
  exact (congrFun (congrFun (Cert.Spec.kerOut_eq_refOut _ _ _ _ _ _ _ _ _
    (fun n k => r0 (ix2 n k)) (fun d k => r2 (ix2 d k)) (fun d => r3 (ix1 d)) (fun d k => r4 (ix2 d k))
    (fun d k => r5 (ix2 d k))) p) q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
